-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x100x4 : Shape := ⟨3, ![30000, 100, 4]⟩
abbrev S30000 : Shape := ⟨1, ![30000]⟩
abbrev S30000x4 : Shape := ⟨2, ![30000, 4]⟩
abbrev S64x9 : Shape := ⟨2, ![64, 9]⟩
abbrev S64 : Shape := ⟨1, ![64]⟩
abbrev S_ : Shape := ⟨0, ![]⟩

class Facts : Prop where
  bcast_S_S30000x100x4 : S_.BroadcastsInDim S30000x100x4 (![] : Fin 0 → Fin S30000x100x4.rank)
  reducesTo_S30000x100x4_S_d0_1_2 : S30000x100x4.ReducesTo [0, 1, 2] S_
  h_S_ : 0 < S_.numel
  bcast_S_S64x9 : S_.BroadcastsInDim S64x9 (![] : Fin 0 → Fin S64x9.rank)
  reducesTo_S64x9_S_d0_1 : S64x9.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S30000x100x4 .f32) (main_arg1 : IVec S30000 32) (main_arg2 : IVec S30000x4 32) (main_arg3 : FVec F S64x9 .f32) (main_arg4 : FVec F S64 .f32) (main_arg5 : FVec F S64 .f32) : IVec S_ 1 :=
  let main_v0 : FVec F S30000x100x4 .f32 := Host.absf main_arg0
  let main_cst : FVec F S_ .f32 := constant S_ .f32 0x7F800000#32
  let main_v1 : FVec F S30000x100x4 .f32 := broadcastInDim S30000x100x4 ![] bcast_S_S30000x100x4 main_cst
  let main_v2 : IVec S30000x100x4 1 := cmpf .olt main_v0 main_v1
  let main_c : IVec S_ 1 := constantI S_ 1 1#1
  let main_v3 : IVec S_ 1 := (fun x v => Host.reduce IntOp.andi x v reducesTo_S30000x100x4_S_d0_1_2 h_S_) main_v2 main_c
  let main_v4 : FVec F S64x9 .f32 := Host.absf main_arg3
  let main_cst_0 : FVec F S_ .f32 := constant S_ .f32 0x7F800000#32
  let main_v5 : FVec F S64x9 .f32 := broadcastInDim S64x9 ![] bcast_S_S64x9 main_cst_0
  let main_v6 : IVec S64x9 1 := cmpf .olt main_v4 main_v5
  let main_c_1 : IVec S_ 1 := constantI S_ 1 1#1
  let main_v7 : IVec S_ 1 := (fun x v => Host.reduce IntOp.andi x v reducesTo_S64x9_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S30000x100x4 : Shape := ⟨3, ![30000, 100, 4]⟩
abbrev S30000 : Shape := ⟨1, ![30000]⟩
abbrev S30000x4 : Shape := ⟨2, ![30000, 4]⟩
abbrev S64x9 : Shape := ⟨2, ![64, 9]⟩
abbrev S64 : Shape := ⟨1, ![64]⟩
abbrev S30000x1 : Shape := ⟨2, ![30000, 1]⟩
abbrev S9x64 : Shape := ⟨2, ![9, 64]⟩
abbrev S1x64 : Shape := ⟨2, ![1, 64]⟩
abbrev S80x100x4 : Shape := ⟨3, ![80, 100, 4]⟩
abbrev S80x1 : Shape := ⟨2, ![80, 1]⟩
abbrev S80x4 : Shape := ⟨2, ![80, 4]⟩
abbrev S80x100x3 : Shape := ⟨3, ![80, 100, 3]⟩
abbrev S80x3 : Shape := ⟨2, ![80, 3]⟩
abbrev S80x1x3 : Shape := ⟨3, ![80, 1, 3]⟩
abbrev S80x100x1 : Shape := ⟨3, ![80, 100, 1]⟩
abbrev S80x100 : Shape := ⟨2, ![80, 100]⟩
abbrev S80x100x2 : Shape := ⟨3, ![80, 100, 2]⟩
abbrev S80x100x9 : Shape := ⟨3, ![80, 100, 9]⟩
abbrev S80x100x64 : Shape := ⟨3, ![80, 100, 64]⟩
abbrev S1x1x64 : Shape := ⟨3, ![1, 1, 64]⟩
abbrev S8000x64 : Shape := ⟨2, ![8000, 64]⟩
abbrev S_ : Shape := ⟨0, ![]⟩
abbrev S30000x64 : Shape := ⟨2, ![30000, 64]⟩
abbrev S80x64 : Shape := ⟨2, ![80, 64]⟩
abbrev S80x64x100 : Shape := ⟨3, ![80, 64, 100]⟩

abbrev nBuf : Space → Nat
  | .hbm => 25
  | .vmem => 24
  | .smem => 0
  | _ => 0

abbrev bufTy : (tb : Table) → Fin (tcTables nBuf tb) → BufTy
  | .hbm, ⟨0, _⟩ => ⟨S30000x100x4, .f32⟩
  | .hbm, ⟨1, _⟩ => ⟨S30000, .i32⟩
  | .hbm, ⟨2, _⟩ => ⟨S30000x4, .i32⟩
  | .hbm, ⟨3, _⟩ => ⟨S64x9, .f32⟩
  | .hbm, ⟨4, _⟩ => ⟨S64, .f32⟩
  | .hbm, ⟨5, _⟩ => ⟨S64, .f32⟩
  | .hbm, ⟨6, _⟩ => ⟨S30000x1, .i32⟩
  | .hbm, ⟨7, _⟩ => ⟨S9x64, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S1x64, .f32⟩
  | .hbm, ⟨23, _⟩ => ⟨S1x64, .f32⟩
  | .hbm, ⟨24, _⟩ => ⟨S30000x64, .f32⟩
  | .local _ .vmem, ⟨0, _⟩ => ⟨S80x100x4, .f32⟩
  | .local _ .vmem, ⟨1, _⟩ => ⟨S80x100x4, .f32⟩
  | .local _ .vmem, ⟨2, _⟩ => ⟨S80x1, .i32⟩
  | .local _ .vmem, ⟨3, _⟩ => ⟨S80x1, .i32⟩
  | .local _ .vmem, ⟨4, _⟩ => ⟨S80x4, .i32⟩
  | .local _ .vmem, ⟨5, _⟩ => ⟨S80x4, .i32⟩
  | .local _ .vmem, ⟨6, _⟩ => ⟨S9x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S80x100x4, .f32⟩
  | .local _ .vmem, ⟨12, _⟩ => ⟨S80x100x4, .f32⟩
  | .local _ .vmem, ⟨13, _⟩ => ⟨S80x1, .i32⟩
  | .local _ .vmem, ⟨14, _⟩ => ⟨S80x1, .i32⟩
  | .local _ .vmem, ⟨15, _⟩ => ⟨S80x4, .i32⟩
  | .local _ .vmem, ⟨16, _⟩ => ⟨S80x4, .i32⟩
  | .local _ .vmem, ⟨17, _⟩ => ⟨S9x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S80x64, .f32⟩
  | .local _ .vmem, ⟨23, _⟩ => ⟨S80x64, .f32⟩
  | _, _ => ⟨S30000x100x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![375], ![false]⟩

def k0_cond2 (i : grid0.Coords) : BitVec 1 :=
  let arg0 : BitVec 32 := BitVec.ofNat 32 (i 0).val
  let c374_i32 : BitVec 32 := 374#32
  let v138 : BitVec 1 := Scalar.cmpi .eq arg0 c374_i32
  let v139 : BitVec 32 := Scalar.extui v138
  let c0_i32_24 : BitVec 32 := 0#32
  let v140 : BitVec 1 := Scalar.cmpi .ne v139 c0_i32_24
  v140

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S80x100x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S80x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S80x4 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S9x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![375], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S80x100x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S80x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S80x4 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S9x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S80x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  shapeCasts_S30000_S30000x1 : S30000.ShapeCasts S30000x1
  transposes_S64x9_S9x64_1_0 : S64x9.Transposes [1, 0] S9x64
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S80x100x4_S80x100x4_0_0_0 : ∀ a, (![0, 0, 0] : Fin 3 → Nat) a + S80x100x4.size a ≤ S80x100x4.size a
  h_S80x100x4 : 0 < S80x100x4.numel
  inb_S80x1_S80x1_0_0 : ∀ a, (![0, 0] : Fin 2 → Nat) a + S80x1.size a ≤ S80x1.size a
  h_S80x1 : 0 < S80x1.numel
  shapeCasts_S80x1_S80x1 : S80x1.ShapeCasts S80x1
  inb_S80x4_S80x4_0_0 : ∀ a, (![0, 0] : Fin 2 → Nat) a + S80x4.size a ≤ S80x4.size a
  h_S80x4 : 0 < S80x4.numel
  slices_S80x100x4_o0_0_0_S80x100x3 : S80x100x4.Slices ![0, 0, 0] S80x100x3
  reduces_S80x100x3_S80x3 : S80x100x3.Reduces [1] S80x3
  broadcasts_S80x1_S80x3 : S80x1.Broadcasts S80x3
  shapeCasts_S80x3_S80x1x3 : S80x3.ShapeCasts S80x1x3
  broadcasts_S80x1x3_S80x100x3 : S80x1x3.Broadcasts S80x100x3
  slices_S80x4_o0_3_S80x1 : S80x4.Slices ![0, 3] S80x1
  slices_S80x4_o0_2_S80x1 : S80x4.Slices ![0, 2] S80x1
  slices_S80x100x4_o0_0_0_S80x100x1 : S80x100x4.Slices ![0, 0, 0] S80x100x1
  shapeCasts_S80x100x1_S80x100 : S80x100x1.ShapeCasts S80x100
  broadcasts_S80x1_S80x100 : S80x1.Broadcasts S80x100
  slices_S80x100x4_o0_0_1_S80x100x1 : S80x100x4.Slices ![0, 0, 1] S80x100x1
  shapeCasts_S80x100_S80x100x1 : S80x100.ShapeCasts S80x100x1
  concatenates_S80x100x1_S80x100x1_S80x100x2_d2 : Shape.Concatenates [S80x100x1, S80x100x1] S80x100x2 2
  concatenates_S80x100x4_S80x100x3_S80x100x2_S80x100x9_d2 : Shape.Concatenates [S80x100x4, S80x100x3, S80x100x2] S80x100x9 2
  iota_S80x100_d1_w32 : S80x100.Iotas .tc 32 [1]
  natLt_1_32 : 1 < 32
  broadcasts_S80x100x1_S80x100x9 : S80x100x1.Broadcasts S80x100x9
  inb_S9x64_S9x64_0_0 : ∀ a, (![0, 0] : Fin 2 → Nat) a + S9x64.size a ≤ S9x64.size a
  h_S9x64 : 0 < S9x64.numel
  shapeCasts_S9x64_S9x64 : S9x64.ShapeCasts S9x64
  slices_S9x64_o0_0_S1x64 : S9x64.Slices ![0, 0] S1x64
  shapeCasts_S1x64_S64 : S1x64.ShapeCasts S64
  shapeCasts_S64_S1x1x64 : S64.ShapeCasts S1x1x64
  slices_S80x100x9_o0_0_0_S80x100x1 : S80x100x9.Slices ![0, 0, 0] S80x100x1
  broadcasts_S80x100x1_S80x100x64 : S80x100x1.Broadcasts S80x100x64
  broadcasts_S1x1x64_S80x100x64 : S1x1x64.Broadcasts S80x100x64
  slices_S9x64_o1_0_S1x64 : S9x64.Slices ![1, 0] S1x64
  slices_S80x100x9_o0_0_1_S80x100x1 : S80x100x9.Slices ![0, 0, 1] S80x100x1
  slices_S9x64_o2_0_S1x64 : S9x64.Slices ![2, 0] S1x64
  slices_S80x100x9_o0_0_2_S80x100x1 : S80x100x9.Slices ![0, 0, 2] S80x100x1
  slices_S9x64_o3_0_S1x64 : S9x64.Slices ![3, 0] S1x64
  slices_S80x100x9_o0_0_3_S80x100x1 : S80x100x9.Slices ![0, 0, 3] S80x100x1
  slices_S9x64_o4_0_S1x64 : S9x64.Slices ![4, 0] S1x64
  slices_S80x100x9_o0_0_4_S80x100x1 : S80x100x9.Slices ![0, 0, 4] S80x100x1
  slices_S9x64_o5_0_S1x64 : S9x64.Slices ![5, 0] S1x64
  slices_S80x100x9_o0_0_5_S80x100x1 : S80x100x9.Slices ![0, 0, 5] S80x100x1
  slices_S9x64_o6_0_S1x64 : S9x64.Slices ![6, 0] S1x64
  slices_S80x100x9_o0_0_6_S80x100x1 : S80x100x9.Slices ![0, 0, 6] S80x100x1
  slices_S9x64_o7_0_S1x64 : S9x64.Slices ![7, 0] S1x64
  slices_S80x100x9_o0_0_7_S80x100x1 : S80x100x9.Slices ![0, 0, 7] S80x100x1
  slices_S9x64_o8_0_S1x64 : S9x64.Slices ![8, 0] S1x64
  slices_S80x100x9_o0_0_8_S80x100x1 : S80x100x9.Slices ![0, 0, 8] S80x100x1
  shapeCasts_S80x100x64_S8000x64 : S80x100x64.ShapeCasts S8000x64
  reduces_S8000x64_S64 : S8000x64.Reduces [0] S64
  bcast_S_S64 : S_.BroadcastsInDim S64 (![] : Fin 0 → Fin S64.rank)
  shapeCasts_S1x64_S1x1x64 : S1x64.ShapeCasts S1x1x64
  transposes_S80x100x64_p0_2_1_S80x64x100 : S80x100x64.Transposes [0, 2, 1] S80x64x100
  reduces_S80x64x100_S80x64 : S80x64x100.Reduces [2] S80x64
  inb_S80x64_S80x64_0_0 : ∀ a, (![0, 0] : Fin 2 → Nat) a + S80x64.size a ≤ S80x64.size a
  h_S80x64 : 0 < S80x64.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S80x100x4.size a ≤ S30000x100x4.size a
  hwx0_0 : ∀ i : grid0.Coords, EltTy.bits .f32 = 32 ∨ (Rect.block (s := S30000x100x4) S80x100x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S80x1.size a ≤ S30000x1.size a
  hwx0_1 : ∀ i : grid0.Coords, EltTy.bits .i32 = 32 ∨ (Rect.block (s := S30000x1) S80x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S80x4.size a ≤ S30000x4.size a
  hwx0_2 : ∀ i : grid0.Coords, EltTy.bits .i32 = 32 ∨ (Rect.block (s := S30000x4) S80x4.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x64.size a ≤ S9x64.size a
  hwx0_3 : ∀ i : grid0.Coords, EltTy.bits .f32 = 32 ∨ (Rect.block (s := S9x64) S9x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S80x100x4.size a ≤ S30000x100x4.size a
  hwx1_0 : ∀ i : grid1.Coords, EltTy.bits .f32 = 32 ∨ (Rect.block (s := S30000x100x4) S80x100x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S80x1.size a ≤ S30000x1.size a
  hwx1_1 : ∀ i : grid1.Coords, EltTy.bits .i32 = 32 ∨ (Rect.block (s := S30000x1) S80x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S80x4.size a ≤ S30000x4.size a
  hwx1_2 : ∀ i : grid1.Coords, EltTy.bits .i32 = 32 ∨ (Rect.block (s := S30000x4) S80x4.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S9x64.size a ≤ S9x64.size a
  hwx1_3 : ∀ i : grid1.Coords, EltTy.bits .f32 = 32 ∨ (Rect.block (s := S9x64) S9x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S80x64.size a ≤ S30000x64.size a
  hwx1_8 : ∀ i : grid1.Coords, EltTy.bits .f32 = 32 ∨ (Rect.block (s := S30000x64) S80x64.size (cc1_transform_8 i) (hinb1_8 i)).WholeWords (EltTy.packing .f32)

variable [Facts₀]

abbrev win0_0 : Pipeline.Window sig grid0 :=
  Pipeline.Window.ofSpec (Memref.whole main_arg0) S80x100x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S80x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S80x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S9x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S80x100x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S80x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S80x4.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S9x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v3) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v15) S80x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S30000x100x4 : Shape := ⟨3, ![30000, 100, 4]⟩
abbrev S30000 : Shape := ⟨1, ![30000]⟩
abbrev S30000x4 : Shape := ⟨2, ![30000, 4]⟩
abbrev S64x9 : Shape := ⟨2, ![64, 9]⟩
abbrev S64 : Shape := ⟨1, ![64]⟩
abbrev S30000x100x3 : Shape := ⟨3, ![30000, 100, 3]⟩
abbrev S_ : Shape := ⟨0, ![]⟩
abbrev S30000x3 : Shape := ⟨2, ![30000, 3]⟩
abbrev S30000x1x3 : Shape := ⟨3, ![30000, 1, 3]⟩
abbrev S30000x1x1 : Shape := ⟨3, ![30000, 1, 1]⟩
abbrev S30000x1 : Shape := ⟨2, ![30000, 1]⟩
abbrev S30000x100x1 : Shape := ⟨3, ![30000, 100, 1]⟩
abbrev S30000x100 : Shape := ⟨2, ![30000, 100]⟩
abbrev S30000x100x2 : Shape := ⟨3, ![30000, 100, 2]⟩
abbrev S30000x100x9 : Shape := ⟨3, ![30000, 100, 9]⟩
abbrev S100 : Shape := ⟨1, ![100]⟩
abbrev S1x100 : Shape := ⟨2, ![1, 100]⟩
abbrev S30000x100x64 : Shape := ⟨3, ![30000, 100, 64]⟩
abbrev S1x1x64 : Shape := ⟨3, ![1, 1, 64]⟩
abbrev S30000x64 : Shape := ⟨2, ![30000, 64]⟩

abbrev nBuf : Space → Nat
  | .hbm => 95
  | .vmem => 0
  | .smem => 0
  | _ => 0

abbrev bufTy : (tb : Table) → Fin (tcTables nBuf tb) → BufTy
  | .hbm, ⟨0, _⟩ => ⟨S30000x100x4, .f32⟩
  | .hbm, ⟨1, _⟩ => ⟨S30000, .i32⟩
  | .hbm, ⟨2, _⟩ => ⟨S30000x4, .i32⟩
  | .hbm, ⟨3, _⟩ => ⟨S64x9, .f32⟩
  | .hbm, ⟨4, _⟩ => ⟨S64, .f32⟩
  | .hbm, ⟨5, _⟩ => ⟨S64, .f32⟩
  | .hbm, ⟨6, _⟩ => ⟨S30000, .f32⟩
  | .hbm, ⟨7, _⟩ => ⟨S30000x100x3, .f32⟩
  | .hbm, ⟨8, _⟩ => ⟨S_, .f32⟩
  | .hbm, ⟨9, _⟩ => ⟨S30000x3, .f32⟩
  | .hbm, ⟨10, _⟩ => ⟨S30000x1x3, .f32⟩
  | .hbm, ⟨11, _⟩ => ⟨S30000x1x1, .f32⟩
  | .hbm, ⟨12, _⟩ => ⟨S30000x1x3, .f32⟩
  | .hbm, ⟨13, _⟩ => ⟨S30000x1x3, .f32⟩
  | .hbm, ⟨14, _⟩ => ⟨S30000x100x3, .f32⟩
  | .hbm, ⟨15, _⟩ => ⟨S30000x100x3, .f32⟩
  | .hbm, ⟨16, _⟩ => ⟨S30000x100x3, .f32⟩
  | .hbm, ⟨17, _⟩ => ⟨S30000x1, .i32⟩
  | .hbm, ⟨18, _⟩ => ⟨S30000, .i32⟩
  | .hbm, ⟨19, _⟩ => ⟨S30000, .f32⟩
  | .hbm, ⟨20, _⟩ => ⟨S30000x1, .f32⟩
  | .hbm, ⟨21, _⟩ => ⟨S30000x1, .i32⟩
  | .hbm, ⟨22, _⟩ => ⟨S30000, .i32⟩
  | .hbm, ⟨23, _⟩ => ⟨S30000, .f32⟩
  | .hbm, ⟨24, _⟩ => ⟨S30000x1, .f32⟩
  | .hbm, ⟨25, _⟩ => ⟨S30000x100x1, .f32⟩
  | .hbm, ⟨26, _⟩ => ⟨S30000x100, .f32⟩
  | .hbm, ⟨27, _⟩ => ⟨S_, .f32⟩
  | .hbm, ⟨28, _⟩ => ⟨S30000x1, .f32⟩
  | .hbm, ⟨29, _⟩ => ⟨S30000x1, .f32⟩
  | .hbm, ⟨30, _⟩ => ⟨S_, .f32⟩
  | .hbm, ⟨31, _⟩ => ⟨S30000x1, .f32⟩
  | .hbm, ⟨32, _⟩ => ⟨S30000x1, .f32⟩
  | .hbm, ⟨33, _⟩ => ⟨S30000x100, .f32⟩
  | .hbm, ⟨34, _⟩ => ⟨S30000x100, .f32⟩
  | .hbm, ⟨35, _⟩ => ⟨S30000x100x1, .f32⟩
  | .hbm, ⟨36, _⟩ => ⟨S30000x100, .f32⟩
  | .hbm, ⟨37, _⟩ => ⟨S_, .f32⟩
  | .hbm, ⟨38, _⟩ => ⟨S30000x1, .f32⟩
  | .hbm, ⟨39, _⟩ => ⟨S30000x1, .f32⟩
  | .hbm, ⟨40, _⟩ => ⟨S_, .f32⟩
  | .hbm, ⟨41, _⟩ => ⟨S30000x1, .f32⟩
  | .hbm, ⟨42, _⟩ => ⟨S30000x1, .f32⟩
  | .hbm, ⟨43, _⟩ => ⟨S30000x100, .f32⟩
  | .hbm, ⟨44, _⟩ => ⟨S30000x100, .f32⟩
  | .hbm, ⟨45, _⟩ => ⟨S30000x100x1, .f32⟩
  | .hbm, ⟨46, _⟩ => ⟨S30000x100x1, .f32⟩
  | .hbm, ⟨47, _⟩ => ⟨S30000x100x2, .f32⟩
  | .hbm, ⟨48, _⟩ => ⟨S30000x100x9, .f32⟩
  | .hbm, ⟨49, _⟩ => ⟨S100, .i32⟩
  | .hbm, ⟨50, _⟩ => ⟨S1x100, .i32⟩
  | .hbm, ⟨51, _⟩ => ⟨S30000x1, .i32⟩
  | .hbm, ⟨52, _⟩ => ⟨S30000x100, .i32⟩
  | .hbm, ⟨53, _⟩ => ⟨S30000x100, .i32⟩
  | .hbm, ⟨54, _⟩ => ⟨S30000x100, .i1⟩
  | .hbm, ⟨55, _⟩ => ⟨S30000x100, .f32⟩
  | .hbm, ⟨56, _⟩ => ⟨S30000x100x1, .f32⟩
  | .hbm, ⟨57, _⟩ => ⟨S30000x100x9, .f32⟩
  | .hbm, ⟨58, _⟩ => ⟨S30000x100x9, .f32⟩
  | .hbm, ⟨59, _⟩ => ⟨S30000x100x64, .f32⟩
  | .hbm, ⟨60, _⟩ => ⟨S_, .f32⟩
  | .hbm, ⟨61, _⟩ => ⟨S64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S1x1x64, .f32⟩
  | .hbm, ⟨66, _⟩ => ⟨S30000x100x64, .f32⟩
  | .hbm, ⟨67, _⟩ => ⟨S30000x100x64, .f32⟩
  | .hbm, ⟨68, _⟩ => ⟨S30000x100x64, .f32⟩
  | .hbm, ⟨69, _⟩ => ⟨S_, .f32⟩
  | .hbm, ⟨70, _⟩ => ⟨S64, .f32⟩
  | .hbm, ⟨71, _⟩ => ⟨S_, .f32⟩
  | .hbm, ⟨72, _⟩ => ⟨S64, .f32⟩
  | .hbm, ⟨73, _⟩ => ⟨S64, .f32⟩
  | .hbm, ⟨74, _⟩ => ⟨S1x1x64, .f32⟩
  | .hbm, ⟨75, _⟩ => ⟨S30000x100x64, .f32⟩
  | .hbm, ⟨76, _⟩ => ⟨S30000x100x64, .f32⟩
  | .hbm, ⟨77, _⟩ => ⟨S_, .f32⟩
  | .hbm, ⟨78, _⟩ => ⟨S64, .f32⟩
  | .hbm, ⟨79, _⟩ => ⟨S64, .f32⟩
  | .hbm, ⟨80, _⟩ => ⟨S64, .f32⟩
  | .hbm, ⟨81, _⟩ => ⟨S1x1x64, .f32⟩
  | .hbm, ⟨82, _⟩ => ⟨S30000x100x64, .f32⟩
  | .hbm, ⟨83, _⟩ => ⟨S30000x100x64, .f32⟩
  | .hbm, ⟨84, _⟩ => ⟨S1x1x64, .f32⟩
  | .hbm, ⟨85, _⟩ => ⟨S30000x100x64, .f32⟩
  | .hbm, ⟨86, _⟩ => ⟨S30000x100x64, .f32⟩
  | .hbm, ⟨87, _⟩ => ⟨S1x1x64, .f32⟩
  | .hbm, ⟨88, _⟩ => ⟨S30000x100x64, .f32⟩
  | .hbm, ⟨89, _⟩ => ⟨S30000x100x64, .f32⟩
  | .hbm, ⟨90, _⟩ => ⟨S_, .f32⟩
  | .hbm, ⟨91, _⟩ => ⟨S30000x100x64, .f32⟩
  | .hbm, ⟨92, _⟩ => ⟨S30000x100x64, .f32⟩
  | .hbm, ⟨93, _⟩ => ⟨S_, .f32⟩
  | .hbm, ⟨94, _⟩ => ⟨S30000x64, .f32⟩
  | _, _ => ⟨S30000x100x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_4 : Ref sig .tc := ⟨.hbm, 60, rfl⟩
abbrev main_v49 : Ref sig .tc := ⟨.hbm, 61, rfl⟩
abbrev main_cst_5 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_6 : Ref sig .tc := ⟨.hbm, 69, rfl⟩
abbrev main_v56 : Ref sig .tc := ⟨.hbm, 70, rfl⟩
abbrev main_cst_7 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_8 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_call0_cst : Ref sig .tc := ⟨.hbm, 90, rfl⟩
abbrev main_call0_v0 : Ref sig .tc := ⟨.hbm, 91, rfl⟩
abbrev main_v74 : Ref sig .tc := ⟨.hbm, 92, rfl⟩
abbrev main_cst_9 : Ref sig .tc := ⟨.hbm, 93, rfl⟩
abbrev main_v75 : Ref sig .tc := ⟨.hbm, 94, rfl⟩

abbrev nD : Nat := 1
abbrev τ : Topo := Topo.v7x

variable {F : FTy → Type} [FloatOps F]

class Facts₀ : Prop where
  slices_S30000x100x4_S30000x100x3_0_0_0 : S30000x100x4.Slices ![0, 0, 0] S30000x100x3
  reducesTo_S30000x100x3_S30000x3_d1 : S30000x100x3.ReducesTo [1] S30000x3
  h_S_ : 0 < S_.numel
  bcast_S30000x3_S30000x1x3_0_2 : S30000x3.BroadcastsInDim S30000x1x3 (![0, 2] : Fin 2 → Fin S30000x1x3.rank)
  bcast_S30000_S30000x1x1_0 : S30000.BroadcastsInDim S30000x1x1 (![0] : Fin 1 → Fin S30000x1x1.rank)
  bcast_S30000x1x1_S30000x1x3_0_1_2 : S30000x1x1.BroadcastsInDim S30000x1x3 (![0, 1, 2] : Fin 3 → Fin S30000x1x3.rank)
  bcast_S30000x1x3_S30000x100x3_0_1_2 : S30000x1x3.BroadcastsInDim S30000x100x3 (![0, 1, 2] : Fin 3 → Fin S30000x100x3.rank)
  slices_S30000x4_S30000x1_0_3 : S30000x4.Slices ![0, 3] S30000x1
  shapeCasts_S30000x1_S30000 : S30000x1.ShapeCasts S30000
  bcast_S30000_S30000x1_0 : S30000.BroadcastsInDim S30000x1 (![0] : Fin 1 → Fin S30000x1.rank)
  slices_S30000x4_S30000x1_0_2 : S30000x4.Slices ![0, 2] S30000x1
  slices_S30000x100x4_S30000x100x1_0_0_0 : S30000x100x4.Slices ![0, 0, 0] S30000x100x1
  shapeCasts_S30000x100x1_S30000x100 : S30000x100x1.ShapeCasts S30000x100
  bcast_S_S30000x1 : S_.BroadcastsInDim S30000x1 (![] : Fin 0 → Fin S30000x1.rank)
  bcast_S30000x1_S30000x100_0_1 : S30000x1.BroadcastsInDim S30000x100 (![0, 1] : Fin 2 → Fin S30000x100.rank)
  slices_S30000x100x4_S30000x100x1_0_0_1 : S30000x100x4.Slices ![0, 0, 1] S30000x100x1
  bcast_S30000x100_S30000x100x1_0_1 : S30000x100.BroadcastsInDim S30000x100x1 (![0, 1] : Fin 2 → Fin S30000x100x1.rank)
  concatenates_S30000x100x1_S30000x100x1_S30000x100x2_d2 : Shape.Concatenates [S30000x100x1, S30000x100x1] S30000x100x2 2
  concatenates_S30000x100x4_S30000x100x3_S30000x100x2_S30000x100x9_d2 : Shape.Concatenates [S30000x100x4, S30000x100x3, S30000x100x2] S30000x100x9 2
  bcast_S100_S1x100_1 : S100.BroadcastsInDim S1x100 (![1] : Fin 1 → Fin S1x100.rank)
  bcast_S1x100_S30000x100_0_1 : S1x100.BroadcastsInDim S30000x100 (![0, 1] : Fin 2 → Fin S30000x100.rank)
  bcast_S30000x100x1_S30000x100x9_0_1_2 : S30000x100x1.BroadcastsInDim S30000x100x9 (![0, 1, 2] : Fin 3 → Fin S30000x100x9.rank)
  reducesTo_S30000x100x64_S64_d0_1 : S30000x100x64.ReducesTo [0, 1] S64
  bcast_S_S64 : S_.BroadcastsInDim S64 (![] : Fin 0 → Fin S64.rank)
  bcast_S64_S1x1x64_2 : S64.BroadcastsInDim S1x1x64 (![2] : Fin 1 → Fin S1x1x64.rank)
  bcast_S1x1x64_S30000x100x64_0_1_2 : S1x1x64.BroadcastsInDim S30000x100x64 (![0, 1, 2] : Fin 3 → Fin S30000x100x64.rank)
  bcast_S_S30000x100x64 : S_.BroadcastsInDim S30000x100x64 (![] : Fin 0 → Fin S30000x100x64.rank)
  reducesTo_S30000x100x64_S30000x64_d1 : S30000x100x64.ReducesTo [1] S30000x64
  dot_S30000x100x9_S64x9_S30000x100x64_2_1_01_0_n_n_wf : DotDims.WF S30000x100x9 S64x9 S30000x100x64 [2] [1] [0, 1] [0] [] []

variable [Facts₀]

def dot_S30000x100x9_S64x9_S30000x100x64_2_1_01_0_n_n : DotDims S30000x100x9 S64x9 S30000x100x64 where
  lhsContracting := [2]
  rhsContracting := [1]
  lhsNonContracting := [0, 1]
  rhsNonContracting := [0]
  lhsBatch := []
  rhsBatch := []
  wf := dot_S30000x100x9_S64x9_S30000x100x64_2_1_01_0_n_n_wf

class Facts : Prop extends Facts₀ where

variable [Facts]
-- ==== Proof.KR0Conds.lean ====
/-
  The first kernel (per-channel sums of the linear layer's outputs and of their squares, accumulated over the grid in
  two scratch rows): what its three control cases are stated over — the two branch conditions in closed form over the
  grid (first point: the scratch rows are zeroed; last point: they are copied to the two output windows), where the
  output windows are idle, and the memrefs the body is called with.
-/
import proofs.«150693_j22273700397341_2_alg».proof.Proof.Gen.Kernel.Launch
import proofs.«150693_j22273700397341_2_alg».proof.Proof.Gen.Kernel.Skeleton
import proofs.«150693_j22273700397341_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch (zero the scratch rows), from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The body's last branch (copy the scratch rows out), from the grid coordinate. -/
abbrev cond0_2 (i : grid0.Coords) : Prop := k0_cond2 i = 1#1
/-- It holds at the last point only. -/
theorem hcond0_2 : ∀ t : Fin cfg0.N, cond0_2 (grid0.coords t) ↔ t.val = 374 :=
  (by decide +kernel : ∀ t : Fin grid0.N, cond0_2 (grid0.coords t) ↔ t.val = 374)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last point output window 4 is idle and is not written back; at the last point it is live. -/
theorem idleAt0_4 : ∀ t : Fin cfg0.N, ¬cond0_2 (grid0.coords t) → cfg0.idle 4 (grid0.coords t) = true := by decide +kernel
theorem noFlush0_4 : ∀ t : Fin cfg0.N, ¬cond0_2 (grid0.coords t) → (cfg0.win 4).flush t = false := by decide +kernel
theorem liveAt0_4 : ∀ t : Fin cfg0.N, cond0_2 (grid0.coords t) → cfg0.idle 4 (grid0.coords t) = false := by decide +kernel
/-- Away from the last point output window 5 is idle and is not written back; at the last point it is live. -/
theorem idleAt0_5 : ∀ t : Fin cfg0.N, ¬cond0_2 (grid0.coords t) → cfg0.idle 5 (grid0.coords t) = true := by decide +kernel
theorem noFlush0_5 : ∀ t : Fin cfg0.N, ¬cond0_2 (grid0.coords t) → (cfg0.win 5).flush t = false := by decide +kernel
theorem liveAt0_5 : ∀ t : Fin cfg0.N, cond0_2 (grid0.coords t) → cfg0.idle 5 (grid0.coords t) = false := by decide +kernel

/-- Each window's current staging memref at point `t`, as the pipeline passes it to the body, and its wholeness. -/
abbrev ms0_0 (t : Fin cfg0.N) : Memref sig .tc .vmem S80x100x4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S80x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S80x4 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S9x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
/-- The two scratch rows: whole scoped buffers of the kernel's own, carried from point to point. -/
abbrev scM0_0 : Memref sig .tc .vmem S1x64 .f32 := Memref.whole cc0_scratch0
abbrev scM0_1 : Memref sig .tc .vmem S1x64 .f32 := Memref.whole cc0_scratch1
abbrev VS0_0 : View sig .tc .vmem S1x64 .f32 := scM0_0.view
abbrev VS0_1 : View sig .tc .vmem S1x64 .f32 := scM0_1.view
/-- One staging buffer of each output window, through which its contents are stated. -/
abbrev VO0_4 : View sig .tc .vmem S1x64 .f32 := (Memref.whole cc0_stg4_0 : Memref sig .tc .vmem S1x64 .f32).view
abbrev VO0_5 : View sig .tc .vmem S1x64 .f32 := (Memref.whole cc0_stg5_0 : Memref sig .tc .vmem S1x64 .f32).view

end Cert.Kernel.Hand

end
-- ==== Proof.KR0RunA.lean ====
/-
  The first kernel at the grid's FIRST point: the two scratch rows, found at anything, are zeroed and then receive the block's sums; the output windows are not touched.
-/
import proofs.«150693_j22273700397341_2_alg».proof.Proof.KR0Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, with the run that finds them. -/
noncomputable def run0_A (c : Dev nD) (i : grid0.Coords) (arg1 : Memref sig .tc .vmem S80x100x4 .f32) (harg1 : arg1.IsWhole) (arg2 : Memref sig .tc .vmem S80x1 .i32) (harg2 : arg2.IsWhole) (arg3 : Memref sig .tc .vmem S80x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc2 : ¬cond0_2 i)
    (x1 : Vec F S80x100x4 .f32) (x2 : Vec F S80x1 .i32) (x3 : Vec F S80x4 .i32) (x4 : Vec F S9x64 .f32) :
    Σ' (LS7 : List (View.Piece (Elt F) S1x64 .f32)), { LS8 : List (View.Piece (Elt F) S1x64 .f32) //
      ∀ (xi5 : Vec F S1x64 .f32) (xi6 : Vec F S1x64 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare xi5 ∗ owns (c : Thread nD τ) arg6 fullShare xi6 ∗ (∃ d, owns (c : Thread nD τ) arg7 fullShare d) ∗ (∃ d, owns (c : Thread nD τ) arg8 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare xi5 ∗ owns (c : Thread nD τ) arg6 fullShare xi6 ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8)) -∗ K ⟨⟩))
          ⊢ wp frame (wpE (defs₀ (F := F)) Variants.none c none) E (cc0__pass1_kernel i arg1 harg1 arg2 harg2 arg3 harg3 arg4 harg4 arg5 harg5 arg6 harg6 arg7 harg7 arg8 harg8) K } := by
  refine ⟨?_, ?_, fun xi5 xi6 E K => ?run⟩
  case run =>
    simp only [cc0__pass1_kernel_eq_skeleton]; unfold cc0__pass1_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6
    sl_exec (disch := first | exact hc0 | exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    iexists _; iexact H8

end Cert.Kernel.Hand

end
-- ==== Proof.KR0RunB.lean ====
/-
  The first kernel at a MIDDLE grid point: the two scratch rows, found at what the point before left, receive the block's sums added in; the output windows are not touched.
-/
import proofs.«150693_j22273700397341_2_alg».proof.Proof.KR0Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, with the run that finds them. -/
noncomputable def run0_B (c : Dev nD) (i : grid0.Coords) (arg1 : Memref sig .tc .vmem S80x100x4 .f32) (harg1 : arg1.IsWhole) (arg2 : Memref sig .tc .vmem S80x1 .i32) (harg2 : arg2.IsWhole) (arg3 : Memref sig .tc .vmem S80x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc2 : ¬cond0_2 i)
    (x1 : Vec F S80x100x4 .f32) (x2 : Vec F S80x1 .i32) (x3 : Vec F S80x4 .i32) (x4 : Vec F S9x64 .f32) (xs7 : Vec F S1x64 .f32) (xs8 : Vec F S1x64 .f32) :
    Σ' (LS7 : List (View.Piece (Elt F) S1x64 .f32)), { LS8 : List (View.Piece (Elt F) S1x64 .f32) //
      ∀ (xi5 : Vec F S1x64 .f32) (xi6 : Vec F S1x64 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare xi5 ∗ owns (c : Thread nD τ) arg6 fullShare xi6 ∗ owns (c : Thread nD τ) arg7 fullShare xs7 ∗ owns (c : Thread nD τ) arg8 fullShare xs8
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare xi5 ∗ owns (c : Thread nD τ) arg6 fullShare xi6 ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8)) -∗ K ⟨⟩))
          ⊢ wp frame (wpE (defs₀ (F := F)) Variants.none c none) E (cc0__pass1_kernel i arg1 harg1 arg2 harg2 arg3 harg3 arg4 harg4 arg5 harg5 arg6 harg6 arg7 harg7 arg8 harg8) K } := by
  refine ⟨?_, ?_, fun xi5 xi6 E K => ?run⟩
  case run =>
    simp only [cc0__pass1_kernel_eq_skeleton]; unfold cc0__pass1_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7; obtain rfl := harg8.eq_unread hf8
    sl_exec (disch := first | exact hc0 | exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    iexists _; iexact H8

end Cert.Kernel.Hand

end
-- ==== Proof.KR0RunC.lean ====
/-
  The first kernel at the grid's LAST point: the two scratch rows receive the block's sums added in and are then copied whole into the two output windows.
-/
import proofs.«150693_j22273700397341_2_alg».proof.Proof.KR0Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, with the run that finds them. -/
noncomputable def run0_C (c : Dev nD) (i : grid0.Coords) (arg1 : Memref sig .tc .vmem S80x100x4 .f32) (harg1 : arg1.IsWhole) (arg2 : Memref sig .tc .vmem S80x1 .i32) (harg2 : arg2.IsWhole) (arg3 : Memref sig .tc .vmem S80x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc2 : cond0_2 i)
    (x1 : Vec F S80x100x4 .f32) (x2 : Vec F S80x1 .i32) (x3 : Vec F S80x4 .i32) (x4 : Vec F S9x64 .f32) (xs7 : Vec F S1x64 .f32) (xs8 : Vec F S1x64 .f32) :
    Σ' (L5 : List (View.Piece (Elt F) S1x64 .f32)) (L6 : List (View.Piece (Elt F) S1x64 .f32)) (LS7 : List (View.Piece (Elt F) S1x64 .f32)), { LS8 : List (View.Piece (Elt F) S1x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ owns (c : Thread nD τ) arg7 fullShare xs7 ∗ owns (c : Thread nD τ) arg8 fullShare xs8
            ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8)) -∗ K ⟨⟩))
          ⊢ wp frame (wpE (defs₀ (F := F)) Variants.none c none) E (cc0__pass1_kernel i arg1 harg1 arg2 harg2 arg3 harg3 arg4 harg4 arg5 harg5 arg6 harg6 arg7 harg7 arg8 harg8) K } := by
  refine ⟨?_, ?_, ?_, ?_, fun E K => ?run⟩
  case run =>
    simp only [cc0__pass1_kernel_eq_skeleton]; unfold cc0__pass1_kernel_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
    obtain rfl := harg1.eq_unread hf1; obtain rfl := harg2.eq_unread hf2; obtain rfl := harg3.eq_unread hf3; obtain rfl := harg4.eq_unread hf4
    obtain rfl := harg7.eq_unread hf7; obtain rfl := harg8.eq_unread hf8
    sl_exec (disch := first | exact hc0 | exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    iexists _; iexact H8

end Cert.Kernel.Hand

end
-- ==== Proof.KR0Frame.lean ====
/-
  The first kernel's half of the run, at the buffer contents `V` found when its region is entered. The two scratch
  rows carry the running per-channel sums from grid point to grid point: `accAt n` is what they hold after point `n`
  (zeroed and summed at the first point, summed into afterwards). The two output windows are idle until the last
  point, where they receive copies of the scratch rows. The region's proof data name these contents, the invariant
  between points holds the scratch rows at `accAt`, and the body obligation is shown case by case.
-/
import proofs.«150693_j22273700397341_2_alg».proof.Proof.KR0RunA
import proofs.«150693_j22273700397341_2_alg».proof.Proof.KR0RunB
import proofs.«150693_j22273700397341_2_alg».proof.Proof.KR0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The scoped buffers of the core that are neither this kernel's staging buffers nor its scratch rows (the other
    kernel's staging buffers), each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f))

/-- The class invariant with the two scratch rows as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA others0; rw [scopedRest0_eq]; simp only [scM0_0, scM0_1, owns_whole]; try rfl

/-! ## The three cases at a point -/

abbrev KA (c : Dev nD) (t : Fin cfg0.N) (h0 : cond0_0 (grid0.coords t)) (h2 : ¬cond0_2 (grid0.coords t)) :=
  run0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h2 (iblk0 V c 0 t) (iblk0 V c 1 t) (iblk0 V c 2 t) (iblk0 V c 3 t)
abbrev KB (c : Dev nD) (t : Fin cfg0.N) (h0 : ¬cond0_0 (grid0.coords t)) (h2 : ¬cond0_2 (grid0.coords t)) (xs7 xs8 : Vec F S1x64 .f32) :=
  run0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h2 (iblk0 V c 0 t) (iblk0 V c 1 t) (iblk0 V c 2 t) (iblk0 V c 3 t) xs7 xs8
abbrev KC (c : Dev nD) (t : Fin cfg0.N) (h0 : ¬cond0_0 (grid0.coords t)) (h2 : cond0_2 (grid0.coords t)) (xs7 xs8 : Vec F S1x64 .f32) :=
  run0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h2 (iblk0 V c 0 t) (iblk0 V c 1 t) (iblk0 V c 2 t) (iblk0 V c 3 t) xs7 xs8

/-- A list of pieces read back through a view over junk. -/
abbrev rb (v : View sig .tc .vmem S1x64 .f32) (L : List (View.Piece (Elt F) S1x64 .f32)) : Vec F S1x64 .f32 :=
  v.read (Elt F) (v.writes (Elt F) v.junk L)

/-- What each case leaves in the scratch rows (and, at the last point, in the output windows' buffers). -/
def sA (c : Dev nD) (t : Fin cfg0.N) (h0 : cond0_0 (grid0.coords t)) (h2 : ¬cond0_2 (grid0.coords t)) : Vec F S1x64 .f32 × Vec F S1x64 .f32 :=
  (rb VS0_0 (KA V c t h0 h2).1, rb VS0_1 (KA V c t h0 h2).2.1)
def sB (c : Dev nD) (t : Fin cfg0.N) (h0 : ¬cond0_0 (grid0.coords t)) (h2 : ¬cond0_2 (grid0.coords t)) (xs : Vec F S1x64 .f32 × Vec F S1x64 .f32) : Vec F S1x64 .f32 × Vec F S1x64 .f32 :=
  (rb VS0_0 (KB V c t h0 h2 xs.1 xs.2).1, rb VS0_1 (KB V c t h0 h2 xs.1 xs.2).2.1)
def sC (c : Dev nD) (t : Fin cfg0.N) (h0 : ¬cond0_0 (grid0.coords t)) (h2 : cond0_2 (grid0.coords t)) (xs : Vec F S1x64 .f32 × Vec F S1x64 .f32) : Vec F S1x64 .f32 × Vec F S1x64 .f32 :=
  (rb VS0_0 (KC V c t h0 h2 xs.1 xs.2).2.2.1, rb VS0_1 (KC V c t h0 h2 xs.1 xs.2).2.2.2.1)
def oC (c : Dev nD) (t : Fin cfg0.N) (h0 : ¬cond0_0 (grid0.coords t)) (h2 : cond0_2 (grid0.coords t)) (xs : Vec F S1x64 .f32 × Vec F S1x64 .f32) : Vec F S1x64 .f32 × Vec F S1x64 .f32 :=
  (rb VO0_4 (KC V c t h0 h2 xs.1 xs.2).1, rb VO0_5 (KC V c t h0 h2 xs.1 xs.2).2.1)

/-- Each case's pieces cover the buffer they are stored into. -/
theorem covA7 (c : Dev nD) (t : Fin cfg0.N) (h0) (h2) (y : S1x64.Idx) : ∃ pc ∈ (KA V c t h0 h2).1, y ∈ pc.1.set :=
  View.cover_of_tiledL (KA V c t h0 h2).1 S1x64.size (by sl_kernel_rfl) y
theorem covA8 (c : Dev nD) (t : Fin cfg0.N) (h0) (h2) (y : S1x64.Idx) : ∃ pc ∈ (KA V c t h0 h2).2.1, y ∈ pc.1.set :=
  View.cover_of_tiledL (KA V c t h0 h2).2.1 S1x64.size (by sl_kernel_rfl) y
theorem covB7 (c : Dev nD) (t : Fin cfg0.N) (h0) (h2) (xs7 xs8) (y : S1x64.Idx) : ∃ pc ∈ (KB V c t h0 h2 xs7 xs8).1, y ∈ pc.1.set :=
  View.cover_of_tiledL (KB V c t h0 h2 xs7 xs8).1 S1x64.size (by sl_kernel_rfl) y
theorem covB8 (c : Dev nD) (t : Fin cfg0.N) (h0) (h2) (xs7 xs8) (y : S1x64.Idx) : ∃ pc ∈ (KB V c t h0 h2 xs7 xs8).2.1, y ∈ pc.1.set :=
  View.cover_of_tiledL (KB V c t h0 h2 xs7 xs8).2.1 S1x64.size (by sl_kernel_rfl) y
theorem covC5 (c : Dev nD) (t : Fin cfg0.N) (h0) (h2) (xs7 xs8) (y : S1x64.Idx) : ∃ pc ∈ (KC V c t h0 h2 xs7 xs8).1, y ∈ pc.1.set :=
  View.cover_of_tiledL (KC V c t h0 h2 xs7 xs8).1 S1x64.size (by sl_kernel_rfl) y
theorem covC6 (c : Dev nD) (t : Fin cfg0.N) (h0) (h2) (xs7 xs8) (y : S1x64.Idx) : ∃ pc ∈ (KC V c t h0 h2 xs7 xs8).2.1, y ∈ pc.1.set :=
  View.cover_of_tiledL (KC V c t h0 h2 xs7 xs8).2.1 S1x64.size (by sl_kernel_rfl) y
theorem covC7 (c : Dev nD) (t : Fin cfg0.N) (h0) (h2) (xs7 xs8) (y : S1x64.Idx) : ∃ pc ∈ (KC V c t h0 h2 xs7 xs8).2.2.1, y ∈ pc.1.set :=
  View.cover_of_tiledL (KC V c t h0 h2 xs7 xs8).2.2.1 S1x64.size (by sl_kernel_rfl) y
theorem covC8 (c : Dev nD) (t : Fin cfg0.N) (h0) (h2) (xs7 xs8) (y : S1x64.Idx) : ∃ pc ∈ (KC V c t h0 h2 xs7 xs8).2.2.2.1, y ∈ pc.1.set :=
  View.cover_of_tiledL (KC V c t h0 h2 xs7 xs8).2.2.2.1 S1x64.size (by sl_kernel_rfl) y

/-! ## The scratch rows after each point -/

theorem c0_zero (hn : 0 < cfg0.N) : cond0_0 (grid0.coords ⟨0, hn⟩) := (hcond0_0 ⟨0, hn⟩).mpr rfl
theorem nc2_zero (hn : 0 < cfg0.N) : ¬cond0_2 (grid0.coords ⟨0, hn⟩) := fun h => by
  have h' := (hcond0_2 ⟨0, hn⟩).mp h; simp at h'
theorem nc0_succ (n : ℕ) (hn : n + 1 < cfg0.N) : ¬cond0_0 (grid0.coords ⟨n + 1, hn⟩) := fun h => by
  have h' := (hcond0_0 ⟨n + 1, hn⟩).mp h; simp at h'

/-- THE ACCUMULATION: what the two scratch rows hold after the body at position `n`. -/
def accAt (c : Dev nD) : (n : ℕ) → n < cfg0.N → Vec F S1x64 .f32 × Vec F S1x64 .f32
  | 0, hn => sA V c ⟨0, hn⟩ (c0_zero hn) (nc2_zero hn)
  | n + 1, hn =>
    if h2 : n + 1 = 374 then
      sC V c ⟨n + 1, hn⟩ (nc0_succ n hn) ((hcond0_2 ⟨n + 1, hn⟩).mpr h2) (accAt c n (Nat.lt_of_succ_lt hn))
    else
      sB V c ⟨n + 1, hn⟩ (nc0_succ n hn) (fun h => h2 ((hcond0_2 ⟨n + 1, hn⟩).mp h)) (accAt c n (Nat.lt_of_succ_lt hn))

/-- What the two output windows' buffers hold after the body at position `n`: at the last point the copies of the scratch
    rows; elsewhere the windows are idle and nothing consults this placeholder. -/
def outAt (c : Dev nD) : (n : ℕ) → n < cfg0.N → Vec F S1x64 .f32 × Vec F S1x64 .f32
  | 0, _ => (rb VO0_4 [], rb VO0_5 [])
  | n + 1, hn =>
    if h2 : n + 1 = 374 then
      oC V c ⟨n + 1, hn⟩ (nc0_succ n hn) ((hcond0_2 ⟨n + 1, hn⟩).mpr h2) (accAt V c n (Nat.lt_of_succ_lt hn))
    else (rb VO0_4 [], rb VO0_5 [])

/-- The region invariant before position `n`: before the first point the class's (every scratch row at anything);
    afterwards the scratch rows at what the point before left, the other scoped buffers at anything, and the generator
    register at some state. -/
def PhiS (c : Dev nD) : (n : ℕ) → n ≤ cfg0.N → sProp 𝕄
  | 0, _ => Pipeline.ΦA spec0 c
  | n + 1, hn => iprop(iprop(owns (c : Thread nD τ) scM0_0 fullShare (accAt V c n hn).1 ∗ owns (c : Thread nD τ) scM0_1 fullShare (accAt V c n hn).2 ∗ others0 c) ∗ (∃ r, prngReg c r))

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outAt V c t.val t.isLt).1
    | ⟨5, _⟩ => (outAt V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outAt V c t.val t.isLt).1 := by dsimp only [dat0]
theorem after0_5 (c : Dev nD) (t : Fin cfg0.N) : (dat0 V c).after 5 t = (outAt V c t.val t.isLt).2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

end Cert.Kernel.Hand

end
-- ==== Proof.KR0Body.lean ====
/-
  The first kernel's body obligation at every grid point: at the first point the scratch rows are found at anything and
  left at the block's sums; at a later point they are found at the sums so far and left with the block's sums added; at
  the last point the output windows' buffers moreover receive copies. The input buffers hold their blocks throughout,
  and the idle output buffers are handed back as found.
-/
import proofs.«150693_j22273700397341_2_alg».proof.Proof.KR0Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

theorem PhiS_succ' (c : Dev nD) (n : ℕ) (hn : n < cfg0.N) :
    PhiS V c (n + 1) hn = iprop(iprop(owns (c : Thread nD τ) scM0_0 fullShare (accAt V c n hn).1 ∗ owns (c : Thread nD τ) scM0_1 fullShare (accAt V c n hn).2 ∗ others0 c) ∗ (∃ r, prngReg c r)) := rfl

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ']
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  obtain ⟨n, hn⟩ := t
  cases n with
  | zero =>
    have h0 := c0_zero hn
    have h2 := nc2_zero hn
    rw [Dat.leavesExact_idle (dat0 V c) 4 ⟨0, hn⟩ (idleAt0_4 _ h2) (noFlush0_4 _ h2), Dat.leavesExact_idle (dat0 V c) 5 ⟨0, hn⟩ (idleAt0_5 _ h2) (noFlush0_5 _ h2)]
    rw [show (dat0 V c).Φ (Fin.castSucc ⟨0, hn⟩) = Pipeline.ΦA spec0 c from rfl, PhiA0_eq]
    rw [show accAt V c 0 hn = sA V c ⟨0, hn⟩ h0 h2 from rfl]
    unfold sA; dsimp only
    iintro ⟨⟨⟨HS7, HS8, Hoth⟩, Hg⟩, Ho, ⟨%d0, H0⟩, ⟨%d1, H1⟩, ⟨%d2, H2⟩, ⟨%d3, H3⟩, ⟨%d4, H4⟩, ⟨%d5, H5⟩⟩
    iapply ((KA V c ⟨0, hn⟩ h0 h2).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS7]; · iexact HS7
    isplitl [HS8]; · iexact HS8
    iintro ⟨H0, H1, H2, H3, H4, H5, ⟨%es7, HS7⟩, ⟨%es8, HS8⟩⟩
    isplitl [HS7 HS8 Hoth Hg]
    · isplitr [Hg]
      · isplitl [HS7]
        · unfold owns; iexists _; isplitr
          swap; · iexact HS7
          ipureintro; exact View.read_writes_of_cover _ _ _ _ _ (covA7 V c _ _ _)
        isplitl [HS8]
        · unfold owns; iexists _; isplitr
          swap; · iexact HS8
          ipureintro; exact View.read_writes_of_cover _ _ _ _ _ (covA8 V c _ _ _)
        iexact Hoth
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  | succ n =>
    have h0 := nc0_succ n hn
    rw [show (dat0 V c).Φ (Fin.castSucc ⟨n + 1, hn⟩) = PhiS V c (n + 1) (Nat.le_of_lt hn) from rfl, PhiS_succ']
    by_cases h374 : n + 1 = 374
    · have h2 : cond0_2 (grid0.coords ⟨n + 1, hn⟩) := (hcond0_2 ⟨n + 1, hn⟩).mpr h374
      rw [show (dat0 V c).leavesExact 4 ⟨n + 1, hn⟩ = owns (c : Thread nD τ) (ms0_4 ⟨n + 1, hn⟩) fullShare ((dat0 V c).after 4 ⟨n + 1, hn⟩) from by
        unfold Dat.leavesExact; rw [liveAt0_4 _ h2], after0_4]
      rw [show (dat0 V c).leavesExact 5 ⟨n + 1, hn⟩ = owns (c : Thread nD τ) (ms0_5 ⟨n + 1, hn⟩) fullShare ((dat0 V c).after 5 ⟨n + 1, hn⟩) from by
        unfold Dat.leavesExact; rw [liveAt0_5 _ h2], after0_5]
      rw [show accAt V c (n + 1) hn = sC V c ⟨n + 1, hn⟩ h0 h2 (accAt V c n (Nat.lt_of_succ_lt hn)) from dif_pos h374,
        show outAt V c (n + 1) hn = oC V c ⟨n + 1, hn⟩ h0 h2 (accAt V c n (Nat.lt_of_succ_lt hn)) from dif_pos h374]
      unfold sC oC; dsimp only
      iintro ⟨⟨⟨HS7, HS8, Hoth⟩, Hg⟩, Ho, ⟨%d0, H0⟩, ⟨%d1, H1⟩, ⟨%d2, H2⟩, ⟨%d3, H3⟩, ⟨%d4, H4⟩, ⟨%d5, H5⟩⟩
      iapply ((KC V c ⟨n + 1, hn⟩ h0 h2 _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS7]; · iexact HS7
      isplitl [HS8]; · iexact HS8
      iintro ⟨H0, H1, H2, H3, ⟨%e4, H4⟩, ⟨%e5, H5⟩, ⟨%es7, HS7⟩, ⟨%es8, HS8⟩⟩
      isplitl [HS7 HS8 Hoth Hg]
      · isplitr [Hg]
        · isplitl [HS7]
          · unfold owns; iexists _; isplitr
            swap; · iexact HS7
            ipureintro; exact View.read_writes_of_cover _ _ _ _ _ (covC7 V c _ _ _ _ _)
          isplitl [HS8]
          · unfold owns; iexists _; isplitr
            swap; · iexact HS8
            ipureintro; exact View.read_writes_of_cover _ _ _ _ _ (covC8 V c _ _ _ _ _)
          iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (covC5 V c _ _ _ _ _)
      unfold owns; iexists _; isplitr
      swap; · iexact H5
      ipureintro; exact View.read_writes_of_cover _ _ _ _ _ (covC6 V c _ _ _ _ _)
    · have h2 : ¬cond0_2 (grid0.coords ⟨n + 1, hn⟩) := fun h => h374 ((hcond0_2 ⟨n + 1, hn⟩).mp h)
      rw [Dat.leavesExact_idle (dat0 V c) 4 ⟨n + 1, hn⟩ (idleAt0_4 _ h2) (noFlush0_4 _ h2), Dat.leavesExact_idle (dat0 V c) 5 ⟨n + 1, hn⟩ (idleAt0_5 _ h2) (noFlush0_5 _ h2)]
      rw [show accAt V c (n + 1) hn = sB V c ⟨n + 1, hn⟩ h0 h2 (accAt V c n (Nat.lt_of_succ_lt hn)) from dif_neg h374]
      unfold sB; dsimp only
      iintro ⟨⟨⟨HS7, HS8, Hoth⟩, Hg⟩, Ho, ⟨%d0, H0⟩, ⟨%d1, H1⟩, ⟨%d2, H2⟩, ⟨%d3, H3⟩, ⟨%d4, H4⟩, ⟨%d5, H5⟩⟩
      iapply ((KB V c ⟨n + 1, hn⟩ h0 h2 _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS7]; · iexact HS7
      isplitl [HS8]; · iexact HS8
      iintro ⟨H0, H1, H2, H3, H4, H5, ⟨%es7, HS7⟩, ⟨%es8, HS8⟩⟩
      isplitl [HS7 HS8 Hoth Hg]
      · isplitr [Hg]
        · isplitl [HS7]
          · unfold owns; iexists _; isplitr
            swap; · iexact HS7
            ipureintro; exact View.read_writes_of_cover _ _ _ _ _ (covB7 V c _ _ _ _ _)
          isplitl [HS8]
          · unfold owns; iexists _; isplitr
            swap; · iexact HS8
            ipureintro; exact View.read_writes_of_cover _ _ _ _ _ (covB8 V c _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Pipeline.ΦA spec0 c from rfl]
  try exact Idealize.SL.BI.Entails.refl _

/-- After the last point the invariant gives the class's back: the scratch rows' named contents are forgotten. -/
theorem hout0 (c : Dev nD) : (dat0 V c).Φ (Fin.last cfg0.N) ⊢ Pipeline.ΦA spec0 c := by
  rw [show (dat0 V c).Φ (Fin.last cfg0.N) = PhiS V c (374 + 1) (by decide) from rfl, PhiS_succ', PhiA0_eq]
  iintro ⟨⟨HS7, HS8, Hoth⟩, Hg⟩
  isplitr [Hg]
  · isplitl [HS7]; · iexists _; iexact HS7
    isplitl [HS8]; · iexists _; iexact HS8
    iexact Hoth
  iexact Hg

end Cert.Kernel.Hand

end
-- ==== Proof.KR1Run.lean ====
/-
  The second kernel (normalise, rectify, per-pillar maximum) run once on whole staging buffers: from the eight input
  buffers at given contents and the output buffer at anything, the body reaches its return with the inputs as they were
  and the output buffer holding the one stored piece.
-/
import proofs.«150693_j22273700397341_2_alg».proof.Proof.Gen.Kernel.Launch
import proofs.«150693_j22273700397341_2_alg».proof.Proof.Gen.Kernel.Skeleton
import proofs.«150693_j22273700397341_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's one store leaves in the output buffer, with the run that finds them. -/
noncomputable def run1 (c : Dev nD) (i : grid1.Coords) (arg1 : Memref sig .tc .vmem S80x100x4 .f32) (harg1 : arg1.IsWhole) (arg2 : Memref sig .tc .vmem S80x1 .i32) (harg2 : arg2.IsWhole) (arg3 : Memref sig .tc .vmem S80x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S80x64 .f32) (harg9 : arg9.IsWhole)
    (x1 : Vec F S80x100x4 .f32) (x2 : Vec F S80x1 .i32) (x3 : Vec F S80x4 .i32) (x4 : Vec F S9x64 .f32)
    (x5 : Vec F S1x64 .f32) (x6 : Vec F S1x64 .f32) (x7 : Vec F S1x64 .f32) (x8 : Vec F S1x64 .f32) :
    { L9 : List (View.Piece (Elt F) S80x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare x8 ∗ (∃ d, owns (c : Thread nD τ) arg9 fullShare d)
            ∗ (iprop(owns (c : Thread nD τ) arg1 fullShare x1 ∗ owns (c : Thread nD τ) arg2 fullShare x2 ∗ owns (c : Thread nD τ) arg3 fullShare x3
                ∗ owns (c : Thread nD τ) arg4 fullShare x4 ∗ owns (c : Thread nD τ) arg5 fullShare x5 ∗ owns (c : Thread nD τ) arg6 fullShare x6
                ∗ owns (c : Thread nD τ) arg7 fullShare x7 ∗ owns (c : Thread nD τ) arg8 fullShare x8
                ∗ (∃ f, arg9.view.loc (c : Thread nD τ) ↦[arg9.view.set]{fullShare} arg9.view.writes (Elt F) f L9)) -∗ K ⟨⟩))
          ⊢ wp frame (wpE (defs₀ (F := F)) Variants.none c none) E (cc1__pass2_kernel i arg1 harg1 arg2 harg2 arg3 harg3 arg4 harg4 arg5 harg5 arg6 harg6 arg7 harg7 arg8 harg8 arg9 harg9) K } := by
  refine ⟨?_, fun E K => ?run⟩
  case run =>
    simp only [cc1__pass2_kernel_eq_skeleton]; unfold cc1__pass2_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7; obtain rfl := harg8.eq_unread hf8
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    iexists _; iexact H9

end Cert.Kernel.Hand

end
-- ==== Proof.KR1Frame.lean ====
/-
  The second kernel's half of the run, at the buffer contents `V` found when its region is entered: the block of each
  input window at a grid point, what the body leaves in the output window's buffer, the region's proof data (every
  input buffer keeps its block, the output buffer holds the stored piece), and the body obligation at every point.
-/
import proofs.«150693_j22273700397341_2_alg».proof.Proof.KR1Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, as the pipeline passes it to the body, and its wholeness. -/
abbrev ms1_0 (t : Fin cfg1.N) : Memref sig .tc .vmem S80x100x4 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S80x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S80x4 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S9x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x64 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S80x64 .f32 := win1_8.stage (cfg1.slots t 8)
abbrev hs1_8 (t : Fin cfg1.N) : (ms1_8 t).IsWhole := hstage1_8 ((cfg1.slots t 8).cast nbuf1_8)

/-- One staging buffer of the output window, through which its contents are stated. -/
abbrev VO1_8 : View sig .tc .vmem S80x64 .f32 := (Memref.whole cc1_stg8_0 : Memref sig .tc .vmem S80x64 .f32).view

/-- The run at point `t`: on the point's staging memrefs and input blocks. -/
abbrev K1 (c : Dev nD) (t : Fin cfg1.N) := run1 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (iblk1 V c 6 t) (iblk1 V c 7 t)

/-- The stored piece covers the output block. -/
theorem cover1_8 (c : Dev nD) (t : Fin cfg1.N) (y : S80x64.Idx) : ∃ pc ∈ (K1 V c t).1, y ∈ pc.1.set :=
  View.cover_of_tiledL (K1 V c t).1 S80x64.size (by sl_kernel_rfl) y

/-- What the body leaves in the output window's buffer at point `t`: its piece read back. -/
def out1_8 (c : Dev nD) (t : Fin cfg1.N) : Vec F S80x64 .f32 :=
  VO1_8.read (Elt F) (VO1_8.writes (Elt F) VO1_8.junk (K1 V c t).1)

/-- The proof data of the second region on core `c`: the arrays as the region finds them; after the body each input
    buffer at its block and the output buffer at the stored piece; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

set_option maxHeartbeats 1600000 in
/-- The body at any point: the inputs' buffers hold their blocks, so the run applies; the invariant and the core's
    dues pass through unread; the output buffer is left at the stored piece read back. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((K1 V c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold out1_8 owns; iexists _; isplitr
  swap; · iexact H8
  ipureintro; exact View.read_writes_of_cover _ _ _ _ _ (cover1_8 V c t)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRunAll.lean ====
/-
  The whole run of the program as four segments — the host operations before the first kernel, the first kernel's region
  (the per-channel sums), the host operations between (mean and variance), the second kernel's region — from the launch
  memory to the return: every weakly fair execution terminates without a fault, and at the end every unscoped buffer of
  every core holds the contents the fold `W4` names: each argument as launched, the result at what the second region's
  write-backs leave.
-/
import proofs.«150693_j22273700397341_2_alg».proof.Proof.KR0Body
import proofs.«150693_j22273700397341_2_alg».proof.Proof.KR1Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the program -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := (W4_arr m ρ c 2).trans (((dat1 (V3 m ρ) c).arrAt_in 2 rfl _).trans (A_eq1 (V3 m ρ) c 2))
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The proof data family and the thread state -/

abbrev adm : (p : Fin 2) → (pcfgs (F := F) p).Adm := fun p => (cfgs p).toPCfg_adm
/-- Every pipeline's proof data, each at its region's entry contents — a literal match on the pipeline's number. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 over the thread state: entered from every unscoped buffer at the contents before it, left with its arrays
    at what the pipeline leaves and every other buffer as entered; the generator register goes into the invariant and
    comes back; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the contents before it, left with its arrays
    at what the pipeline leaves and every other buffer as entered; the generator register goes into the invariant and
    comes back; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and every final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.Kernel.Hand

end
-- ==== Proof.R1Run.lean ====
/-
  The second kernel (normalise, rectify, per-pillar maximum) run once on whole staging buffers: from the eight input
  buffers at given contents and the output buffer at anything, the body reaches its return with the inputs as they were
  and the output buffer holding the one stored piece.
-/
import proofs.«150693_j22273700397341_2_alg».proof.Proof.Gen.KernelIdeal.Launch
import proofs.«150693_j22273700397341_2_alg».proof.Proof.Gen.KernelIdeal.Skeleton
import proofs.«150693_j22273700397341_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's one store leaves in the output buffer, with the run that finds them. -/
noncomputable def run1 (c : Dev nD) (i : grid1.Coords) (arg1 : Memref sig .tc .vmem S80x100x4 .f32) (harg1 : arg1.IsWhole) (arg2 : Memref sig .tc .vmem S80x1 .i32) (harg2 : arg2.IsWhole) (arg3 : Memref sig .tc .vmem S80x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S80x64 .f32) (harg9 : arg9.IsWhole)
    (x1 : Vec F S80x100x4 .f32) (x2 : Vec F S80x1 .i32) (x3 : Vec F S80x4 .i32) (x4 : Vec F S9x64 .f32)
    (x5 : Vec F S1x64 .f32) (x6 : Vec F S1x64 .f32) (x7 : Vec F S1x64 .f32) (x8 : Vec F S1x64 .f32) :
    { L9 : List (View.Piece (Elt F) S80x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare x8 ∗ (∃ d, owns (c : Thread nD τ) arg9 fullShare d)
            ∗ (iprop(owns (c : Thread nD τ) arg1 fullShare x1 ∗ owns (c : Thread nD τ) arg2 fullShare x2 ∗ owns (c : Thread nD τ) arg3 fullShare x3
                ∗ owns (c : Thread nD τ) arg4 fullShare x4 ∗ owns (c : Thread nD τ) arg5 fullShare x5 ∗ owns (c : Thread nD τ) arg6 fullShare x6
                ∗ owns (c : Thread nD τ) arg7 fullShare x7 ∗ owns (c : Thread nD τ) arg8 fullShare x8
                ∗ (∃ f, arg9.view.loc (c : Thread nD τ) ↦[arg9.view.set]{fullShare} arg9.view.writes (Elt F) f L9)) -∗ K ⟨⟩))
          ⊢ wp frame (wpE (defs₀ (F := F)) Variants.none c none) E (cc1__pass2_kernel i arg1 harg1 arg2 harg2 arg3 harg3 arg4 harg4 arg5 harg5 arg6 harg6 arg7 harg7 arg8 harg8 arg9 harg9) K } := by
  refine ⟨?_, fun E K => ?run⟩
  case run =>
    simp only [cc1__pass2_kernel_eq_skeleton]; unfold cc1__pass2_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7; obtain rfl := harg8.eq_unread hf8
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    iexists _; iexact H9

end Cert.KernelIdeal.Hand

end
-- ==== Proof.R1Frame.lean ====
/-
  The second kernel's half of the run, at the buffer contents `V` found when its region is entered: the block of each
  input window at a grid point, what the body leaves in the output window's buffer, the region's proof data (every
  input buffer keeps its block, the output buffer holds the stored piece), and the body obligation at every point.
-/
import proofs.«150693_j22273700397341_2_alg».proof.Proof.R1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, as the pipeline passes it to the body, and its wholeness. -/
abbrev ms1_0 (t : Fin cfg1.N) : Memref sig .tc .vmem S80x100x4 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S80x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S80x4 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S9x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x64 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S80x64 .f32 := win1_8.stage (cfg1.slots t 8)
abbrev hs1_8 (t : Fin cfg1.N) : (ms1_8 t).IsWhole := hstage1_8 ((cfg1.slots t 8).cast nbuf1_8)

/-- One staging buffer of the output window, through which its contents are stated. -/
abbrev VO1_8 : View sig .tc .vmem S80x64 .f32 := (Memref.whole cc1_stg8_0 : Memref sig .tc .vmem S80x64 .f32).view

/-- The run at point `t`: on the point's staging memrefs and input blocks. -/
abbrev K1 (c : Dev nD) (t : Fin cfg1.N) := run1 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (iblk1 V c 6 t) (iblk1 V c 7 t)

/-- The stored piece covers the output block. -/
theorem cover1_8 (c : Dev nD) (t : Fin cfg1.N) (y : S80x64.Idx) : ∃ pc ∈ (K1 V c t).1, y ∈ pc.1.set :=
  View.cover_of_tiledL (K1 V c t).1 S80x64.size (by sl_kernel_rfl) y

/-- What the body leaves in the output window's buffer at point `t`: its piece read back. -/
def out1_8 (c : Dev nD) (t : Fin cfg1.N) : Vec F S80x64 .f32 :=
  VO1_8.read (Elt F) (VO1_8.writes (Elt F) VO1_8.junk (K1 V c t).1)

/-- The proof data of the second region on core `c`: the arrays as the region finds them; after the body each input
    buffer at its block and the output buffer at the stored piece; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

set_option maxHeartbeats 1600000 in
/-- The body at any point: the inputs' buffers hold their blocks, so the run applies; the invariant and the core's
    dues pass through unread; the output buffer is left at the stored piece read back. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((K1 V c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold out1_8 owns; iexists _; isplitr
  swap; · iexact H8
  ipureintro; exact View.read_writes_of_cover _ _ _ _ _ (cover1_8 V c t)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.R0Conds.lean ====
/-
  The first kernel (per-channel sums of the linear layer's outputs and of their squares, accumulated over the grid in
  two scratch rows): what its three control cases are stated over — the two branch conditions in closed form over the
  grid (first point: the scratch rows are zeroed; last point: they are copied to the two output windows), where the
  output windows are idle, and the memrefs the body is called with.
-/
import proofs.«150693_j22273700397341_2_alg».proof.Proof.Gen.KernelIdeal.Launch
import proofs.«150693_j22273700397341_2_alg».proof.Proof.Gen.KernelIdeal.Skeleton
import proofs.«150693_j22273700397341_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch (zero the scratch rows), from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The body's last branch (copy the scratch rows out), from the grid coordinate. -/
abbrev cond0_2 (i : grid0.Coords) : Prop := k0_cond2 i = 1#1
/-- It holds at the last point only. -/
theorem hcond0_2 : ∀ t : Fin cfg0.N, cond0_2 (grid0.coords t) ↔ t.val = 374 :=
  (by decide +kernel : ∀ t : Fin grid0.N, cond0_2 (grid0.coords t) ↔ t.val = 374)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last point output window 4 is idle and is not written back; at the last point it is live. -/
theorem idleAt0_4 : ∀ t : Fin cfg0.N, ¬cond0_2 (grid0.coords t) → cfg0.idle 4 (grid0.coords t) = true := by decide +kernel
theorem noFlush0_4 : ∀ t : Fin cfg0.N, ¬cond0_2 (grid0.coords t) → (cfg0.win 4).flush t = false := by decide +kernel
theorem liveAt0_4 : ∀ t : Fin cfg0.N, cond0_2 (grid0.coords t) → cfg0.idle 4 (grid0.coords t) = false := by decide +kernel
/-- Away from the last point output window 5 is idle and is not written back; at the last point it is live. -/
theorem idleAt0_5 : ∀ t : Fin cfg0.N, ¬cond0_2 (grid0.coords t) → cfg0.idle 5 (grid0.coords t) = true := by decide +kernel
theorem noFlush0_5 : ∀ t : Fin cfg0.N, ¬cond0_2 (grid0.coords t) → (cfg0.win 5).flush t = false := by decide +kernel
theorem liveAt0_5 : ∀ t : Fin cfg0.N, cond0_2 (grid0.coords t) → cfg0.idle 5 (grid0.coords t) = false := by decide +kernel

/-- Each window's current staging memref at point `t`, as the pipeline passes it to the body, and its wholeness. -/
abbrev ms0_0 (t : Fin cfg0.N) : Memref sig .tc .vmem S80x100x4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S80x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S80x4 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S9x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
/-- The two scratch rows: whole scoped buffers of the kernel's own, carried from point to point. -/
abbrev scM0_0 : Memref sig .tc .vmem S1x64 .f32 := Memref.whole cc0_scratch0
abbrev scM0_1 : Memref sig .tc .vmem S1x64 .f32 := Memref.whole cc0_scratch1
abbrev VS0_0 : View sig .tc .vmem S1x64 .f32 := scM0_0.view
abbrev VS0_1 : View sig .tc .vmem S1x64 .f32 := scM0_1.view
/-- One staging buffer of each output window, through which its contents are stated. -/
abbrev VO0_4 : View sig .tc .vmem S1x64 .f32 := (Memref.whole cc0_stg4_0 : Memref sig .tc .vmem S1x64 .f32).view
abbrev VO0_5 : View sig .tc .vmem S1x64 .f32 := (Memref.whole cc0_stg5_0 : Memref sig .tc .vmem S1x64 .f32).view

end Cert.KernelIdeal.Hand

end
-- ==== Proof.R0RunA.lean ====
/-
  The first kernel at the grid's FIRST point: the two scratch rows, found at anything, are zeroed and then receive the block's sums; the output windows are not touched.
-/
import proofs.«150693_j22273700397341_2_alg».proof.Proof.R0Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, with the run that finds them. -/
noncomputable def run0_A (c : Dev nD) (i : grid0.Coords) (arg1 : Memref sig .tc .vmem S80x100x4 .f32) (harg1 : arg1.IsWhole) (arg2 : Memref sig .tc .vmem S80x1 .i32) (harg2 : arg2.IsWhole) (arg3 : Memref sig .tc .vmem S80x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc2 : ¬cond0_2 i)
    (x1 : Vec F S80x100x4 .f32) (x2 : Vec F S80x1 .i32) (x3 : Vec F S80x4 .i32) (x4 : Vec F S9x64 .f32) :
    Σ' (LS7 : List (View.Piece (Elt F) S1x64 .f32)), { LS8 : List (View.Piece (Elt F) S1x64 .f32) //
      ∀ (xi5 : Vec F S1x64 .f32) (xi6 : Vec F S1x64 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare xi5 ∗ owns (c : Thread nD τ) arg6 fullShare xi6 ∗ (∃ d, owns (c : Thread nD τ) arg7 fullShare d) ∗ (∃ d, owns (c : Thread nD τ) arg8 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare xi5 ∗ owns (c : Thread nD τ) arg6 fullShare xi6 ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8)) -∗ K ⟨⟩))
          ⊢ wp frame (wpE (defs₀ (F := F)) Variants.none c none) E (cc0__pass1_kernel i arg1 harg1 arg2 harg2 arg3 harg3 arg4 harg4 arg5 harg5 arg6 harg6 arg7 harg7 arg8 harg8) K } := by
  refine ⟨?_, ?_, fun xi5 xi6 E K => ?run⟩
  case run =>
    simp only [cc0__pass1_kernel_eq_skeleton]; unfold cc0__pass1_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6
    sl_exec (disch := first | exact hc0 | exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    iexists _; iexact H8

end Cert.KernelIdeal.Hand

end
-- ==== Proof.R0RunB.lean ====
/-
  The first kernel at a MIDDLE grid point: the two scratch rows, found at what the point before left, receive the block's sums added in; the output windows are not touched.
-/
import proofs.«150693_j22273700397341_2_alg».proof.Proof.R0Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, with the run that finds them. -/
noncomputable def run0_B (c : Dev nD) (i : grid0.Coords) (arg1 : Memref sig .tc .vmem S80x100x4 .f32) (harg1 : arg1.IsWhole) (arg2 : Memref sig .tc .vmem S80x1 .i32) (harg2 : arg2.IsWhole) (arg3 : Memref sig .tc .vmem S80x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc2 : ¬cond0_2 i)
    (x1 : Vec F S80x100x4 .f32) (x2 : Vec F S80x1 .i32) (x3 : Vec F S80x4 .i32) (x4 : Vec F S9x64 .f32) (xs7 : Vec F S1x64 .f32) (xs8 : Vec F S1x64 .f32) :
    Σ' (LS7 : List (View.Piece (Elt F) S1x64 .f32)), { LS8 : List (View.Piece (Elt F) S1x64 .f32) //
      ∀ (xi5 : Vec F S1x64 .f32) (xi6 : Vec F S1x64 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare xi5 ∗ owns (c : Thread nD τ) arg6 fullShare xi6 ∗ owns (c : Thread nD τ) arg7 fullShare xs7 ∗ owns (c : Thread nD τ) arg8 fullShare xs8
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare xi5 ∗ owns (c : Thread nD τ) arg6 fullShare xi6 ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8)) -∗ K ⟨⟩))
          ⊢ wp frame (wpE (defs₀ (F := F)) Variants.none c none) E (cc0__pass1_kernel i arg1 harg1 arg2 harg2 arg3 harg3 arg4 harg4 arg5 harg5 arg6 harg6 arg7 harg7 arg8 harg8) K } := by
  refine ⟨?_, ?_, fun xi5 xi6 E K => ?run⟩
  case run =>
    simp only [cc0__pass1_kernel_eq_skeleton]; unfold cc0__pass1_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7; obtain rfl := harg8.eq_unread hf8
    sl_exec (disch := first | exact hc0 | exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    iexists _; iexact H8

end Cert.KernelIdeal.Hand

end
-- ==== Proof.R0RunC.lean ====
/-
  The first kernel at the grid's LAST point: the two scratch rows receive the block's sums added in and are then copied whole into the two output windows.
-/
import proofs.«150693_j22273700397341_2_alg».proof.Proof.R0Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, with the run that finds them. -/
noncomputable def run0_C (c : Dev nD) (i : grid0.Coords) (arg1 : Memref sig .tc .vmem S80x100x4 .f32) (harg1 : arg1.IsWhole) (arg2 : Memref sig .tc .vmem S80x1 .i32) (harg2 : arg2.IsWhole) (arg3 : Memref sig .tc .vmem S80x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc2 : cond0_2 i)
    (x1 : Vec F S80x100x4 .f32) (x2 : Vec F S80x1 .i32) (x3 : Vec F S80x4 .i32) (x4 : Vec F S9x64 .f32) (xs7 : Vec F S1x64 .f32) (xs8 : Vec F S1x64 .f32) :
    Σ' (L5 : List (View.Piece (Elt F) S1x64 .f32)) (L6 : List (View.Piece (Elt F) S1x64 .f32)) (LS7 : List (View.Piece (Elt F) S1x64 .f32)), { LS8 : List (View.Piece (Elt F) S1x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ owns (c : Thread nD τ) arg7 fullShare xs7 ∗ owns (c : Thread nD τ) arg8 fullShare xs8
            ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8)) -∗ K ⟨⟩))
          ⊢ wp frame (wpE (defs₀ (F := F)) Variants.none c none) E (cc0__pass1_kernel i arg1 harg1 arg2 harg2 arg3 harg3 arg4 harg4 arg5 harg5 arg6 harg6 arg7 harg7 arg8 harg8) K } := by
  refine ⟨?_, ?_, ?_, ?_, fun E K => ?run⟩
  case run =>
    simp only [cc0__pass1_kernel_eq_skeleton]; unfold cc0__pass1_kernel_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
    obtain rfl := harg1.eq_unread hf1; obtain rfl := harg2.eq_unread hf2; obtain rfl := harg3.eq_unread hf3; obtain rfl := harg4.eq_unread hf4
    obtain rfl := harg7.eq_unread hf7; obtain rfl := harg8.eq_unread hf8
    sl_exec (disch := first | exact hc0 | exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    iexists _; iexact H8

end Cert.KernelIdeal.Hand

end
-- ==== Proof.R0Frame.lean ====
/-
  The first kernel's half of the run, at the buffer contents `V` found when its region is entered. The two scratch
  rows carry the running per-channel sums from grid point to grid point: `accAt n` is what they hold after point `n`
  (zeroed and summed at the first point, summed into afterwards). The two output windows are idle until the last
  point, where they receive copies of the scratch rows. The region's proof data name these contents, the invariant
  between points holds the scratch rows at `accAt`, and the body obligation is shown case by case.
-/
import proofs.«150693_j22273700397341_2_alg».proof.Proof.R0RunA
import proofs.«150693_j22273700397341_2_alg».proof.Proof.R0RunB
import proofs.«150693_j22273700397341_2_alg».proof.Proof.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The scoped buffers of the core that are neither this kernel's staging buffers nor its scratch rows (the other
    kernel's staging buffers), each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f))

/-- The class invariant with the two scratch rows as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA others0; rw [scopedRest0_eq]; simp only [scM0_0, scM0_1, owns_whole]; try rfl

/-! ## The three cases at a point -/

abbrev KA (c : Dev nD) (t : Fin cfg0.N) (h0 : cond0_0 (grid0.coords t)) (h2 : ¬cond0_2 (grid0.coords t)) :=
  run0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h2 (iblk0 V c 0 t) (iblk0 V c 1 t) (iblk0 V c 2 t) (iblk0 V c 3 t)
abbrev KB (c : Dev nD) (t : Fin cfg0.N) (h0 : ¬cond0_0 (grid0.coords t)) (h2 : ¬cond0_2 (grid0.coords t)) (xs7 xs8 : Vec F S1x64 .f32) :=
  run0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h2 (iblk0 V c 0 t) (iblk0 V c 1 t) (iblk0 V c 2 t) (iblk0 V c 3 t) xs7 xs8
abbrev KC (c : Dev nD) (t : Fin cfg0.N) (h0 : ¬cond0_0 (grid0.coords t)) (h2 : cond0_2 (grid0.coords t)) (xs7 xs8 : Vec F S1x64 .f32) :=
  run0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h2 (iblk0 V c 0 t) (iblk0 V c 1 t) (iblk0 V c 2 t) (iblk0 V c 3 t) xs7 xs8

/-- A list of pieces read back through a view over junk. -/
abbrev rb (v : View sig .tc .vmem S1x64 .f32) (L : List (View.Piece (Elt F) S1x64 .f32)) : Vec F S1x64 .f32 :=
  v.read (Elt F) (v.writes (Elt F) v.junk L)

/-- What each case leaves in the scratch rows (and, at the last point, in the output windows' buffers). -/
def sA (c : Dev nD) (t : Fin cfg0.N) (h0 : cond0_0 (grid0.coords t)) (h2 : ¬cond0_2 (grid0.coords t)) : Vec F S1x64 .f32 × Vec F S1x64 .f32 :=
  (rb VS0_0 (KA V c t h0 h2).1, rb VS0_1 (KA V c t h0 h2).2.1)
def sB (c : Dev nD) (t : Fin cfg0.N) (h0 : ¬cond0_0 (grid0.coords t)) (h2 : ¬cond0_2 (grid0.coords t)) (xs : Vec F S1x64 .f32 × Vec F S1x64 .f32) : Vec F S1x64 .f32 × Vec F S1x64 .f32 :=
  (rb VS0_0 (KB V c t h0 h2 xs.1 xs.2).1, rb VS0_1 (KB V c t h0 h2 xs.1 xs.2).2.1)
def sC (c : Dev nD) (t : Fin cfg0.N) (h0 : ¬cond0_0 (grid0.coords t)) (h2 : cond0_2 (grid0.coords t)) (xs : Vec F S1x64 .f32 × Vec F S1x64 .f32) : Vec F S1x64 .f32 × Vec F S1x64 .f32 :=
  (rb VS0_0 (KC V c t h0 h2 xs.1 xs.2).2.2.1, rb VS0_1 (KC V c t h0 h2 xs.1 xs.2).2.2.2.1)
def oC (c : Dev nD) (t : Fin cfg0.N) (h0 : ¬cond0_0 (grid0.coords t)) (h2 : cond0_2 (grid0.coords t)) (xs : Vec F S1x64 .f32 × Vec F S1x64 .f32) : Vec F S1x64 .f32 × Vec F S1x64 .f32 :=
  (rb VO0_4 (KC V c t h0 h2 xs.1 xs.2).1, rb VO0_5 (KC V c t h0 h2 xs.1 xs.2).2.1)

/-- Each case's pieces cover the buffer they are stored into. -/
theorem covA7 (c : Dev nD) (t : Fin cfg0.N) (h0) (h2) (y : S1x64.Idx) : ∃ pc ∈ (KA V c t h0 h2).1, y ∈ pc.1.set :=
  View.cover_of_tiledL (KA V c t h0 h2).1 S1x64.size (by sl_kernel_rfl) y
theorem covA8 (c : Dev nD) (t : Fin cfg0.N) (h0) (h2) (y : S1x64.Idx) : ∃ pc ∈ (KA V c t h0 h2).2.1, y ∈ pc.1.set :=
  View.cover_of_tiledL (KA V c t h0 h2).2.1 S1x64.size (by sl_kernel_rfl) y
theorem covB7 (c : Dev nD) (t : Fin cfg0.N) (h0) (h2) (xs7 xs8) (y : S1x64.Idx) : ∃ pc ∈ (KB V c t h0 h2 xs7 xs8).1, y ∈ pc.1.set :=
  View.cover_of_tiledL (KB V c t h0 h2 xs7 xs8).1 S1x64.size (by sl_kernel_rfl) y
theorem covB8 (c : Dev nD) (t : Fin cfg0.N) (h0) (h2) (xs7 xs8) (y : S1x64.Idx) : ∃ pc ∈ (KB V c t h0 h2 xs7 xs8).2.1, y ∈ pc.1.set :=
  View.cover_of_tiledL (KB V c t h0 h2 xs7 xs8).2.1 S1x64.size (by sl_kernel_rfl) y
theorem covC5 (c : Dev nD) (t : Fin cfg0.N) (h0) (h2) (xs7 xs8) (y : S1x64.Idx) : ∃ pc ∈ (KC V c t h0 h2 xs7 xs8).1, y ∈ pc.1.set :=
  View.cover_of_tiledL (KC V c t h0 h2 xs7 xs8).1 S1x64.size (by sl_kernel_rfl) y
theorem covC6 (c : Dev nD) (t : Fin cfg0.N) (h0) (h2) (xs7 xs8) (y : S1x64.Idx) : ∃ pc ∈ (KC V c t h0 h2 xs7 xs8).2.1, y ∈ pc.1.set :=
  View.cover_of_tiledL (KC V c t h0 h2 xs7 xs8).2.1 S1x64.size (by sl_kernel_rfl) y
theorem covC7 (c : Dev nD) (t : Fin cfg0.N) (h0) (h2) (xs7 xs8) (y : S1x64.Idx) : ∃ pc ∈ (KC V c t h0 h2 xs7 xs8).2.2.1, y ∈ pc.1.set :=
  View.cover_of_tiledL (KC V c t h0 h2 xs7 xs8).2.2.1 S1x64.size (by sl_kernel_rfl) y
theorem covC8 (c : Dev nD) (t : Fin cfg0.N) (h0) (h2) (xs7 xs8) (y : S1x64.Idx) : ∃ pc ∈ (KC V c t h0 h2 xs7 xs8).2.2.2.1, y ∈ pc.1.set :=
  View.cover_of_tiledL (KC V c t h0 h2 xs7 xs8).2.2.2.1 S1x64.size (by sl_kernel_rfl) y

/-! ## The scratch rows after each point -/

theorem c0_zero (hn : 0 < cfg0.N) : cond0_0 (grid0.coords ⟨0, hn⟩) := (hcond0_0 ⟨0, hn⟩).mpr rfl
theorem nc2_zero (hn : 0 < cfg0.N) : ¬cond0_2 (grid0.coords ⟨0, hn⟩) := fun h => by
  have h' := (hcond0_2 ⟨0, hn⟩).mp h; simp at h'
theorem nc0_succ (n : ℕ) (hn : n + 1 < cfg0.N) : ¬cond0_0 (grid0.coords ⟨n + 1, hn⟩) := fun h => by
  have h' := (hcond0_0 ⟨n + 1, hn⟩).mp h; simp at h'

/-- THE ACCUMULATION: what the two scratch rows hold after the body at position `n`. -/
def accAt (c : Dev nD) : (n : ℕ) → n < cfg0.N → Vec F S1x64 .f32 × Vec F S1x64 .f32
  | 0, hn => sA V c ⟨0, hn⟩ (c0_zero hn) (nc2_zero hn)
  | n + 1, hn =>
    if h2 : n + 1 = 374 then
      sC V c ⟨n + 1, hn⟩ (nc0_succ n hn) ((hcond0_2 ⟨n + 1, hn⟩).mpr h2) (accAt c n (Nat.lt_of_succ_lt hn))
    else
      sB V c ⟨n + 1, hn⟩ (nc0_succ n hn) (fun h => h2 ((hcond0_2 ⟨n + 1, hn⟩).mp h)) (accAt c n (Nat.lt_of_succ_lt hn))

/-- What the two output windows' buffers hold after the body at position `n`: at the last point the copies of the scratch
    rows; elsewhere the windows are idle and nothing consults this placeholder. -/
def outAt (c : Dev nD) : (n : ℕ) → n < cfg0.N → Vec F S1x64 .f32 × Vec F S1x64 .f32
  | 0, _ => (rb VO0_4 [], rb VO0_5 [])
  | n + 1, hn =>
    if h2 : n + 1 = 374 then
      oC V c ⟨n + 1, hn⟩ (nc0_succ n hn) ((hcond0_2 ⟨n + 1, hn⟩).mpr h2) (accAt V c n (Nat.lt_of_succ_lt hn))
    else (rb VO0_4 [], rb VO0_5 [])

/-- The region invariant before position `n`: before the first point the class's (every scratch row at anything);
    afterwards the scratch rows at what the point before left, the other scoped buffers at anything, and the generator
    register at some state. -/
def PhiS (c : Dev nD) : (n : ℕ) → n ≤ cfg0.N → sProp 𝕄
  | 0, _ => Pipeline.ΦA spec0 c
  | n + 1, hn => iprop(iprop(owns (c : Thread nD τ) scM0_0 fullShare (accAt V c n hn).1 ∗ owns (c : Thread nD τ) scM0_1 fullShare (accAt V c n hn).2 ∗ others0 c) ∗ (∃ r, prngReg c r))

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outAt V c t.val t.isLt).1
    | ⟨5, _⟩ => (outAt V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outAt V c t.val t.isLt).1 := by dsimp only [dat0]
theorem after0_5 (c : Dev nD) (t : Fin cfg0.N) : (dat0 V c).after 5 t = (outAt V c t.val t.isLt).2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

end Cert.KernelIdeal.Hand

end
-- ==== Proof.ValPieces.lean ====
/-
  What the stores of each kernel leave, as the body's arithmetic of the blocks it loaded. The first kernel's scratch
  rows hold, after the first point, the block's sums added to zero, and after a later point the block's sums added to
  what they held; at the last point the output windows' buffers hold copies of the scratch rows. The second kernel's
  output buffer holds its one stored value.
-/
import proofs.«150693_j22273700397341_2_alg».proof.Proof.R1Frame
import proofs.«150693_j22273700397341_2_alg».proof.Proof.R0Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The second kernel's stored value is the body's arithmetic of the eight loaded blocks. -/
theorem run1_canon (c : Dev nD) (i : grid1.Coords) (arg1 : Memref sig .tc .vmem S80x100x4 .f32) (harg1 : arg1.IsWhole) (arg2 : Memref sig .tc .vmem S80x1 .i32) (harg2 : arg2.IsWhole) (arg3 : Memref sig .tc .vmem S80x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S80x64 .f32) (harg9 : arg9.IsWhole)
    (x1 : Vec F S80x100x4 .f32) (x2 : Vec F S80x1 .i32) (x3 : Vec F S80x4 .i32) (x4 : Vec F S9x64 .f32)
    (x5 : Vec F S1x64 .f32) (x6 : Vec F S1x64 .f32) (x7 : Vec F S1x64 .f32) (x8 : Vec F S1x64 .f32) :
    View.canon (run1 c i arg1 harg1 arg2 harg2 arg3 harg3 arg4 harg4 arg5 harg5 arg6 harg6 arg7 harg7 arg8 harg8 arg9 harg9 x1 x2 x3 x4 x5 x6 x7 x8).1
      = k1_pay1 (k1_pay2 x1 x2 x3) (k1_pay3 x4) (k1_pay4 (k1_pay2 x1 x2 x3) x4) (k1_pay5 x4) x5 x6 x7 x8 := by
  unfold run1
  dsimp only
  try sl_unfold_words
  rw [View.canon_unit_zero hz2]
  simp only [View.readAt_eq_ld, harg1.read_unread, harg2.read_unread, harg3.read_unread, harg4.read_unread, harg5.read_unread, harg6.read_unread, harg7.read_unread, harg8.read_unread, View.ld_unit_zero (S := S80x100x4) hz3, View.ld_unit_zero (S := S80x1) hz2, View.ld_unit_zero (S := S80x4) hz2, View.ld_unit_zero (S := S9x64) hz2, View.ld_unit_zero (S := S1x64) hz2]

/-- First point, the sums' row: the block's sums added to the zero row. -/
theorem runA_canon7 (c : Dev nD) (i : grid0.Coords) (arg1 : Memref sig .tc .vmem S80x100x4 .f32) (harg1 : arg1.IsWhole) (arg2 : Memref sig .tc .vmem S80x1 .i32) (harg2 : arg2.IsWhole) (arg3 : Memref sig .tc .vmem S80x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc2 : ¬cond0_2 i)
    (x1 : Vec F S80x100x4 .f32) (x2 : Vec F S80x1 .i32) (x3 : Vec F S80x4 .i32) (x4 : Vec F S9x64 .f32) :
    View.canon (run0_A c i arg1 harg1 arg2 harg2 arg3 harg3 arg4 harg4 arg5 harg5 arg6 harg6 arg7 harg7 arg8 harg8 hc0 hc2 x1 x2 x3 x4).1 = k0_pay2 (k0_pay9 (k0_pay7 x1 x2 x3) (k0_pay8 x2)) (k0_pay10 x4) (k0_pay11 (k0_pay7 x1 x2 x3) (k0_pay8 x2) x4) (k0_pay12 x4) (k0_pay4 (F := F)) := by
  unfold run0_A
  dsimp only
  try sl_unfold_words
  rw [View.canon_cons_unit_zero hz2]
  simp only [View.readAt_eq_ld, harg1.read_unread, harg2.read_unread, harg3.read_unread, harg4.read_unread, harg5.read_unread, harg6.read_unread, harg7.read_unread, harg8.read_unread, View.ld_unit_zero (S := S80x100x4) hz3, View.ld_unit_zero (S := S80x1) hz2, View.ld_unit_zero (S := S80x4) hz2, View.ld_unit_zero (S := S9x64) hz2, View.ld_unit_zero (S := S1x64) hz2, View.readCov_unit_zero (S := S1x64) _ hz2]

/-- First point, the squares' row. -/
theorem runA_canon8 (c : Dev nD) (i : grid0.Coords) (arg1 : Memref sig .tc .vmem S80x100x4 .f32) (harg1 : arg1.IsWhole) (arg2 : Memref sig .tc .vmem S80x1 .i32) (harg2 : arg2.IsWhole) (arg3 : Memref sig .tc .vmem S80x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc2 : ¬cond0_2 i)
    (x1 : Vec F S80x100x4 .f32) (x2 : Vec F S80x1 .i32) (x3 : Vec F S80x4 .i32) (x4 : Vec F S9x64 .f32) :
    View.canon (run0_A c i arg1 harg1 arg2 harg2 arg3 harg3 arg4 harg4 arg5 harg5 arg6 harg6 arg7 harg7 arg8 harg8 hc0 hc2 x1 x2 x3 x4).2.1 = k0_pay3 (k0_pay9 (k0_pay7 x1 x2 x3) (k0_pay8 x2)) (k0_pay10 x4) (k0_pay11 (k0_pay7 x1 x2 x3) (k0_pay8 x2) x4) (k0_pay12 x4) (k0_pay5 (F := F)) := by
  unfold run0_A
  dsimp only
  try sl_unfold_words
  rw [View.canon_cons_unit_zero hz2]
  simp only [View.readAt_eq_ld, harg1.read_unread, harg2.read_unread, harg3.read_unread, harg4.read_unread, harg5.read_unread, harg6.read_unread, harg7.read_unread, harg8.read_unread, View.ld_unit_zero (S := S80x100x4) hz3, View.ld_unit_zero (S := S80x1) hz2, View.ld_unit_zero (S := S80x4) hz2, View.ld_unit_zero (S := S9x64) hz2, View.ld_unit_zero (S := S1x64) hz2, View.readCov_unit_zero (S := S1x64) _ hz2]

/-- Middle point, the sums' row: the block's sums added to what it held. -/
theorem runB_canon7 (c : Dev nD) (i : grid0.Coords) (arg1 : Memref sig .tc .vmem S80x100x4 .f32) (harg1 : arg1.IsWhole) (arg2 : Memref sig .tc .vmem S80x1 .i32) (harg2 : arg2.IsWhole) (arg3 : Memref sig .tc .vmem S80x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc2 : ¬cond0_2 i)
    (x1 : Vec F S80x100x4 .f32) (x2 : Vec F S80x1 .i32) (x3 : Vec F S80x4 .i32) (x4 : Vec F S9x64 .f32) (xs7 : Vec F S1x64 .f32) (xs8 : Vec F S1x64 .f32) :
    View.canon (run0_B c i arg1 harg1 arg2 harg2 arg3 harg3 arg4 harg4 arg5 harg5 arg6 harg6 arg7 harg7 arg8 harg8 hc0 hc2 x1 x2 x3 x4 xs7 xs8).1 = k0_pay2 (k0_pay9 (k0_pay7 x1 x2 x3) (k0_pay8 x2)) (k0_pay10 x4) (k0_pay11 (k0_pay7 x1 x2 x3) (k0_pay8 x2) x4) (k0_pay12 x4) xs7 := by
  unfold run0_B
  dsimp only
  try sl_unfold_words
  rw [View.canon_cons_unit_zero hz2]
  simp only [View.readAt_eq_ld, harg1.read_unread, harg2.read_unread, harg3.read_unread, harg4.read_unread, harg5.read_unread, harg6.read_unread, harg7.read_unread, harg8.read_unread, View.ld_unit_zero (S := S80x100x4) hz3, View.ld_unit_zero (S := S80x1) hz2, View.ld_unit_zero (S := S80x4) hz2, View.ld_unit_zero (S := S9x64) hz2, View.ld_unit_zero (S := S1x64) hz2, View.readCov_unit_zero (S := S1x64) _ hz2]

/-- Middle point, the squares' row. -/
theorem runB_canon8 (c : Dev nD) (i : grid0.Coords) (arg1 : Memref sig .tc .vmem S80x100x4 .f32) (harg1 : arg1.IsWhole) (arg2 : Memref sig .tc .vmem S80x1 .i32) (harg2 : arg2.IsWhole) (arg3 : Memref sig .tc .vmem S80x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc2 : ¬cond0_2 i)
    (x1 : Vec F S80x100x4 .f32) (x2 : Vec F S80x1 .i32) (x3 : Vec F S80x4 .i32) (x4 : Vec F S9x64 .f32) (xs7 : Vec F S1x64 .f32) (xs8 : Vec F S1x64 .f32) :
    View.canon (run0_B c i arg1 harg1 arg2 harg2 arg3 harg3 arg4 harg4 arg5 harg5 arg6 harg6 arg7 harg7 arg8 harg8 hc0 hc2 x1 x2 x3 x4 xs7 xs8).2.1 = k0_pay3 (k0_pay9 (k0_pay7 x1 x2 x3) (k0_pay8 x2)) (k0_pay10 x4) (k0_pay11 (k0_pay7 x1 x2 x3) (k0_pay8 x2) x4) (k0_pay12 x4) xs8 := by
  unfold run0_B
  dsimp only
  try sl_unfold_words
  rw [View.canon_cons_unit_zero hz2]
  simp only [View.readAt_eq_ld, harg1.read_unread, harg2.read_unread, harg3.read_unread, harg4.read_unread, harg5.read_unread, harg6.read_unread, harg7.read_unread, harg8.read_unread, View.ld_unit_zero (S := S80x100x4) hz3, View.ld_unit_zero (S := S80x1) hz2, View.ld_unit_zero (S := S80x4) hz2, View.ld_unit_zero (S := S9x64) hz2, View.ld_unit_zero (S := S1x64) hz2, View.readCov_unit_zero (S := S1x64) _ hz2]

/-- Last point, the first output buffer: a copy of the sums' row. -/
theorem runC_canon5 (c : Dev nD) (i : grid0.Coords) (arg1 : Memref sig .tc .vmem S80x100x4 .f32) (harg1 : arg1.IsWhole) (arg2 : Memref sig .tc .vmem S80x1 .i32) (harg2 : arg2.IsWhole) (arg3 : Memref sig .tc .vmem S80x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc2 : cond0_2 i)
    (x1 : Vec F S80x100x4 .f32) (x2 : Vec F S80x1 .i32) (x3 : Vec F S80x4 .i32) (x4 : Vec F S9x64 .f32) (xs7 : Vec F S1x64 .f32) (xs8 : Vec F S1x64 .f32) :
    View.canon (run0_C c i arg1 harg1 arg2 harg2 arg3 harg3 arg4 harg4 arg5 harg5 arg6 harg6 arg7 harg7 arg8 harg8 hc0 hc2 x1 x2 x3 x4 xs7 xs8).1 = k0_pay2 (k0_pay9 (k0_pay7 x1 x2 x3) (k0_pay8 x2)) (k0_pay10 x4) (k0_pay11 (k0_pay7 x1 x2 x3) (k0_pay8 x2) x4) (k0_pay12 x4) xs7 := by
  unfold run0_C
  dsimp only
  try sl_unfold_words
  rw [View.canon_cons_unit_zero hz2]
  simp only [View.readAt_eq_ld, harg1.read_unread, harg2.read_unread, harg3.read_unread, harg4.read_unread, harg5.read_unread, harg6.read_unread, harg7.read_unread, harg8.read_unread, View.ld_unit_zero (S := S80x100x4) hz3, View.ld_unit_zero (S := S80x1) hz2, View.ld_unit_zero (S := S80x4) hz2, View.ld_unit_zero (S := S9x64) hz2, View.ld_unit_zero (S := S1x64) hz2, View.readCov_unit_zero (S := S1x64) _ hz2]

/-- Last point, the second output buffer: a copy of the squares' row. -/
theorem runC_canon6 (c : Dev nD) (i : grid0.Coords) (arg1 : Memref sig .tc .vmem S80x100x4 .f32) (harg1 : arg1.IsWhole) (arg2 : Memref sig .tc .vmem S80x1 .i32) (harg2 : arg2.IsWhole) (arg3 : Memref sig .tc .vmem S80x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc2 : cond0_2 i)
    (x1 : Vec F S80x100x4 .f32) (x2 : Vec F S80x1 .i32) (x3 : Vec F S80x4 .i32) (x4 : Vec F S9x64 .f32) (xs7 : Vec F S1x64 .f32) (xs8 : Vec F S1x64 .f32) :
    View.canon (run0_C c i arg1 harg1 arg2 harg2 arg3 harg3 arg4 harg4 arg5 harg5 arg6 harg6 arg7 harg7 arg8 harg8 hc0 hc2 x1 x2 x3 x4 xs7 xs8).2.1 = k0_pay3 (k0_pay9 (k0_pay7 x1 x2 x3) (k0_pay8 x2)) (k0_pay10 x4) (k0_pay11 (k0_pay7 x1 x2 x3) (k0_pay8 x2) x4) (k0_pay12 x4) xs8 := by
  unfold run0_C
  dsimp only
  try sl_unfold_words
  rw [View.canon_cons_unit_zero hz2]
  simp only [View.readAt_eq_ld, harg1.read_unread, harg2.read_unread, harg3.read_unread, harg4.read_unread, harg5.read_unread, harg6.read_unread, harg7.read_unread, harg8.read_unread, View.ld_unit_zero (S := S80x100x4) hz3, View.ld_unit_zero (S := S80x1) hz2, View.ld_unit_zero (S := S80x4) hz2, View.ld_unit_zero (S := S9x64) hz2, View.ld_unit_zero (S := S1x64) hz2, View.readCov_unit_zero (S := S1x64) _ hz2]

/-- Last point, the sums' row. -/
theorem runC_canon7 (c : Dev nD) (i : grid0.Coords) (arg1 : Memref sig .tc .vmem S80x100x4 .f32) (harg1 : arg1.IsWhole) (arg2 : Memref sig .tc .vmem S80x1 .i32) (harg2 : arg2.IsWhole) (arg3 : Memref sig .tc .vmem S80x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc2 : cond0_2 i)
    (x1 : Vec F S80x100x4 .f32) (x2 : Vec F S80x1 .i32) (x3 : Vec F S80x4 .i32) (x4 : Vec F S9x64 .f32) (xs7 : Vec F S1x64 .f32) (xs8 : Vec F S1x64 .f32) :
    View.canon (run0_C c i arg1 harg1 arg2 harg2 arg3 harg3 arg4 harg4 arg5 harg5 arg6 harg6 arg7 harg7 arg8 harg8 hc0 hc2 x1 x2 x3 x4 xs7 xs8).2.2.1 = k0_pay2 (k0_pay9 (k0_pay7 x1 x2 x3) (k0_pay8 x2)) (k0_pay10 x4) (k0_pay11 (k0_pay7 x1 x2 x3) (k0_pay8 x2) x4) (k0_pay12 x4) xs7 := by
  unfold run0_C
  dsimp only
  try sl_unfold_words
  rw [View.canon_cons_unit_zero hz2]
  simp only [View.readAt_eq_ld, harg1.read_unread, harg2.read_unread, harg3.read_unread, harg4.read_unread, harg5.read_unread, harg6.read_unread, harg7.read_unread, harg8.read_unread, View.ld_unit_zero (S := S80x100x4) hz3, View.ld_unit_zero (S := S80x1) hz2, View.ld_unit_zero (S := S80x4) hz2, View.ld_unit_zero (S := S9x64) hz2, View.ld_unit_zero (S := S1x64) hz2, View.readCov_unit_zero (S := S1x64) _ hz2]

/-- Last point, the squares' row. -/
theorem runC_canon8 (c : Dev nD) (i : grid0.Coords) (arg1 : Memref sig .tc .vmem S80x100x4 .f32) (harg1 : arg1.IsWhole) (arg2 : Memref sig .tc .vmem S80x1 .i32) (harg2 : arg2.IsWhole) (arg3 : Memref sig .tc .vmem S80x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc2 : cond0_2 i)
    (x1 : Vec F S80x100x4 .f32) (x2 : Vec F S80x1 .i32) (x3 : Vec F S80x4 .i32) (x4 : Vec F S9x64 .f32) (xs7 : Vec F S1x64 .f32) (xs8 : Vec F S1x64 .f32) :
    View.canon (run0_C c i arg1 harg1 arg2 harg2 arg3 harg3 arg4 harg4 arg5 harg5 arg6 harg6 arg7 harg7 arg8 harg8 hc0 hc2 x1 x2 x3 x4 xs7 xs8).2.2.2.1 = k0_pay3 (k0_pay9 (k0_pay7 x1 x2 x3) (k0_pay8 x2)) (k0_pay10 x4) (k0_pay11 (k0_pay7 x1 x2 x3) (k0_pay8 x2) x4) (k0_pay12 x4) xs8 := by
  unfold run0_C
  dsimp only
  try sl_unfold_words
  rw [View.canon_cons_unit_zero hz2]
  simp only [View.readAt_eq_ld, harg1.read_unread, harg2.read_unread, harg3.read_unread, harg4.read_unread, harg5.read_unread, harg6.read_unread, harg7.read_unread, harg8.read_unread, View.ld_unit_zero (S := S80x100x4) hz3, View.ld_unit_zero (S := S80x1) hz2, View.ld_unit_zero (S := S80x4) hz2, View.ld_unit_zero (S := S9x64) hz2, View.ld_unit_zero (S := S1x64) hz2, View.readCov_unit_zero (S := S1x64) _ hz2]

variable (V : (c : Dev nD) → (b : Ref sig .tc) → Buf (Elt F) ((c : Thread nD τ).loc b))

/-- The second region's output buffer after point `t`. -/
theorem out1_8_eq (c : Dev nD) (t : Fin cfg1.N) :
    out1_8 V c t = k1_pay1 (k1_pay2 (iblk1 V c 0 t) (iblk1 V c 1 t) (iblk1 V c 2 t)) (k1_pay3 (iblk1 V c 3 t)) (k1_pay4 (k1_pay2 (iblk1 V c 0 t) (iblk1 V c 1 t) (iblk1 V c 2 t)) (iblk1 V c 3 t)) (k1_pay5 (iblk1 V c 3 t)) (iblk1 V c 4 t) (iblk1 V c 5 t) (iblk1 V c 6 t) (iblk1 V c 7 t) := by
  unfold out1_8
  rw [View.read_writes_eq_canon _ _ _ (cover1_8 V c t)]
  exact run1_canon (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (iblk1 V c 6 t) (iblk1 V c 7 t)

/-- The scratch rows after each case, and the output buffers after the last. -/
theorem sA_eq (c : Dev nD) (t : Fin cfg0.N) (h0) (h2) :
    sA V c t h0 h2 = (k0_pay2 (k0_pay9 (k0_pay7 (iblk0 V c 0 t) (iblk0 V c 1 t) (iblk0 V c 2 t)) (k0_pay8 (iblk0 V c 1 t))) (k0_pay10 (iblk0 V c 3 t)) (k0_pay11 (k0_pay7 (iblk0 V c 0 t) (iblk0 V c 1 t) (iblk0 V c 2 t)) (k0_pay8 (iblk0 V c 1 t)) (iblk0 V c 3 t)) (k0_pay12 (iblk0 V c 3 t)) (k0_pay4 (F := F)), k0_pay3 (k0_pay9 (k0_pay7 (iblk0 V c 0 t) (iblk0 V c 1 t) (iblk0 V c 2 t)) (k0_pay8 (iblk0 V c 1 t))) (k0_pay10 (iblk0 V c 3 t)) (k0_pay11 (k0_pay7 (iblk0 V c 0 t) (iblk0 V c 1 t) (iblk0 V c 2 t)) (k0_pay8 (iblk0 V c 1 t)) (iblk0 V c 3 t)) (k0_pay12 (iblk0 V c 3 t)) (k0_pay5 (F := F))) := by
  unfold sA rb
  rw [View.read_writes_eq_canon _ _ _ (covA7 V c t h0 h2), View.read_writes_eq_canon _ _ _ (covA8 V c t h0 h2)]
  exact Prod.ext (runA_canon7 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h2 (iblk0 V c 0 t) (iblk0 V c 1 t) (iblk0 V c 2 t) (iblk0 V c 3 t)) (runA_canon8 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h2 (iblk0 V c 0 t) (iblk0 V c 1 t) (iblk0 V c 2 t) (iblk0 V c 3 t))
theorem sB_eq (c : Dev nD) (t : Fin cfg0.N) (h0) (h2) (xs : Vec F S1x64 .f32 × Vec F S1x64 .f32) :
    sB V c t h0 h2 xs = (k0_pay2 (k0_pay9 (k0_pay7 (iblk0 V c 0 t) (iblk0 V c 1 t) (iblk0 V c 2 t)) (k0_pay8 (iblk0 V c 1 t))) (k0_pay10 (iblk0 V c 3 t)) (k0_pay11 (k0_pay7 (iblk0 V c 0 t) (iblk0 V c 1 t) (iblk0 V c 2 t)) (k0_pay8 (iblk0 V c 1 t)) (iblk0 V c 3 t)) (k0_pay12 (iblk0 V c 3 t)) xs.1, k0_pay3 (k0_pay9 (k0_pay7 (iblk0 V c 0 t) (iblk0 V c 1 t) (iblk0 V c 2 t)) (k0_pay8 (iblk0 V c 1 t))) (k0_pay10 (iblk0 V c 3 t)) (k0_pay11 (k0_pay7 (iblk0 V c 0 t) (iblk0 V c 1 t) (iblk0 V c 2 t)) (k0_pay8 (iblk0 V c 1 t)) (iblk0 V c 3 t)) (k0_pay12 (iblk0 V c 3 t)) xs.2) := by
  unfold sB rb
  rw [View.read_writes_eq_canon _ _ _ (covB7 V c t h0 h2 xs.1 xs.2), View.read_writes_eq_canon _ _ _ (covB8 V c t h0 h2 xs.1 xs.2)]
  exact Prod.ext (runB_canon7 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h2 (iblk0 V c 0 t) (iblk0 V c 1 t) (iblk0 V c 2 t) (iblk0 V c 3 t) xs.1 xs.2) (runB_canon8 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h2 (iblk0 V c 0 t) (iblk0 V c 1 t) (iblk0 V c 2 t) (iblk0 V c 3 t) xs.1 xs.2)
theorem sC_eq (c : Dev nD) (t : Fin cfg0.N) (h0) (h2) (xs : Vec F S1x64 .f32 × Vec F S1x64 .f32) :
    sC V c t h0 h2 xs = (k0_pay2 (k0_pay9 (k0_pay7 (iblk0 V c 0 t) (iblk0 V c 1 t) (iblk0 V c 2 t)) (k0_pay8 (iblk0 V c 1 t))) (k0_pay10 (iblk0 V c 3 t)) (k0_pay11 (k0_pay7 (iblk0 V c 0 t) (iblk0 V c 1 t) (iblk0 V c 2 t)) (k0_pay8 (iblk0 V c 1 t)) (iblk0 V c 3 t)) (k0_pay12 (iblk0 V c 3 t)) xs.1, k0_pay3 (k0_pay9 (k0_pay7 (iblk0 V c 0 t) (iblk0 V c 1 t) (iblk0 V c 2 t)) (k0_pay8 (iblk0 V c 1 t))) (k0_pay10 (iblk0 V c 3 t)) (k0_pay11 (k0_pay7 (iblk0 V c 0 t) (iblk0 V c 1 t) (iblk0 V c 2 t)) (k0_pay8 (iblk0 V c 1 t)) (iblk0 V c 3 t)) (k0_pay12 (iblk0 V c 3 t)) xs.2) := by
  unfold sC rb
  rw [View.read_writes_eq_canon _ _ _ (covC7 V c t h0 h2 xs.1 xs.2), View.read_writes_eq_canon _ _ _ (covC8 V c t h0 h2 xs.1 xs.2)]
  exact Prod.ext (runC_canon7 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h2 (iblk0 V c 0 t) (iblk0 V c 1 t) (iblk0 V c 2 t) (iblk0 V c 3 t) xs.1 xs.2) (runC_canon8 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h2 (iblk0 V c 0 t) (iblk0 V c 1 t) (iblk0 V c 2 t) (iblk0 V c 3 t) xs.1 xs.2)
theorem oC_eq (c : Dev nD) (t : Fin cfg0.N) (h0) (h2) (xs : Vec F S1x64 .f32 × Vec F S1x64 .f32) :
    oC V c t h0 h2 xs = (k0_pay2 (k0_pay9 (k0_pay7 (iblk0 V c 0 t) (iblk0 V c 1 t) (iblk0 V c 2 t)) (k0_pay8 (iblk0 V c 1 t))) (k0_pay10 (iblk0 V c 3 t)) (k0_pay11 (k0_pay7 (iblk0 V c 0 t) (iblk0 V c 1 t) (iblk0 V c 2 t)) (k0_pay8 (iblk0 V c 1 t)) (iblk0 V c 3 t)) (k0_pay12 (iblk0 V c 3 t)) xs.1, k0_pay3 (k0_pay9 (k0_pay7 (iblk0 V c 0 t) (iblk0 V c 1 t) (iblk0 V c 2 t)) (k0_pay8 (iblk0 V c 1 t))) (k0_pay10 (iblk0 V c 3 t)) (k0_pay11 (k0_pay7 (iblk0 V c 0 t) (iblk0 V c 1 t) (iblk0 V c 2 t)) (k0_pay8 (iblk0 V c 1 t)) (iblk0 V c 3 t)) (k0_pay12 (iblk0 V c 3 t)) xs.2) := by
  unfold oC rb
  rw [View.read_writes_eq_canon _ _ _ (covC5 V c t h0 h2 xs.1 xs.2), View.read_writes_eq_canon _ _ _ (covC6 V c t h0 h2 xs.1 xs.2)]
  exact Prod.ext (runC_canon5 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h2 (iblk0 V c 0 t) (iblk0 V c 1 t) (iblk0 V c 2 t) (iblk0 V c 3 t) xs.1 xs.2) (runC_canon6 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h0 h2 (iblk0 V c 0 t) (iblk0 V c 1 t) (iblk0 V c 2 t) (iblk0 V c 3 t) xs.1 xs.2)

end Cert.KernelIdeal.Hand

end
-- ==== Proof.ValBlocks.lean ====
/-
  A window's block at a grid point is the region-entry array read at the block's place: entry `x` of block `t` of a
  window that advances by whole blocks of 80 pillars is the array's entry at pillar `80 t + x₀`; a window that holds
  its whole array at every point reads the array itself.
-/
import proofs.«150693_j22273700397341_2_alg».proof.Proof.R1Frame
import proofs.«150693_j22273700397341_2_alg».proof.Proof.R0Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem idx1_0 : ∀ t : Fin cfg1.N, win1_0.index t (0 : Fin 3) = t.val ∧ win1_0.index t (1 : Fin 3) = 0 ∧ win1_0.index t (2 : Fin 3) = 0 :=
  (by decide +kernel : ∀ t : Fin grid1.N, _)
theorem iblk1_0_apply (c : Dev nD) (t : Fin cfg1.N) (x : S80x100x4.Idx) (k : S30000x100x4.Idx) (hk0 : (k 0).val = 80 * t.val + (x 0).val) (hk1 : (k 1).val = (x 1).val) (hk2 : (k 2).val = (x 2).val) :
    (iblk1 V c 0 t : Vec F S80x100x4 .f32) x = (V c main_arg0 : S30000x100x4.Idx → Elt F .f32) k := by
  obtain ⟨e0, e1, e2⟩ := idx1_0 t
  unfold iblk1
  rw [View.read_apply]
  show V c main_arg0 _ = V c main_arg0 _
  congr 1
  funext a
  apply Fin.ext
  match a with
  | ⟨0, _⟩ => show win1_0.index t (0 : Fin 3) * 80 + 1 * (x 0).val = (k 0).val; rw [e0, hk0]; omega
  | ⟨1, _⟩ => show win1_0.index t (1 : Fin 3) * 100 + 1 * (x 1).val = (k 1).val; rw [e1, hk1]; omega
  | ⟨2, _⟩ => show win1_0.index t (2 : Fin 3) * 4 + 1 * (x 2).val = (k 2).val; rw [e2, hk2]; omega

theorem idx1_1 : ∀ t : Fin cfg1.N, win1_1.index t (0 : Fin 2) = t.val ∧ win1_1.index t (1 : Fin 2) = 0 :=
  (by decide +kernel : ∀ t : Fin grid1.N, _)
theorem iblk1_1_apply (c : Dev nD) (t : Fin cfg1.N) (x : S80x1.Idx) (k : S30000x1.Idx) (hk0 : (k 0).val = 80 * t.val + (x 0).val) (hk1 : (k 1).val = (x 1).val) :
    (iblk1 V c 1 t : Vec F S80x1 .i32) x = (V c main_v0 : S30000x1.Idx → Elt F .i32) k := by
  obtain ⟨e0, e1⟩ := idx1_1 t
  unfold iblk1
  rw [View.read_apply]
  show V c main_v0 _ = V c main_v0 _
  congr 1
  funext a
  apply Fin.ext
  match a with
  | ⟨0, _⟩ => show win1_1.index t (0 : Fin 2) * 80 + 1 * (x 0).val = (k 0).val; rw [e0, hk0]; omega
  | ⟨1, _⟩ => show win1_1.index t (1 : Fin 2) * 1 + 1 * (x 1).val = (k 1).val; rw [e1, hk1]; omega

theorem idx1_2 : ∀ t : Fin cfg1.N, win1_2.index t (0 : Fin 2) = t.val ∧ win1_2.index t (1 : Fin 2) = 0 :=
  (by decide +kernel : ∀ t : Fin grid1.N, _)
theorem iblk1_2_apply (c : Dev nD) (t : Fin cfg1.N) (x : S80x4.Idx) (k : S30000x4.Idx) (hk0 : (k 0).val = 80 * t.val + (x 0).val) (hk1 : (k 1).val = (x 1).val) :
    (iblk1 V c 2 t : Vec F S80x4 .i32) x = (V c main_arg2 : S30000x4.Idx → Elt F .i32) k := by
  obtain ⟨e0, e1⟩ := idx1_2 t
  unfold iblk1
  rw [View.read_apply]
  show V c main_arg2 _ = V c main_arg2 _
  congr 1
  funext a
  apply Fin.ext
  match a with
  | ⟨0, _⟩ => show win1_2.index t (0 : Fin 2) * 80 + 1 * (x 0).val = (k 0).val; rw [e0, hk0]; omega
  | ⟨1, _⟩ => show win1_2.index t (1 : Fin 2) * 4 + 1 * (x 1).val = (k 1).val; rw [e1, hk1]; omega

theorem idx1_3 : ∀ t : Fin cfg1.N, win1_3.index t (0 : Fin 2) = 0 ∧ win1_3.index t (1 : Fin 2) = 0 :=
  (by decide +kernel : ∀ t : Fin grid1.N, _)
theorem iblk1_3_apply (c : Dev nD) (t : Fin cfg1.N) (x : S9x64.Idx) (k : S9x64.Idx) (hk0 : (k 0).val = (x 0).val) (hk1 : (k 1).val = (x 1).val) :
    (iblk1 V c 3 t : Vec F S9x64 .f32) x = (V c main_v1 : S9x64.Idx → Elt F .f32) k := by
  obtain ⟨e0, e1⟩ := idx1_3 t
  unfold iblk1
  rw [View.read_apply]
  show V c main_v1 _ = V c main_v1 _
  congr 1
  funext a
  apply Fin.ext
  match a with
  | ⟨0, _⟩ => show win1_3.index t (0 : Fin 2) * 9 + 1 * (x 0).val = (k 0).val; rw [e0, hk0]; omega
  | ⟨1, _⟩ => show win1_3.index t (1 : Fin 2) * 64 + 1 * (x 1).val = (k 1).val; rw [e1, hk1]; omega

theorem idx1_4 : ∀ t : Fin cfg1.N, win1_4.index t (0 : Fin 2) = 0 ∧ win1_4.index t (1 : Fin 2) = 0 :=
  (by decide +kernel : ∀ t : Fin grid1.N, _)
theorem iblk1_4_apply (c : Dev nD) (t : Fin cfg1.N) (x : S1x64.Idx) (k : S1x64.Idx) (hk0 : (k 0).val = (x 0).val) (hk1 : (k 1).val = (x 1).val) :
    (iblk1 V c 4 t : Vec F S1x64 .f32) x = (V c main_v13 : S1x64.Idx → Elt F .f32) k := by
  obtain ⟨e0, e1⟩ := idx1_4 t
  unfold iblk1
  rw [View.read_apply]
  show V c main_v13 _ = V c main_v13 _
  congr 1
  funext a
  apply Fin.ext
  match a with
  | ⟨0, _⟩ => show win1_4.index t (0 : Fin 2) * 1 + 1 * (x 0).val = (k 0).val; rw [e0, hk0]; omega
  | ⟨1, _⟩ => show win1_4.index t (1 : Fin 2) * 64 + 1 * (x 1).val = (k 1).val; rw [e1, hk1]; omega

theorem idx1_5 : ∀ t : Fin cfg1.N, win1_5.index t (0 : Fin 2) = 0 ∧ win1_5.index t (1 : Fin 2) = 0 :=
  (by decide +kernel : ∀ t : Fin grid1.N, _)
theorem iblk1_5_apply (c : Dev nD) (t : Fin cfg1.N) (x : S1x64.Idx) (k : S1x64.Idx) (hk0 : (k 0).val = (x 0).val) (hk1 : (k 1).val = (x 1).val) :
    (iblk1 V c 5 t : Vec F S1x64 .f32) x = (V c main_v14 : S1x64.Idx → Elt F .f32) k := by
  obtain ⟨e0, e1⟩ := idx1_5 t
  unfold iblk1
  rw [View.read_apply]
  show V c main_v14 _ = V c main_v14 _
  congr 1
  funext a
  apply Fin.ext
  match a with
  | ⟨0, _⟩ => show win1_5.index t (0 : Fin 2) * 1 + 1 * (x 0).val = (k 0).val; rw [e0, hk0]; omega
  | ⟨1, _⟩ => show win1_5.index t (1 : Fin 2) * 64 + 1 * (x 1).val = (k 1).val; rw [e1, hk1]; omega

theorem idx1_6 : ∀ t : Fin cfg1.N, win1_6.index t (0 : Fin 2) = 0 ∧ win1_6.index t (1 : Fin 2) = 0 :=
  (by decide +kernel : ∀ t : Fin grid1.N, _)
theorem iblk1_6_apply (c : Dev nD) (t : Fin cfg1.N) (x : S1x64.Idx) (k : S1x64.Idx) (hk0 : (k 0).val = (x 0).val) (hk1 : (k 1).val = (x 1).val) :
    (iblk1 V c 6 t : Vec F S1x64 .f32) x = (V c main_v2 : S1x64.Idx → Elt F .f32) k := by
  obtain ⟨e0, e1⟩ := idx1_6 t
  unfold iblk1
  rw [View.read_apply]
  show V c main_v2 _ = V c main_v2 _
  congr 1
  funext a
  apply Fin.ext
  match a with
  | ⟨0, _⟩ => show win1_6.index t (0 : Fin 2) * 1 + 1 * (x 0).val = (k 0).val; rw [e0, hk0]; omega
  | ⟨1, _⟩ => show win1_6.index t (1 : Fin 2) * 64 + 1 * (x 1).val = (k 1).val; rw [e1, hk1]; omega

theorem idx1_7 : ∀ t : Fin cfg1.N, win1_7.index t (0 : Fin 2) = 0 ∧ win1_7.index t (1 : Fin 2) = 0 :=
  (by decide +kernel : ∀ t : Fin grid1.N, _)
theorem iblk1_7_apply (c : Dev nD) (t : Fin cfg1.N) (x : S1x64.Idx) (k : S1x64.Idx) (hk0 : (k 0).val = (x 0).val) (hk1 : (k 1).val = (x 1).val) :
    (iblk1 V c 7 t : Vec F S1x64 .f32) x = (V c main_v3 : S1x64.Idx → Elt F .f32) k := by
  obtain ⟨e0, e1⟩ := idx1_7 t
  unfold iblk1
  rw [View.read_apply]
  show V c main_v3 _ = V c main_v3 _
  congr 1
  funext a
  apply Fin.ext
  match a with
  | ⟨0, _⟩ => show win1_7.index t (0 : Fin 2) * 1 + 1 * (x 0).val = (k 0).val; rw [e0, hk0]; omega
  | ⟨1, _⟩ => show win1_7.index t (1 : Fin 2) * 64 + 1 * (x 1).val = (k 1).val; rw [e1, hk1]; omega

theorem idx0_0 : ∀ t : Fin cfg0.N, win0_0.index t (0 : Fin 3) = t.val ∧ win0_0.index t (1 : Fin 3) = 0 ∧ win0_0.index t (2 : Fin 3) = 0 :=
  (by decide +kernel : ∀ t : Fin grid0.N, _)
theorem iblk0_0_apply (c : Dev nD) (t : Fin cfg0.N) (x : S80x100x4.Idx) (k : S30000x100x4.Idx) (hk0 : (k 0).val = 80 * t.val + (x 0).val) (hk1 : (k 1).val = (x 1).val) (hk2 : (k 2).val = (x 2).val) :
    (iblk0 V c 0 t : Vec F S80x100x4 .f32) x = (V c main_arg0 : S30000x100x4.Idx → Elt F .f32) k := by
  obtain ⟨e0, e1, e2⟩ := idx0_0 t
  unfold iblk0
  rw [View.read_apply]
  show V c main_arg0 _ = V c main_arg0 _
  congr 1
  funext a
  apply Fin.ext
  match a with
  | ⟨0, _⟩ => show win0_0.index t (0 : Fin 3) * 80 + 1 * (x 0).val = (k 0).val; rw [e0, hk0]; omega
  | ⟨1, _⟩ => show win0_0.index t (1 : Fin 3) * 100 + 1 * (x 1).val = (k 1).val; rw [e1, hk1]; omega
  | ⟨2, _⟩ => show win0_0.index t (2 : Fin 3) * 4 + 1 * (x 2).val = (k 2).val; rw [e2, hk2]; omega

theorem idx0_1 : ∀ t : Fin cfg0.N, win0_1.index t (0 : Fin 2) = t.val ∧ win0_1.index t (1 : Fin 2) = 0 :=
  (by decide +kernel : ∀ t : Fin grid0.N, _)
theorem iblk0_1_apply (c : Dev nD) (t : Fin cfg0.N) (x : S80x1.Idx) (k : S30000x1.Idx) (hk0 : (k 0).val = 80 * t.val + (x 0).val) (hk1 : (k 1).val = (x 1).val) :
    (iblk0 V c 1 t : Vec F S80x1 .i32) x = (V c main_v0 : S30000x1.Idx → Elt F .i32) k := by
  obtain ⟨e0, e1⟩ := idx0_1 t
  unfold iblk0
  rw [View.read_apply]
  show V c main_v0 _ = V c main_v0 _
  congr 1
  funext a
  apply Fin.ext
  match a with
  | ⟨0, _⟩ => show win0_1.index t (0 : Fin 2) * 80 + 1 * (x 0).val = (k 0).val; rw [e0, hk0]; omega
  | ⟨1, _⟩ => show win0_1.index t (1 : Fin 2) * 1 + 1 * (x 1).val = (k 1).val; rw [e1, hk1]; omega

theorem idx0_2 : ∀ t : Fin cfg0.N, win0_2.index t (0 : Fin 2) = t.val ∧ win0_2.index t (1 : Fin 2) = 0 :=
  (by decide +kernel : ∀ t : Fin grid0.N, _)
theorem iblk0_2_apply (c : Dev nD) (t : Fin cfg0.N) (x : S80x4.Idx) (k : S30000x4.Idx) (hk0 : (k 0).val = 80 * t.val + (x 0).val) (hk1 : (k 1).val = (x 1).val) :
    (iblk0 V c 2 t : Vec F S80x4 .i32) x = (V c main_arg2 : S30000x4.Idx → Elt F .i32) k := by
  obtain ⟨e0, e1⟩ := idx0_2 t
  unfold iblk0
  rw [View.read_apply]
  show V c main_arg2 _ = V c main_arg2 _
  congr 1
  funext a
  apply Fin.ext
  match a with
  | ⟨0, _⟩ => show win0_2.index t (0 : Fin 2) * 80 + 1 * (x 0).val = (k 0).val; rw [e0, hk0]; omega
  | ⟨1, _⟩ => show win0_2.index t (1 : Fin 2) * 4 + 1 * (x 1).val = (k 1).val; rw [e1, hk1]; omega

theorem idx0_3 : ∀ t : Fin cfg0.N, win0_3.index t (0 : Fin 2) = 0 ∧ win0_3.index t (1 : Fin 2) = 0 :=
  (by decide +kernel : ∀ t : Fin grid0.N, _)
theorem iblk0_3_apply (c : Dev nD) (t : Fin cfg0.N) (x : S9x64.Idx) (k : S9x64.Idx) (hk0 : (k 0).val = (x 0).val) (hk1 : (k 1).val = (x 1).val) :
    (iblk0 V c 3 t : Vec F S9x64 .f32) x = (V c main_v1 : S9x64.Idx → Elt F .f32) k := by
  obtain ⟨e0, e1⟩ := idx0_3 t
  unfold iblk0
  rw [View.read_apply]
  show V c main_v1 _ = V c main_v1 _
  congr 1
  funext a
  apply Fin.ext
  match a with
  | ⟨0, _⟩ => show win0_3.index t (0 : Fin 2) * 9 + 1 * (x 0).val = (k 0).val; rw [e0, hk0]; omega
  | ⟨1, _⟩ => show win0_3.index t (1 : Fin 2) * 64 + 1 * (x 1).val = (k 1).val; rw [e1, hk1]; omega

end Cert.KernelIdeal.Hand

end
-- ==== Proof.LibBlockSum.lean ====
/-
  A finite sum taken block by block.

  A sum over d < N can be accumulated in consecutive blocks: start from nothing, and at each step add the sum of
  the next b terms.  After the blocks that make up the first a terms the accumulator holds the a-th partial sum,
  and once the blocks have exhausted the range it holds the whole sum.  Only that addition is associative and
  commutative is used, so this holds in any commutative monoid — in particular over the extended reals, where no
  finiteness of the terms is needed.

  To speak of the a-th partial sum for every natural a, the summand is extended by zero beyond N.
-/
import Mathlib.Algebra.BigOperators.Fin
import Mathlib.Algebra.BigOperators.Intervals

open scoped BigOperators

namespace Cert.BlockSum

variable {M : Type*} [AddCommMonoid M]

/-- A summand on the indices below N, extended by zero to every natural number. -/
def ext0 {N : ℕ} (f : Fin N → M) (d : ℕ) : M := if h : d < N then f ⟨d, h⟩ else 0

theorem ext0_of_lt {N : ℕ} (f : Fin N → M) (d : ℕ) (h : d < N) : ext0 f d = f ⟨d, h⟩ := dif_pos h

/-- The sum of the first n terms. -/
def partialSum {N : ℕ} (f : Fin N → M) (n : ℕ) : M := ∑ d ∈ Finset.range n, ext0 f d

theorem partialSum_zero {N : ℕ} (f : Fin N → M) : partialSum f 0 = 0 := Finset.sum_range_zero _

/-- The N-th partial sum is the whole sum. -/
theorem partialSum_full {N : ℕ} (f : Fin N → M) : partialSum f N = ∑ d : Fin N, f d := by
  unfold partialSum
  rw [← Fin.sum_univ_eq_sum_range (ext0 f) N]
  exact Finset.sum_congr rfl fun d _ => ext0_of_lt f d.val d.isLt

/-- The block of b terms starting at a, as a sum over k < b. -/
theorem block_eq {N : ℕ} (f : Fin N → M) (a b : ℕ) (h : a + b ≤ N) :
    ∑ k : Fin b, f ⟨a + k.val, Nat.lt_of_lt_of_le (Nat.add_lt_add_left k.isLt a) h⟩
      = ∑ k ∈ Finset.range b, ext0 f (a + k) := by
  rw [← Fin.sum_univ_eq_sum_range (fun k => ext0 f (a + k)) b]
  exact Finset.sum_congr rfl fun k _ => (ext0_of_lt f (a + k.val) _).symm

/-- Adding the next block of b terms to the a-th partial sum gives the (a + b)-th. -/
theorem partialSum_add_block {N : ℕ} (f : Fin N → M) (a b : ℕ) (h : a + b ≤ N) :
    partialSum f a + ∑ k : Fin b, f ⟨a + k.val, Nat.lt_of_lt_of_le (Nat.add_lt_add_left k.isLt a) h⟩
      = partialSum f (a + b) := by
  rw [block_eq f a b h]
  unfold partialSum
  exact (Finset.sum_range_add (ext0 f) a b).symm

end Cert.BlockSum
-- ==== Proof.Spec.lean ====
/-
  The specification: the result of both programs as ONE function of the argument arrays, index by index.

  A pillar `p` has up to 100 points `n`, each with four raw channels; nine channels are formed
  (the raw four, the xyz offsets from the pillar's mean over its valid count, and the xy offsets from the
  pillar's centre), every channel is multiplied by the padding mask (1 when `n` is below the valid count,
  else 0), a bias-free linear map takes the nine channels to 64, the 64 channels are normalised by the
  mean and variance over ALL pillars and points, scaled, shifted, clamped at zero, and the maximum over the
  points of a pillar is taken. The variance is a PARAMETER of the last step (`outOf`): one program takes
  the mean of the squared deviations (`varR`), the other the mean of the squares minus the squared mean
  (`varK`); on finite inputs the two agree.

  The per-pillar quantities are stated first over ONE pillar's data (its points `fp`, its valid count `np`,
  its coordinates `cp`), then over the arrays.
-/
import Idealize.ShloMosaic.PureOps.Ideal
import Idealize.ShloMosaic.Lib.ValueIdx

noncomputable section

open scoped BigOperators

namespace Cert.Spec

open Idealize.ShloMosaic

/-! ## One pillar -/

section Pillar

variable (fp : Fin 100 → Fin 4 → EReal) (np : BitVec 32) (cp : Fin 4 → BitVec 32) (W : Fin 64 → Fin 9 → EReal)

/-- The pillar's valid count as a float: the signed integer's value. -/
def npfP : EReal := ((np.toInt : ℝ) : EReal)

/-- The mean of raw channel `j` over the pillar's points: the sum over all 100 rows divided by the valid count. -/
def meanXyzP (j : Fin 4) : EReal := Ideal.div (∑ n : Fin 100, fp n j) (npfP np)

/-- The nine channels of point `n` before masking. -/
def baseP (n : Fin 100) : Fin 9 → EReal
  | ⟨0, _⟩ => fp n 0
  | ⟨1, _⟩ => fp n 1
  | ⟨2, _⟩ => fp n 2
  | ⟨3, _⟩ => fp n 3
  | ⟨4, _⟩ => fp n 0 - meanXyzP fp np 0
  | ⟨5, _⟩ => fp n 1 - meanXyzP fp np 1
  | ⟨6, _⟩ => fp n 2 - meanXyzP fp np 2
  | ⟨7, _⟩ => fp n 0 - (((((cp 3).toInt : ℝ) : EReal)) * Ideal.ofBits .f32 0x3E23D70A#32 + Ideal.ofBits .f32 0x3DA3D70A#32)
  | ⟨8, _⟩ => fp n 1 - (((((cp 2).toInt : ℝ) : EReal)) * Ideal.ofBits .f32 0x3E23D70A#32 + Ideal.ofBits .f32 0xC21E6666#32)

/-- The padding mask: 1 when the row number is below the valid count (signed comparison of 32-bit words), else 0. -/
def maskP (n : Fin 100) : EReal :=
  (((IntOp.cmpi .slt (BitVec.ofNat 32 n.val) np).toNat : ℝ) : EReal)

/-- The masked channels. -/
def featP (n : Fin 100) (i : Fin 9) : EReal := baseP fp np cp n i * maskP np n

/-- The linear map: output channel `o` of point `n`. -/
def linP (n : Fin 100) (o : Fin 64) : EReal := ∑ i : Fin 9, featP fp np cp n i * W o i

end Pillar

/-- One entry normalised with mean `mean` and variance `v`, scaled by `g`, shifted by `b`, clamped at zero. -/
def normP (x mean v g b : EReal) : EReal :=
  max (((x - mean) * Ideal.rsqrt (v + Ideal.ofBits .f32 0x3A83126F#32)) * g + b) (Ideal.ofBits .f32 0x00000000#32)

/-! ## The arrays -/

section Defs

variable (features : Fin 30000 → Fin 100 → Fin 4 → EReal) (npts : Fin 30000 → BitVec 32)
  (coords : Fin 30000 → Fin 4 → BitVec 32) (W : Fin 64 → Fin 9 → EReal) (gamma beta : Fin 64 → EReal)

/-- The valid count of pillar `p`, as a float. -/
def npf (p : Fin 30000) : EReal := npfP (npts p)

/-- The mean of raw channel `j` over pillar `p`'s points. -/
def meanXyz (p : Fin 30000) (j : Fin 4) : EReal := meanXyzP (features p) (npts p) j

/-- The nine channels of point `n` of pillar `p` before masking. -/
def base (p : Fin 30000) (n : Fin 100) (i : Fin 9) : EReal := baseP (features p) (npts p) (coords p) n i

/-- The padding mask of point `n` of pillar `p`. -/
def mask (p : Fin 30000) (n : Fin 100) : EReal := maskP (npts p) n

/-- The masked channels. -/
def feat (p : Fin 30000) (n : Fin 100) (i : Fin 9) : EReal := featP (features p) (npts p) (coords p) n i

/-- The linear map: output channel `o` of point `n` of pillar `p`. -/
def lin (p : Fin 30000) (n : Fin 100) (o : Fin 64) : EReal := linP (features p) (npts p) (coords p) W n o

/-- The sum of channel `o` over every pillar and point. -/
def tot (o : Fin 64) : EReal := ∑ p : Fin 30000, ∑ n : Fin 100, lin features npts coords W p n o

/-- The sum of its squares. -/
def totsq (o : Fin 64) : EReal :=
  ∑ p : Fin 30000, ∑ n : Fin 100, lin features npts coords W p n o * lin features npts coords W p n o

/-- The number of (pillar, point) pairs, 3 000 000, as the f32 word both programs divide by. -/
def cnt : EReal := Ideal.ofBits .f32 0x4A371B00#32

/-- The mean of channel `o`. -/
def mean (o : Fin 64) : EReal := Ideal.div (tot features npts coords W o) cnt

/-- The variance as the mean of the squares minus the squared mean. -/
def varK (o : Fin 64) : EReal :=
  Ideal.div (totsq features npts coords W o) cnt - mean features npts coords W o * mean features npts coords W o

/-- The variance as the mean of the squared deviations. -/
def varR (o : Fin 64) : EReal :=
  Ideal.div (∑ p : Fin 30000, ∑ n : Fin 100,
    (lin features npts coords W p n o - mean features npts coords W o) * (lin features npts coords W p n o - mean features npts coords W o)) cnt

/-- Normalise with variance `v`, scale, shift, clamp at zero, and take the maximum over the pillar's points
    (folded from the word of minus infinity). -/
def outOf (v : Fin 64 → EReal) (p : Fin 30000) (o : Fin 64) : EReal :=
  (Finset.univ : Finset (Fin 100)).fold max (Ideal.ofBits .f32 0xFF800000#32) fun n =>
    normP (lin features npts coords W p n o) (mean features npts coords W o) (v o) (gamma o) (beta o)

/-- The result with the variance taken as mean of squares minus squared mean. -/
def outK : Fin 30000 → Fin 64 → EReal :=
  outOf features npts coords W gamma beta (varK features npts coords W)

/-- The result with the variance taken as mean of squared deviations. -/
def outR : Fin 30000 → Fin 64 → EReal :=
  outOf features npts coords W gamma beta (varR features npts coords W)

end Defs

end Cert.Spec

end
-- ==== Proof.Val0.lean ====
/-
  The first region's value at the extended reals. With LIN p n o the linear layer's output for pillar p, point n and
  channel o (as the specification states it over the arrays the region finds), the two scratch rows hold after grid
  point s the sums over the first 80 (s + 1) pillars of Σₙ LIN and of Σₙ LIN², by induction over the points: the first
  point adds its block's sums to zero, every later point to what the rows held. After the last point that is the sum
  over all 30000 pillars, which the last point copies to the two output windows; their arrays end holding it.
-/
import proofs.«150693_j22273700397341_2_alg».proof.Proof.ValPieces
import proofs.«150693_j22273700397341_2_alg».proof.Proof.ValBlocks
import proofs.«150693_j22273700397341_2_alg».proof.Proof.LibBlockSum
import proofs.«150693_j22273700397341_2_alg».proof.Proof.Spec
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (V : (c : Dev nD) → (b : Ref sig .tc) → Buf (Elt Ideal) ((c : Thread nD τ).loc b))

/-- The linear layer's output for pillar `b` of a block, from the block's loaded operands. -/
abbrev LIN (x1 : Vec Ideal S80x100x4 .f32) (x2 : Vec Ideal S80x1 .i32) (x3 : Vec Ideal S80x4 .i32) (x4 : Vec Ideal S9x64 .f32)
    (b : Fin 80) (n : Fin 100) (o : Fin 64) : EReal :=
  Cert.Spec.linP (fun n k => x1 (ix3 b n k)) (x2 (ix2 b 0)) (fun k => x3 (ix2 b k)) (fun o i => x4 (ix2 i o)) n o

/-- The linear layer's output for pillar `p` of the whole arrays a region finds. -/
def LINV (c : Dev nD) (p : Fin 30000) (n : Fin 100) (o : Fin 64) : EReal :=
  Cert.Spec.linP (fun n k => (V c main_arg0 : S30000x100x4.Idx → EReal) (ix3 p n k)) ((V c main_v0 : S30000x1.Idx → BitVec 32) (ix2 p 0))
    (fun k => (V c main_arg2 : S30000x4.Idx → BitVec 32) (ix2 p k)) (fun o i => (V c main_v1 : S9x64.Idx → EReal) (ix2 i o)) n o

/-- What the payloads of the two accumulating stores are, entry by entry (the kernel's arithmetic read at an index). -/
def PayS : Prop := ∀ (x1 : Vec Ideal S80x100x4 .f32) (x2 : Vec Ideal S80x1 .i32) (x3 : Vec Ideal S80x4 .i32) (x4 : Vec Ideal S9x64 .f32) (xs : Vec Ideal S1x64 .f32) (o : Fin 64),
  k0_pay2 (k0_pay9 (k0_pay7 x1 x2 x3) (k0_pay8 x2)) (k0_pay10 x4) (k0_pay11 (k0_pay7 x1 x2 x3) (k0_pay8 x2) x4) (k0_pay12 x4) xs (ix2 0 o) = xs (ix2 0 o) + ∑ b : Fin 80, ∑ n : Fin 100, LIN x1 x2 x3 x4 b n o
def PayQ : Prop := ∀ (x1 : Vec Ideal S80x100x4 .f32) (x2 : Vec Ideal S80x1 .i32) (x3 : Vec Ideal S80x4 .i32) (x4 : Vec Ideal S9x64 .f32) (xs : Vec Ideal S1x64 .f32) (o : Fin 64),
  k0_pay3 (k0_pay9 (k0_pay7 x1 x2 x3) (k0_pay8 x2)) (k0_pay10 x4) (k0_pay11 (k0_pay7 x1 x2 x3) (k0_pay8 x2) x4) (k0_pay12 x4) xs (ix2 0 o) = xs (ix2 0 o) + ∑ b : Fin 80, ∑ n : Fin 100, LIN x1 x2 x3 x4 b n o * LIN x1 x2 x3 x4 b n o
def PayZ : Prop := ∀ o : Fin 64, k0_pay4 (F := Ideal) (ix2 0 o) = 0 ∧ k0_pay5 (F := Ideal) (ix2 0 o) = 0

theorem N0' : cfg0.N = 375 := N_0

/-- A block's pillar `b` at point `t` is pillar `80 t + b` of the arrays. -/
theorem LIN_blk (c : Dev nD) (t : Fin cfg0.N) (b : Fin 80) (n : Fin 100) (o : Fin 64) (h : 80 * t.val + b.val < 30000) :
    LIN (iblk0 V c 0 t) (iblk0 V c 1 t) (iblk0 V c 2 t) (iblk0 V c 3 t) b n o = LINV V c ⟨80 * t.val + b.val, h⟩ n o := by
  unfold LIN LINV
  have e0 : (fun (n : Fin 100) (k : Fin 4) => (iblk0 V c 0 t : Vec Ideal S80x100x4 .f32) (ix3 b n k)) = fun n k => (V c main_arg0 : S30000x100x4.Idx → EReal) (ix3 ⟨80 * t.val + b.val, h⟩ n k) :=
    funext fun n => funext fun k => iblk0_0_apply V c t (ix3 b n k) (ix3 ⟨80 * t.val + b.val, h⟩ n k) rfl rfl rfl
  have e1 : (iblk0 V c 1 t : Vec Ideal S80x1 .i32) (ix2 b 0) = (V c main_v0 : S30000x1.Idx → BitVec 32) (ix2 ⟨80 * t.val + b.val, h⟩ 0) :=
    iblk0_1_apply V c t (ix2 b 0) (ix2 ⟨80 * t.val + b.val, h⟩ 0) rfl rfl
  have e2 : (fun (k : Fin 4) => (iblk0 V c 2 t : Vec Ideal S80x4 .i32) (ix2 b k)) = fun k => (V c main_arg2 : S30000x4.Idx → BitVec 32) (ix2 ⟨80 * t.val + b.val, h⟩ k) :=
    funext fun k => iblk0_2_apply V c t (ix2 b k) (ix2 ⟨80 * t.val + b.val, h⟩ k) rfl rfl
  have e3 : (fun (o : Fin 64) (i : Fin 9) => (iblk0 V c 3 t : Vec Ideal S9x64 .f32) (ix2 i o)) = fun o i => (V c main_v1 : S9x64.Idx → EReal) (ix2 i o) :=
    funext fun o => funext fun i => iblk0_3_apply V c t (ix2 i o) (ix2 i o) rfl rfl
  rw [e0, e1, e2, e3]

/-- Per pillar: the sums over the points axis. -/
def fS (c : Dev nD) (o : Fin 64) (p : Fin 30000) : EReal := ∑ n : Fin 100, LINV V c p n o
def fQ (c : Dev nD) (o : Fin 64) (p : Fin 30000) : EReal := ∑ n : Fin 100, LINV V c p n o * LINV V c p n o

theorem blockS (c : Dev nD) (t : Fin cfg0.N) (o : Fin 64) (h : 80 * t.val + 80 ≤ 30000) :
    ∑ b : Fin 80, ∑ n : Fin 100, LIN (iblk0 V c 0 t) (iblk0 V c 1 t) (iblk0 V c 2 t) (iblk0 V c 3 t) b n o
      = ∑ k : Fin 80, fS V c o ⟨80 * t.val + k.val, Nat.lt_of_lt_of_le (Nat.add_lt_add_left k.isLt _) h⟩ :=
  Finset.sum_congr rfl fun b _ => Finset.sum_congr rfl fun n _ => LIN_blk V c t b n o _
theorem blockQ (c : Dev nD) (t : Fin cfg0.N) (o : Fin 64) (h : 80 * t.val + 80 ≤ 30000) :
    ∑ b : Fin 80, ∑ n : Fin 100, LIN (iblk0 V c 0 t) (iblk0 V c 1 t) (iblk0 V c 2 t) (iblk0 V c 3 t) b n o * LIN (iblk0 V c 0 t) (iblk0 V c 1 t) (iblk0 V c 2 t) (iblk0 V c 3 t) b n o
      = ∑ k : Fin 80, fQ V c o ⟨80 * t.val + k.val, Nat.lt_of_lt_of_le (Nat.add_lt_add_left k.isLt _) h⟩ :=
  Finset.sum_congr rfl fun b _ => Finset.sum_congr rfl fun n _ => by rw [LIN_blk V c t b n o _]

/-- One more block of 80 pillars added to the partial sum. -/
theorem step80 (f : Fin 30000 → EReal) (n : ℕ) (h : 80 * (n + 1) + 80 ≤ 30000) :
    Cert.BlockSum.partialSum f (80 * n + 80) + ∑ k : Fin 80, f ⟨80 * (n + 1) + k.val, Nat.lt_of_lt_of_le (Nat.add_lt_add_left k.isLt _) h⟩
      = Cert.BlockSum.partialSum f (80 * (n + 1) + 80) := by
  have h' : 80 * n + 80 + 80 ≤ 30000 := by omega
  have e : 80 * (n + 1) + 80 = 80 * n + 80 + 80 := by ring
  refine Eq.trans ?_ ((Cert.BlockSum.partialSum_add_block f (80 * n + 80) 80 h').trans (congrArg (Cert.BlockSum.partialSum f) e.symm))
  congr 1
  first | done | exact Finset.sum_congr rfl fun k _ => congrArg f (Fin.ext (by show 80 * (n + 1) + k.val = 80 * n + 80 + k.val; ring))

/-- THE ACCUMULATION, read: after point `n` the two scratch rows hold the partial sums over the first 80 (n + 1) pillars. -/
theorem accAt_eq (hS : PayS) (hQ : PayQ) (hZ : PayZ) (c : Dev nD) (o : Fin 64) : ∀ (n : ℕ) (hn : n < cfg0.N),
    (accAt V c n hn).1 (ix2 0 o) = Cert.BlockSum.partialSum (fS V c o) (80 * n + 80)
    ∧ (accAt V c n hn).2 (ix2 0 o) = Cert.BlockSum.partialSum (fQ V c o) (80 * n + 80)
  | 0, hn => by
    have hb : 80 * (⟨0, hn⟩ : Fin cfg0.N).val + 80 ≤ 30000 := by simp
    rw [show accAt V c 0 hn = sA V c ⟨0, hn⟩ (c0_zero hn) (nc2_zero hn) from rfl, sA_eq]
    dsimp only
    rw [hS, hQ, (hZ o).1, (hZ o).2, blockS V c ⟨0, hn⟩ o hb, blockQ V c ⟨0, hn⟩ o hb]
    constructor
    · have := Cert.BlockSum.partialSum_add_block (fS V c o) 0 80 (by omega)
      rw [Cert.BlockSum.partialSum_zero] at this
      simpa using this
    · have := Cert.BlockSum.partialSum_add_block (fQ V c o) 0 80 (by omega)
      rw [Cert.BlockSum.partialSum_zero] at this
      simpa using this
  | n + 1, hn => by
    have hN : n + 1 < 375 := lt_of_lt_of_eq hn N0'
    have hb : 80 * (⟨n + 1, hn⟩ : Fin cfg0.N).val + 80 ≤ 30000 := by show 80 * (n + 1) + 80 ≤ 30000; omega
    obtain ⟨ih1, ih2⟩ := accAt_eq hS hQ hZ c o n (Nat.lt_of_succ_lt hn)
    have key : accAt V c (n + 1) hn = (k0_pay2 (k0_pay9 (k0_pay7 (iblk0 V c 0 ⟨n + 1, hn⟩) (iblk0 V c 1 ⟨n + 1, hn⟩) (iblk0 V c 2 ⟨n + 1, hn⟩)) (k0_pay8 (iblk0 V c 1 ⟨n + 1, hn⟩))) (k0_pay10 (iblk0 V c 3 ⟨n + 1, hn⟩)) (k0_pay11 (k0_pay7 (iblk0 V c 0 ⟨n + 1, hn⟩) (iblk0 V c 1 ⟨n + 1, hn⟩) (iblk0 V c 2 ⟨n + 1, hn⟩)) (k0_pay8 (iblk0 V c 1 ⟨n + 1, hn⟩)) (iblk0 V c 3 ⟨n + 1, hn⟩)) (k0_pay12 (iblk0 V c 3 ⟨n + 1, hn⟩)) (accAt V c n (Nat.lt_of_succ_lt hn)).1, k0_pay3 (k0_pay9 (k0_pay7 (iblk0 V c 0 ⟨n + 1, hn⟩) (iblk0 V c 1 ⟨n + 1, hn⟩) (iblk0 V c 2 ⟨n + 1, hn⟩)) (k0_pay8 (iblk0 V c 1 ⟨n + 1, hn⟩))) (k0_pay10 (iblk0 V c 3 ⟨n + 1, hn⟩)) (k0_pay11 (k0_pay7 (iblk0 V c 0 ⟨n + 1, hn⟩) (iblk0 V c 1 ⟨n + 1, hn⟩) (iblk0 V c 2 ⟨n + 1, hn⟩)) (k0_pay8 (iblk0 V c 1 ⟨n + 1, hn⟩)) (iblk0 V c 3 ⟨n + 1, hn⟩)) (k0_pay12 (iblk0 V c 3 ⟨n + 1, hn⟩)) (accAt V c n (Nat.lt_of_succ_lt hn)).2) := by
      by_cases h374 : n + 1 = 374
      · rw [show accAt V c (n + 1) hn = sC V c ⟨n + 1, hn⟩ (nc0_succ n hn) ((hcond0_2 ⟨n + 1, hn⟩).mpr h374) (accAt V c n (Nat.lt_of_succ_lt hn)) from dif_pos h374, sC_eq]
      · rw [show accAt V c (n + 1) hn = sB V c ⟨n + 1, hn⟩ (nc0_succ n hn) (fun h => h374 ((hcond0_2 ⟨n + 1, hn⟩).mp h)) (accAt V c n (Nat.lt_of_succ_lt hn)) from dif_neg h374, sB_eq]
    rw [key]
    dsimp only
    rw [hS, hQ, ih1, ih2, blockS V c ⟨n + 1, hn⟩ o hb, blockQ V c ⟨n + 1, hn⟩ o hb]
    exact ⟨step80 (fS V c o) n hb, step80 (fQ V c o) n hb⟩

end Cert.KernelIdeal.Hand

end
-- ==== Proof.Val0Fin.lean ====
/-
  The first region's two output arrays after the region: the sums over all pillars and points of the linear layer's
  outputs and of their squares, channel by channel.
-/
import proofs.«150693_j22273700397341_2_alg».proof.Proof.Val0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (V : (c : Dev nD) → (b : Ref sig .tc) → Buf (Elt Ideal) ((c : Thread nD τ).loc b))

theorem h374 : 374 < cfg0.N := by rw [N0']; decide
/-- The last grid point. -/
def t374 : Fin cfg0.N := ⟨374, h374⟩

theorem outAt_succ_pos (c : Dev nD) (n : ℕ) (hn : n + 1 < cfg0.N) (h : n + 1 = 374) :
    outAt V c (n + 1) hn = oC V c ⟨n + 1, hn⟩ (nc0_succ n hn) ((hcond0_2 ⟨n + 1, hn⟩).mpr h) (accAt V c n (Nat.lt_of_succ_lt hn)) := dif_pos h
theorem accAt_succ_pos (c : Dev nD) (n : ℕ) (hn : n + 1 < cfg0.N) (h : n + 1 = 374) :
    accAt V c (n + 1) hn = sC V c ⟨n + 1, hn⟩ (nc0_succ n hn) ((hcond0_2 ⟨n + 1, hn⟩).mpr h) (accAt V c n (Nat.lt_of_succ_lt hn)) := dif_pos h

/-- At the last point the output buffers are copies of the scratch rows. -/
theorem outAt_last (c : Dev nD) : outAt V c 374 h374 = accAt V c 374 h374 :=
  show outAt V c (373 + 1) h374 = accAt V c (373 + 1) h374 from by
    rw [outAt_succ_pos V c 373 h374 rfl, accAt_succ_pos V c 373 h374 rfl, oC_eq, sC_eq]

/-- What output window 4's array ends holding: written back at the last point only, the buffer then a copy of the scratch row. -/
def RES4 (c : Dev nD) : Vec Ideal S1x64 .f32 := (outAt V c 374 h374).1

theorem flushed0_4 (c : Dev nD) (t : Fin cfg0.N) (hf : (cfg0.win 4).flush t = true) :
    (dat0 V c).flushed 4 t = ((cfg0.win 4).blk t).view.read (Elt Ideal) (RES4 V c) := by
  have h1 : t.val = 374 := by have := (flush0_4 t).mp hf; have := lt_of_lt_of_eq t.isLt N0'; omega
  obtain rfl : t = t374 := Fin.ext h1
  show (cfg0.win 4).cut (grid0.coords t374) ((dat0 V c).after 4 t374) = _
  rw [after0_4]
  have hz' : (fun a => win0_4.index t374 a * main_v4_0.ty.shape.size a) = fun _ => 0 := funext fun a => by fin_cases a <;> decide +kernel
  exact (Memref.read_access_unit_zero (Elt Ideal) main_v4_0 hz' (fun a => by rw [congrFun hz' a]; simp) (RES4 V c)).symm

theorem final0_4 (c : Dev nD) : (dat0 V c).arrAt 4 cfg0.N = RES4 V c :=
  (dat0 V c).arrAt_eq_of_cover 4 (RES4 V c) (flushed0_4 V c) fun i =>
    ⟨t374, (flush0_4 t374).mpr rfl, by
      show i ∈ ((View.whole main_v4_0).slice (win0_4.rect t374)).set
      rw [View.set_slice_whole, Rect.mem_set_unit]
      intro a
      have h0 : (i 0 : Nat) < 1 := (i 0).isLt
      have h1 : (i 1 : Nat) < 64 := (i 1).isLt
      match a with
      | ⟨0, _⟩ => show win0_4.index t374 0 * win0_4.size 0 ≤ (i 0 : Nat) ∧ (i 0 : Nat) < win0_4.index t374 0 * win0_4.size 0 + win0_4.xsize (grid0.coords t374) 0
                  rw [show win0_4.index t374 0 * win0_4.size 0 = 0 from by decide +kernel, show win0_4.xsize (grid0.coords t374) 0 = 1 from by decide +kernel]; omega
      | ⟨1, _⟩ => show win0_4.index t374 1 * win0_4.size 1 ≤ (i 1 : Nat) ∧ (i 1 : Nat) < win0_4.index t374 1 * win0_4.size 1 + win0_4.xsize (grid0.coords t374) 1
                  rw [show win0_4.index t374 1 * win0_4.size 1 = 0 from by decide +kernel, show win0_4.xsize (grid0.coords t374) 1 = 64 from by decide +kernel]; omega⟩

theorem RES4_apply (hS : PayS) (hQ : PayQ) (hZ : PayZ) (c : Dev nD) (o : Fin 64) : RES4 V c (ix2 0 o) = ∑ p : Fin 30000, fS V c o p := by
  unfold RES4
  rw [outAt_last]
  rw [(accAt_eq V hS hQ hZ c o 374 h374).1]
  exact Cert.BlockSum.partialSum_full _

/-- What output window 5's array ends holding: written back at the last point only, the buffer then a copy of the scratch row. -/
def RES5 (c : Dev nD) : Vec Ideal S1x64 .f32 := (outAt V c 374 h374).2

theorem flushed0_5 (c : Dev nD) (t : Fin cfg0.N) (hf : (cfg0.win 5).flush t = true) :
    (dat0 V c).flushed 5 t = ((cfg0.win 5).blk t).view.read (Elt Ideal) (RES5 V c) := by
  have h1 : t.val = 374 := by have := (flush0_5 t).mp hf; have := lt_of_lt_of_eq t.isLt N0'; omega
  obtain rfl : t = t374 := Fin.ext h1
  show (cfg0.win 5).cut (grid0.coords t374) ((dat0 V c).after 5 t374) = _
  rw [after0_5]
  have hz' : (fun a => win0_5.index t374 a * main_v4_1.ty.shape.size a) = fun _ => 0 := funext fun a => by fin_cases a <;> decide +kernel
  exact (Memref.read_access_unit_zero (Elt Ideal) main_v4_1 hz' (fun a => by rw [congrFun hz' a]; simp) (RES5 V c)).symm

theorem final0_5 (c : Dev nD) : (dat0 V c).arrAt 5 cfg0.N = RES5 V c :=
  (dat0 V c).arrAt_eq_of_cover 5 (RES5 V c) (flushed0_5 V c) fun i =>
    ⟨t374, (flush0_5 t374).mpr rfl, by
      show i ∈ ((View.whole main_v4_1).slice (win0_5.rect t374)).set
      rw [View.set_slice_whole, Rect.mem_set_unit]
      intro a
      have h0 : (i 0 : Nat) < 1 := (i 0).isLt
      have h1 : (i 1 : Nat) < 64 := (i 1).isLt
      match a with
      | ⟨0, _⟩ => show win0_5.index t374 0 * win0_5.size 0 ≤ (i 0 : Nat) ∧ (i 0 : Nat) < win0_5.index t374 0 * win0_5.size 0 + win0_5.xsize (grid0.coords t374) 0
                  rw [show win0_5.index t374 0 * win0_5.size 0 = 0 from by decide +kernel, show win0_5.xsize (grid0.coords t374) 0 = 1 from by decide +kernel]; omega
      | ⟨1, _⟩ => show win0_5.index t374 1 * win0_5.size 1 ≤ (i 1 : Nat) ∧ (i 1 : Nat) < win0_5.index t374 1 * win0_5.size 1 + win0_5.xsize (grid0.coords t374) 1
                  rw [show win0_5.index t374 1 * win0_5.size 1 = 0 from by decide +kernel, show win0_5.xsize (grid0.coords t374) 1 = 64 from by decide +kernel]; omega⟩

theorem RES5_apply (hS : PayS) (hQ : PayQ) (hZ : PayZ) (c : Dev nD) (o : Fin 64) : RES5 V c (ix2 0 o) = ∑ p : Fin 30000, fQ V c o p := by
  unfold RES5
  rw [outAt_last]
  rw [(accAt_eq V hS hQ hZ c o 374 h374).2]
  exact Cert.BlockSum.partialSum_full _

end Cert.KernelIdeal.Hand

end
-- ==== Proof.Val1.lean ====
/-
  The second region's value at the extended reals: what grid point t writes back is block t of one whole-array
  function of the arrays the region finds — for pillar p and channel o the maximum over the points n of the rectified,
  normalised linear output, with the mean, variance, scale and shift rows read at channel o —, the blocks of 80 pillars
  cover the output array, so the array ends holding that function.
-/
import proofs.«150693_j22273700397341_2_alg».proof.Proof.Val0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (V : (c : Dev nD) → (b : Ref sig .tc) → Buf (Elt Ideal) ((c : Thread nD τ).loc b))

/-- The output entry for pillar `p`, channel `o`, over the arrays the region finds. -/
def OUT1 (c : Dev nD) (p : Fin 30000) (o : Fin 64) : EReal :=
  (Finset.univ : Finset (Fin 100)).fold max (Ideal.ofBits .f32 0xFF800000#32) fun n =>
    Cert.Spec.normP (LINV V c p n o) ((V c main_v13 : S1x64.Idx → EReal) (ix2 0 o)) ((V c main_v14 : S1x64.Idx → EReal) (ix2 0 o))
      ((V c main_v2 : S1x64.Idx → EReal) (ix2 0 o)) ((V c main_v3 : S1x64.Idx → EReal) (ix2 0 o))

/-- The whole output array. -/
def G1 (c : Dev nD) : S30000x64.Idx → EReal := fun j => OUT1 V c ⟨(j 0).val, idx2_lt0 j⟩ ⟨(j 1).val, idx2_lt1 j⟩

/-- The stored value's entries (the second kernel's arithmetic read at an index). -/
def PayO : Prop := ∀ (x1 : Vec Ideal S80x100x4 .f32) (x2 : Vec Ideal S80x1 .i32) (x3 : Vec Ideal S80x4 .i32) (x4 : Vec Ideal S9x64 .f32)
    (x5 x6 x7 x8 : Vec Ideal S1x64 .f32) (b : Fin 80) (o : Fin 64),
  k1_pay1 (k1_pay2 x1 x2 x3) (k1_pay3 x4) (k1_pay4 (k1_pay2 x1 x2 x3) x4) (k1_pay5 x4) x5 x6 x7 x8 (ix2 b o)
    = (Finset.univ : Finset (Fin 100)).fold max (Ideal.ofBits .f32 0xFF800000#32) fun n =>
        Cert.Spec.normP (LIN x1 x2 x3 x4 b n o) (x5 (ix2 0 o)) (x6 (ix2 0 o)) (x7 (ix2 0 o)) (x8 (ix2 0 o))

theorem N1' : cfg1.N = 375 := N_1

/-- A block's pillar `b` at point `t` is pillar `80 t + b` of the arrays. -/
theorem LIN_blk1 (c : Dev nD) (t : Fin cfg1.N) (b : Fin 80) (n : Fin 100) (o : Fin 64) (h : 80 * t.val + b.val < 30000) :
    LIN (iblk1 V c 0 t) (iblk1 V c 1 t) (iblk1 V c 2 t) (iblk1 V c 3 t) b n o = LINV V c ⟨80 * t.val + b.val, h⟩ n o := by
  unfold LIN LINV
  have e0 : (fun (n : Fin 100) (k : Fin 4) => (iblk1 V c 0 t : Vec Ideal S80x100x4 .f32) (ix3 b n k)) = fun n k => (V c main_arg0 : S30000x100x4.Idx → EReal) (ix3 ⟨80 * t.val + b.val, h⟩ n k) :=
    funext fun n => funext fun k => iblk1_0_apply V c t (ix3 b n k) (ix3 ⟨80 * t.val + b.val, h⟩ n k) rfl rfl rfl
  have e1 : (iblk1 V c 1 t : Vec Ideal S80x1 .i32) (ix2 b 0) = (V c main_v0 : S30000x1.Idx → BitVec 32) (ix2 ⟨80 * t.val + b.val, h⟩ 0) :=
    iblk1_1_apply V c t (ix2 b 0) (ix2 ⟨80 * t.val + b.val, h⟩ 0) rfl rfl
  have e2 : (fun (k : Fin 4) => (iblk1 V c 2 t : Vec Ideal S80x4 .i32) (ix2 b k)) = fun k => (V c main_arg2 : S30000x4.Idx → BitVec 32) (ix2 ⟨80 * t.val + b.val, h⟩ k) :=
    funext fun k => iblk1_2_apply V c t (ix2 b k) (ix2 ⟨80 * t.val + b.val, h⟩ k) rfl rfl
  have e3 : (fun (o : Fin 64) (i : Fin 9) => (iblk1 V c 3 t : Vec Ideal S9x64 .f32) (ix2 i o)) = fun o i => (V c main_v1 : S9x64.Idx → EReal) (ix2 i o) :=
    funext fun o => funext fun i => iblk1_3_apply V c t (ix2 i o) (ix2 i o) rfl rfl
  rw [e0, e1, e2, e3]

theorem idx1_8 : ∀ t : Fin cfg1.N, win1_8.index t (0 : Fin 2) = t.val ∧ win1_8.index t (1 : Fin 2) = 0 :=
  (by decide +kernel : ∀ t : Fin grid1.N, _)

/-- One entry of the stored value at point `t`: the output entry of pillar `80 t + b`. -/
theorem blk_entry (hO : PayO) (c : Dev nD) (t : Fin cfg1.N) (b : Fin 80) (o : Fin 64) (hb : 80 * t.val + b.val < 30000) :
    (k1_pay1 (k1_pay2 (iblk1 V c 0 t) (iblk1 V c 1 t) (iblk1 V c 2 t)) (k1_pay3 (iblk1 V c 3 t)) (k1_pay4 (k1_pay2 (iblk1 V c 0 t) (iblk1 V c 1 t) (iblk1 V c 2 t)) (iblk1 V c 3 t)) (k1_pay5 (iblk1 V c 3 t)) (iblk1 V c 4 t) (iblk1 V c 5 t) (iblk1 V c 6 t) (iblk1 V c 7 t) : S80x64.Idx → EReal) (ix2 b o) = OUT1 V c ⟨80 * t.val + b.val, hb⟩ o := by
  refine (hO (iblk1 V c 0 t) (iblk1 V c 1 t) (iblk1 V c 2 t) (iblk1 V c 3 t) (iblk1 V c 4 t) (iblk1 V c 5 t) (iblk1 V c 6 t) (iblk1 V c 7 t) b o).trans ?_
  unfold OUT1
  have e4 : (iblk1 V c 4 t : Vec Ideal S1x64 .f32) (ix2 0 o) = (V c main_v13 : S1x64.Idx → EReal) (ix2 0 o) := iblk1_4_apply V c t (ix2 0 o) (ix2 0 o) rfl rfl
  have e5 : (iblk1 V c 5 t : Vec Ideal S1x64 .f32) (ix2 0 o) = (V c main_v14 : S1x64.Idx → EReal) (ix2 0 o) := iblk1_5_apply V c t (ix2 0 o) (ix2 0 o) rfl rfl
  have e6 : (iblk1 V c 6 t : Vec Ideal S1x64 .f32) (ix2 0 o) = (V c main_v2 : S1x64.Idx → EReal) (ix2 0 o) := iblk1_6_apply V c t (ix2 0 o) (ix2 0 o) rfl rfl
  have e7 : (iblk1 V c 7 t : Vec Ideal S1x64 .f32) (ix2 0 o) = (V c main_v3 : S1x64.Idx → EReal) (ix2 0 o) := iblk1_7_apply V c t (ix2 0 o) (ix2 0 o) rfl rfl
  have eL : (fun n : Fin 100 => LIN (iblk1 V c 0 t) (iblk1 V c 1 t) (iblk1 V c 2 t) (iblk1 V c 3 t) b n o) = fun n => LINV V c ⟨80 * t.val + b.val, hb⟩ n o :=
    funext fun n => LIN_blk1 V c t b n o hb
  exact congrArg (fun (g : Fin 100 → EReal) => (Finset.univ : Finset (Fin 100)).fold max (Ideal.ofBits .f32 0xFF800000#32) g)
    (funext fun n => by rw [e4, e5, e6, e7, congrFun eL n])

/-- WHAT POINT `t` WRITES BACK is block `t` of the whole-array function. -/
theorem flushed1_eq (hO : PayO) (c : Dev nD) (t : Fin cfg1.N) :
    (dat1 V c).flushed 8 t = ((cfg1.win 8).blk t).view.read (Elt Ideal) (G1 V c) := by
  show (cfg1.win 8).cut (grid1.coords t) ((dat1 V c).after 8 t) = _
  rw [after1_8, out1_8_eq]
  obtain ⟨e0, e1⟩ := idx1_8 t
  have hN : t.val < 375 := lt_of_lt_of_eq t.isLt N1'
  funext j
  have hb : 80 * t.val + (j 0).val < 30000 := by have := idx2_lt0 (j : S80x64.Idx); omega
  have hemb : ((cfg1.win 8).blk t).view.emb j = (ix2 (⟨80 * t.val + (j 0).val, hb⟩ : Fin 30000) (⟨(j 1).val, idx2_lt1 (j : S80x64.Idx)⟩ : Fin 64) : S30000x64.Idx) := by
    funext a
    apply Fin.ext
    match a with
    | ⟨0, _⟩ => show win1_8.index t (0 : Fin 2) * 80 + 1 * (j 0).val = 80 * t.val + (j 0).val; rw [e0]; omega
    | ⟨1, _⟩ => show win1_8.index t (1 : Fin 2) * 64 + 1 * (j 1).val = (j 1).val; rw [e1]; omega
  show (k1_pay1 (k1_pay2 (iblk1 V c 0 t) (iblk1 V c 1 t) (iblk1 V c 2 t)) (k1_pay3 (iblk1 V c 3 t)) (k1_pay4 (k1_pay2 (iblk1 V c 0 t) (iblk1 V c 1 t) (iblk1 V c 2 t)) (iblk1 V c 3 t)) (k1_pay5 (iblk1 V c 3 t)) (iblk1 V c 4 t) (iblk1 V c 5 t) (iblk1 V c 6 t) (iblk1 V c 7 t) : S80x64.Idx → EReal) j = G1 V c (((cfg1.win 8).blk t).view.emb j)
  rw [hemb]
  refine Eq.trans (congrArg _ (eq_ix2 (j : S80x64.Idx))) ?_
  exact blk_entry V hO c t ⟨(j 0).val, idx2_lt0 (j : S80x64.Idx)⟩ ⟨(j 1).val, idx2_lt1 (j : S80x64.Idx)⟩ hb

/-- An index of the array is in point `t`'s block iff each coordinate is in the block's range on its axis. -/
theorem mem_blk8 (t : Fin cfg1.N) (i : S30000x64.Idx) :
    i ∈ ((cfg1.win 8).blk t).view.set ↔ ∀ a : Fin 2, win1_8.index t a * S80x64.size a ≤ (i a).val ∧ (i a).val < win1_8.index t a * S80x64.size a + S80x64.size a := by
  show i ∈ ((View.whole main_v15).slice (win1_8.rect t)).set ↔ _
  rw [View.set_slice_whole, Rect.mem_set_unit]
  exact Iff.rfl

/-- THE ARRAY after the region: the whole-array function (the blocks of 80 pillars cover the 30000). -/
theorem final1 (hO : PayO) (c : Dev nD) : (dat1 V c).arrAt 8 cfg1.N = G1 V c :=
  (dat1 V c).arrAt_eq_of_cover 8 (G1 V c) (fun t _ => flushed1_eq V hO c t) fun i => by
    have hi0 : (i 0).val < 30000 := idx2_lt0 (i : S30000x64.Idx)
    have hi1 : (i 1).val < 64 := idx2_lt1 (i : S30000x64.Idx)
    have ht : (i 0).val / 80 < cfg1.N := by rw [N1']; omega
    refine ⟨⟨(i 0).val / 80, ht⟩, flush1_8 _, ?_⟩
    rw [mem_blk8]
    obtain ⟨e0, e1⟩ := idx1_8 ⟨(i 0).val / 80, ht⟩
    intro a
    match a with
    | ⟨0, _⟩ => show win1_8.index ⟨(i 0).val / 80, ht⟩ (0 : Fin 2) * 80 ≤ (i 0).val ∧ (i 0).val < win1_8.index ⟨(i 0).val / 80, ht⟩ (0 : Fin 2) * 80 + 80; rw [e0]; show (i 0).val / 80 * 80 ≤ (i 0).val ∧ (i 0).val < (i 0).val / 80 * 80 + 80; omega
    | ⟨1, _⟩ => show win1_8.index ⟨(i 0).val / 80, ht⟩ (1 : Fin 2) * 64 ≤ (i 1).val ∧ (i 1).val < win1_8.index ⟨(i 0).val / 80, ht⟩ (1 : Fin 2) * 64 + 64; rw [e1]; omega

end Cert.KernelIdeal.Hand

end
-- ==== Proof.R0Body.lean ====
/-
  The first kernel's body obligation at every grid point: at the first point the scratch rows are found at anything and
  left at the block's sums; at a later point they are found at the sums so far and left with the block's sums added; at
  the last point the output windows' buffers moreover receive copies. The input buffers hold their blocks throughout,
  and the idle output buffers are handed back as found.
-/
import proofs.«150693_j22273700397341_2_alg».proof.Proof.R0Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

theorem PhiS_succ' (c : Dev nD) (n : ℕ) (hn : n < cfg0.N) :
    PhiS V c (n + 1) hn = iprop(iprop(owns (c : Thread nD τ) scM0_0 fullShare (accAt V c n hn).1 ∗ owns (c : Thread nD τ) scM0_1 fullShare (accAt V c n hn).2 ∗ others0 c) ∗ (∃ r, prngReg c r)) := rfl

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ']
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  obtain ⟨n, hn⟩ := t
  cases n with
  | zero =>
    have h0 := c0_zero hn
    have h2 := nc2_zero hn
    rw [Dat.leavesExact_idle (dat0 V c) 4 ⟨0, hn⟩ (idleAt0_4 _ h2) (noFlush0_4 _ h2), Dat.leavesExact_idle (dat0 V c) 5 ⟨0, hn⟩ (idleAt0_5 _ h2) (noFlush0_5 _ h2)]
    rw [show (dat0 V c).Φ (Fin.castSucc ⟨0, hn⟩) = Pipeline.ΦA spec0 c from rfl, PhiA0_eq]
    rw [show accAt V c 0 hn = sA V c ⟨0, hn⟩ h0 h2 from rfl]
    unfold sA; dsimp only
    iintro ⟨⟨⟨HS7, HS8, Hoth⟩, Hg⟩, Ho, ⟨%d0, H0⟩, ⟨%d1, H1⟩, ⟨%d2, H2⟩, ⟨%d3, H3⟩, ⟨%d4, H4⟩, ⟨%d5, H5⟩⟩
    iapply ((KA V c ⟨0, hn⟩ h0 h2).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS7]; · iexact HS7
    isplitl [HS8]; · iexact HS8
    iintro ⟨H0, H1, H2, H3, H4, H5, ⟨%es7, HS7⟩, ⟨%es8, HS8⟩⟩
    isplitl [HS7 HS8 Hoth Hg]
    · isplitr [Hg]
      · isplitl [HS7]
        · unfold owns; iexists _; isplitr
          swap; · iexact HS7
          ipureintro; exact View.read_writes_of_cover _ _ _ _ _ (covA7 V c _ _ _)
        isplitl [HS8]
        · unfold owns; iexists _; isplitr
          swap; · iexact HS8
          ipureintro; exact View.read_writes_of_cover _ _ _ _ _ (covA8 V c _ _ _)
        iexact Hoth
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  | succ n =>
    have h0 := nc0_succ n hn
    rw [show (dat0 V c).Φ (Fin.castSucc ⟨n + 1, hn⟩) = PhiS V c (n + 1) (Nat.le_of_lt hn) from rfl, PhiS_succ']
    by_cases h374 : n + 1 = 374
    · have h2 : cond0_2 (grid0.coords ⟨n + 1, hn⟩) := (hcond0_2 ⟨n + 1, hn⟩).mpr h374
      rw [show (dat0 V c).leavesExact 4 ⟨n + 1, hn⟩ = owns (c : Thread nD τ) (ms0_4 ⟨n + 1, hn⟩) fullShare ((dat0 V c).after 4 ⟨n + 1, hn⟩) from by
        unfold Dat.leavesExact; rw [liveAt0_4 _ h2], after0_4]
      rw [show (dat0 V c).leavesExact 5 ⟨n + 1, hn⟩ = owns (c : Thread nD τ) (ms0_5 ⟨n + 1, hn⟩) fullShare ((dat0 V c).after 5 ⟨n + 1, hn⟩) from by
        unfold Dat.leavesExact; rw [liveAt0_5 _ h2], after0_5]
      rw [show accAt V c (n + 1) hn = sC V c ⟨n + 1, hn⟩ h0 h2 (accAt V c n (Nat.lt_of_succ_lt hn)) from dif_pos h374,
        show outAt V c (n + 1) hn = oC V c ⟨n + 1, hn⟩ h0 h2 (accAt V c n (Nat.lt_of_succ_lt hn)) from dif_pos h374]
      unfold sC oC; dsimp only
      iintro ⟨⟨⟨HS7, HS8, Hoth⟩, Hg⟩, Ho, ⟨%d0, H0⟩, ⟨%d1, H1⟩, ⟨%d2, H2⟩, ⟨%d3, H3⟩, ⟨%d4, H4⟩, ⟨%d5, H5⟩⟩
      iapply ((KC V c ⟨n + 1, hn⟩ h0 h2 _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS7]; · iexact HS7
      isplitl [HS8]; · iexact HS8
      iintro ⟨H0, H1, H2, H3, ⟨%e4, H4⟩, ⟨%e5, H5⟩, ⟨%es7, HS7⟩, ⟨%es8, HS8⟩⟩
      isplitl [HS7 HS8 Hoth Hg]
      · isplitr [Hg]
        · isplitl [HS7]
          · unfold owns; iexists _; isplitr
            swap; · iexact HS7
            ipureintro; exact View.read_writes_of_cover _ _ _ _ _ (covC7 V c _ _ _ _ _)
          isplitl [HS8]
          · unfold owns; iexists _; isplitr
            swap; · iexact HS8
            ipureintro; exact View.read_writes_of_cover _ _ _ _ _ (covC8 V c _ _ _ _ _)
          iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (covC5 V c _ _ _ _ _)
      unfold owns; iexists _; isplitr
      swap; · iexact H5
      ipureintro; exact View.read_writes_of_cover _ _ _ _ _ (covC6 V c _ _ _ _ _)
    · have h2 : ¬cond0_2 (grid0.coords ⟨n + 1, hn⟩) := fun h => h374 ((hcond0_2 ⟨n + 1, hn⟩).mp h)
      rw [Dat.leavesExact_idle (dat0 V c) 4 ⟨n + 1, hn⟩ (idleAt0_4 _ h2) (noFlush0_4 _ h2), Dat.leavesExact_idle (dat0 V c) 5 ⟨n + 1, hn⟩ (idleAt0_5 _ h2) (noFlush0_5 _ h2)]
      rw [show accAt V c (n + 1) hn = sB V c ⟨n + 1, hn⟩ h0 h2 (accAt V c n (Nat.lt_of_succ_lt hn)) from dif_neg h374]
      unfold sB; dsimp only
      iintro ⟨⟨⟨HS7, HS8, Hoth⟩, Hg⟩, Ho, ⟨%d0, H0⟩, ⟨%d1, H1⟩, ⟨%d2, H2⟩, ⟨%d3, H3⟩, ⟨%d4, H4⟩, ⟨%d5, H5⟩⟩
      iapply ((KB V c ⟨n + 1, hn⟩ h0 h2 _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS7]; · iexact HS7
      isplitl [HS8]; · iexact HS8
      iintro ⟨H0, H1, H2, H3, H4, H5, ⟨%es7, HS7⟩, ⟨%es8, HS8⟩⟩
      isplitl [HS7 HS8 Hoth Hg]
      · isplitr [Hg]
        · isplitl [HS7]
          · unfold owns; iexists _; isplitr
            swap; · iexact HS7
            ipureintro; exact View.read_writes_of_cover _ _ _ _ _ (covB7 V c _ _ _ _ _)
          isplitl [HS8]
          · unfold owns; iexists _; isplitr
            swap; · iexact HS8
            ipureintro; exact View.read_writes_of_cover _ _ _ _ _ (covB8 V c _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Pipeline.ΦA spec0 c from rfl]
  try exact Idealize.SL.BI.Entails.refl _

/-- After the last point the invariant gives the class's back: the scratch rows' named contents are forgotten. -/
theorem hout0 (c : Dev nD) : (dat0 V c).Φ (Fin.last cfg0.N) ⊢ Pipeline.ΦA spec0 c := by
  rw [show (dat0 V c).Φ (Fin.last cfg0.N) = PhiS V c (374 + 1) (by decide) from rfl, PhiS_succ', PhiA0_eq]
  iintro ⟨⟨HS7, HS8, Hoth⟩, Hg⟩
  isplitr [Hg]
  · isplitl [HS7]; · iexists _; iexact HS7
    isplitl [HS8]; · iexists _; iexact HS8
    iexact Hoth
  iexact Hg

end Cert.KernelIdeal.Hand

end
-- ==== Proof.RunAll.lean ====
/-
  The whole run of the program as four segments — the host operations before the first kernel, the first kernel's region
  (the per-channel sums), the host operations between (mean and variance), the second kernel's region — from the launch
  memory to the return: every weakly fair execution terminates without a fault, and at the end every unscoped buffer of
  every core holds the contents the fold `W4` names: each argument as launched, the result at what the second region's
  write-backs leave.
-/
import proofs.«150693_j22273700397341_2_alg».proof.Proof.R0Body
import proofs.«150693_j22273700397341_2_alg».proof.Proof.R1Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the program -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := (W4_arr m ρ c 2).trans (((dat1 (V3 m ρ) c).arrAt_in 2 rfl _).trans (A_eq1 (V3 m ρ) c 2))
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The proof data family and the thread state -/

abbrev adm : (p : Fin 2) → (pcfgs (F := F) p).Adm := fun p => (cfgs p).toPCfg_adm
/-- Every pipeline's proof data, each at its region's entry contents — a literal match on the pipeline's number. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 over the thread state: entered from every unscoped buffer at the contents before it, left with its arrays
    at what the pipeline leaves and every other buffer as entered; the generator register goes into the invariant and
    comes back; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the contents before it, left with its arrays
    at what the pipeline leaves and every other buffer as entered; the generator register goes into the invariant and
    comes back; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and every final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.KernelIdeal.Hand

end
-- ==== Proof.ValHost.lean ====
/-
  What the host operations leave where the two regions read it. Before the first region: the point counts recast as a
  column and the weights transposed; the features and coordinates as launched. Between the regions: the mean row is the
  first region's sums' row divided by the count, the variance row its squares' row divided by the count minus the
  mean squared; the second region finds the features, counts, coordinates and weights as the first did, and the scale
  and shift vectors recast as rows.
-/
import proofs.«150693_j22273700397341_2_alg».proof.Proof.RunAll
import Idealize.ShloMosaic.Lib.StableHlo.Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Before the first region -/

theorem V1_arg0 (c : Dev nD) : V1 m ρ c main_arg0 = m ((c : Thread nD τ).loc main_arg0) :=
  show StableHlo.after hostOps0 (W0 m ρ c) (Proc.devRef .tc main_arg0) = _ from
    (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem V1_arg2 (c : Dev nD) : V1 m ρ c main_arg2 = m ((c : Thread nD τ).loc main_arg2) :=
  show StableHlo.after hostOps0 (W0 m ρ c) (Proc.devRef .tc main_arg2) = _ from
    (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem V1_v0 (c : Dev nD) : (V1 m ρ c main_v0 : S30000x1.Idx → Elt F .i32)
    = shapeCast S30000x1 (m ((c : Thread nD τ).loc main_arg1) : S30000.Idx → Elt F .i32) shapeCasts_S30000_S30000x1 := by
  show StableHlo.after hostOps0 (W0 m ρ c) (Proc.devRef .tc main_v0) = _
  after_results
  first | done | rfl
theorem V1_v1 (c : Dev nD) : (V1 m ρ c main_v1 : S9x64.Idx → Elt F .f32)
    = transpose S9x64 [1, 0] (m ((c : Thread nD τ).loc main_arg3) : S64x9.Idx → Elt F .f32) transposes_S64x9_S9x64_1_0 := by
  show StableHlo.after hostOps0 (W0 m ρ c) (Proc.devRef .tc main_v1) = _
  after_results
  first | done | rfl
theorem V1_v2 (c : Dev nD) : (V1 m ρ c main_v2 : S1x64.Idx → Elt F .f32)
    = shapeCast S1x64 (m ((c : Thread nD τ).loc main_arg4) : S64.Idx → Elt F .f32) shapeCasts_S64_S1x64 := by
  show StableHlo.after hostOps0 (W0 m ρ c) (Proc.devRef .tc main_v2) = _
  after_results
  first | done | rfl
theorem V1_v3 (c : Dev nD) : (V1 m ρ c main_v3 : S1x64.Idx → Elt F .f32)
    = shapeCast S1x64 (m ((c : Thread nD τ).loc main_arg5) : S64.Idx → Elt F .f32) shapeCasts_S64_S1x64 := by
  show StableHlo.after hostOps0 (W0 m ρ c) (Proc.devRef .tc main_v3) = _
  after_results
  first | done | rfl

/-! ## After the first region -/

/-- An input window's array leaves the first region as it entered. -/
theorem V2_in (c : Dev nD) (w : Fin cfg0.W) (hw : (cfg0.win w).isOut = false) : V2 m ρ c (Pipeline.arrRef spec0 w) = V1 m ρ c (Pipeline.arrRef spec0 w) :=
  (W2_arr m ρ c w).trans (((dat0 (V1 m ρ) c).arrAt_in w hw _).trans (A_eq0 (V1 m ρ) c w))
theorem V2_v4_0 (c : Dev nD) : V2 m ρ c main_v4_0 = (dat0 (V1 m ρ) c).arrAt 4 cfg0.N := W2_arr m ρ c 4
theorem V2_v4_1 (c : Dev nD) : V2 m ρ c main_v4_1 = (dat0 (V1 m ρ) c).arrAt 5 cfg0.N := W2_arr m ρ c 5

/-! ## Before the second region -/

theorem V3_of_V2 (c : Dev nD) (b : Ref sig .tc) (h : StableHlo.after hostOps1 (W2 m ρ c) (Proc.devRef .tc b) = W2 m ρ c (Proc.devRef .tc b)) :
    V3 m ρ c b = V2 m ρ c b := h

theorem V3_arg0 (c : Dev nD) : V3 m ρ c main_arg0 = m ((c : Thread nD τ).loc main_arg0) :=
  (show StableHlo.after hostOps1 (W2 m ρ c) (Proc.devRef .tc main_arg0) = W2 m ρ c (Proc.devRef .tc main_arg0) from
    StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((V2_in m ρ c 0 rfl).trans (V1_arg0 m ρ c))
theorem V3_arg2 (c : Dev nD) : V3 m ρ c main_arg2 = m ((c : Thread nD τ).loc main_arg2) :=
  (show StableHlo.after hostOps1 (W2 m ρ c) (Proc.devRef .tc main_arg2) = W2 m ρ c (Proc.devRef .tc main_arg2) from
    StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((V2_in m ρ c 2 rfl).trans (V1_arg2 m ρ c))
theorem V3_v0 (c : Dev nD) : V3 m ρ c main_v0 = V1 m ρ c main_v0 :=
  (show StableHlo.after hostOps1 (W2 m ρ c) (Proc.devRef .tc main_v0) = W2 m ρ c (Proc.devRef .tc main_v0) from
    StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (V2_in m ρ c 1 rfl)
theorem V3_v1 (c : Dev nD) : V3 m ρ c main_v1 = V1 m ρ c main_v1 :=
  (show StableHlo.after hostOps1 (W2 m ρ c) (Proc.devRef .tc main_v1) = W2 m ρ c (Proc.devRef .tc main_v1) from
    StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (V2_in m ρ c 3 rfl)
theorem V3_v2 (c : Dev nD) : V3 m ρ c main_v2 = V1 m ρ c main_v2 :=
  (show StableHlo.after hostOps1 (W2 m ρ c) (Proc.devRef .tc main_v2) = W2 m ρ c (Proc.devRef .tc main_v2) from
    StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_of_ne m ρ c main_v2 (by decide))
theorem V3_v3 (c : Dev nD) : V3 m ρ c main_v3 = V1 m ρ c main_v3 :=
  (show StableHlo.after hostOps1 (W2 m ρ c) (Proc.devRef .tc main_v3) = W2 m ρ c (Proc.devRef .tc main_v3) from
    StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_of_ne m ρ c main_v3 (by decide))

/-- The mean as a vector, and the mean and variance rows the second region reads. -/
abbrev meanVec (c : Dev nD) : S64.Idx → Elt F .f32 :=
  Host.divf (shapeCast S64 (V2 m ρ c main_v4_0 : S1x64.Idx → Elt F .f32) shapeCasts_S1x64_S64) (broadcastInDim S64 ![] bcast_S_S64 (constant (F := F) S_ .f32 0x4A371B00#32))
theorem V3_v13 (c : Dev nD) : (V3 m ρ c main_v13 : S1x64.Idx → Elt F .f32) = shapeCast S1x64 (meanVec m ρ c) shapeCasts_S64_S1x64 := by
  show StableHlo.after hostOps1 (W2 m ρ c) (Proc.devRef .tc main_v13) = _
  after_results
  first | done | rfl
theorem V3_v14 (c : Dev nD) : (V3 m ρ c main_v14 : S1x64.Idx → Elt F .f32)
    = shapeCast S1x64 (subf (Host.divf (shapeCast S64 (V2 m ρ c main_v4_1 : S1x64.Idx → Elt F .f32) shapeCasts_S1x64_S64) (broadcastInDim S64 ![] bcast_S_S64 (constant (F := F) S_ .f32 0x4A371B00#32))) (mulf (meanVec m ρ c) (meanVec m ρ c))) shapeCasts_S64_S1x64 := by
  show StableHlo.after hostOps1 (W2 m ρ c) (Proc.devRef .tc main_v14) = _
  after_results
  first | done | rfl

/-- The result array is what the second region's write-backs leave. -/
theorem W4_v15 (c : Dev nD) : W4 m ρ c (Proc.devRef .tc main_v15) = (dat1 (V3 m ρ) c).arrAt 8 cfg1.N := W4_arr m ρ c 8

end Cert.KernelIdeal.Hand

end
-- ==== Proof.LibColumn.lean ====
/-
  A vector kept as a column, read one entry at a time.

  Summing an a×b array along its rows and keeping the axis gives an a×1 column; the column is then spread back over
  the b columns to scale each row.  Two index facts carry this:  a length-a vector recast as an a×1 column holds, at
  (i, 0), the vector's entry i;  and an a×1 column spread to a×b holds, at (p, c), the column's entry (p, 0), whatever
  the column c.  Both are stated for every a and b and for entries of any type.
-/
import Idealize.ShloMosaic.Lib.ValueIdx
import Idealize.ShloMosaic.Lib.Pipeline.Value

namespace Cert.Column

open Idealize.ShloMosaic Idealize.ShloMosaic.ValueIdx

variable {α : Type}

/-- A length-a vector recast as an a×1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column spread over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column
-- ==== Proof.Pay0Lay.lean ====
/-
  Layout operations of the first kernel's arithmetic, read at an index given by coordinates: a column of the
  nine-channel array spread over the output channels, a row of the weights spread over pillars and points, the
  mask's unit axis, the merge of the pillar and point axes, and the sum over 8000 rows as a double sum.
-/
import proofs.«150693_j22273700397341_2_alg».proof.Proof.Gen.KernelIdeal.Skeleton
import Idealize.ShloMosaic.Lib.ValueLayout
import Idealize.ShloMosaic.PureOps.Ideal.Laws

noncomputable section

open scoped BigOperators

namespace Cert.KernelIdeal.Pay0

open Cert.KernelIdeal Cert.KernelIdeal.Gen
open Idealize.ShloMosaic Idealize.ShloMosaic.ValueIdx

variable {α : Type}

/-- Column `k` of a `[80,100,9]` array spread over the 64 output channels reads the array at `(b, n, k)`. -/
theorem col_apply (k : Nat) (f : S80x100x9.Idx → α) (h1 : S80x100x9.Slices ![0, 0, k] S80x100x1)
    (h2 : S80x100x1.Broadcasts S80x100x64) (b : Fin 80) (n : Fin 100) (o : Fin 64) (kk : Fin 9) (hk : kk.val = k) :
    broadcastTo S80x100x64 (extractStridedSlice S80x100x1 ![0, 0, k] f h1) h2 (ix3 b n o) = f (ix3 b n kk) := by
  refine (broadcastTo_apply _ h2 (ix3 b n o) (ix3 b n (0 : Fin 1)) fun a => ?_).trans ?_
  · match a with
    | ⟨0, _⟩ => rfl
    | ⟨1, _⟩ => rfl
    | ⟨2, _⟩ => rfl
  · exact extractStridedSlice_apply _ f h1 _ _ fun a => by
      match a with
      | ⟨0, _⟩ => exact (Nat.zero_add _).symm
      | ⟨1, _⟩ => exact (Nat.zero_add _).symm
      | ⟨2, _⟩ => show kk.val = k + 0; omega

/-- Row `k` of the `[9,64]` weights, as a `[1,1,64]` array. -/
theorem wrow_apply (k : Nat) (w : S9x64.Idx → α) (h1 : S9x64.Slices ![k, 0] S1x64) (h2 : S1x64.ShapeCasts S64)
    (h3 : S64.ShapeCasts S1x1x64) (u v : Fin 1) (o : Fin 64) (kk : Fin 9) (hk : kk.val = k) :
    shapeCast S1x1x64 (shapeCast S64 (extractStridedSlice S1x64 ![k, 0] w h1) h2) h3 (ix3 u v o) = w (ix2 kk o) := by
  refine (shapeCast_apply _ h3 (ix3 u v o) (ix1 o) ?_).trans ?_
  · have hu : u.val = 0 := by omega
    have hv : v.val = 0 := by omega
    rw [Shape.rowMajor_val_one, Shape.rowMajor_val_three]
    show o.val = (u.val * 1 + v.val) * 64 + o.val
    rw [hu, hv]; omega
  refine (shapeCast_1a_a_apply _ h2 o).trans ?_
  exact extractStridedSlice_apply _ w h1 _ _ fun a => by
    match a with
    | ⟨0, _⟩ => show kk.val = k + 0; omega
    | ⟨1, _⟩ => exact (Nat.zero_add _).symm

/-- A `[1,1,64]` row spread over pillars and points reads the row at the channel. -/
theorem spread_apply (r : S1x1x64.Idx → α) (h : S1x1x64.Broadcasts S80x100x64) (b : Fin 80) (n : Fin 100) (o : Fin 64) :
    broadcastTo S80x100x64 r h (ix3 b n o) = r (ix3 (0 : Fin 1) (0 : Fin 1) o) :=
  broadcastTo_apply r h _ _ fun a => by
    match a with
    | ⟨0, _⟩ => rfl
    | ⟨1, _⟩ => rfl
    | ⟨2, _⟩ => rfl

/-- The per-point mask `[80,100]` given a trailing unit axis and spread over the nine channels. -/
theorem mask_spread_apply (m : S80x100.Idx → α) (h1 : S80x100.ShapeCasts S80x100x1) (h2 : S80x100x1.Broadcasts S80x100x9)
    (b : Fin 80) (n : Fin 100) (i : Fin 9) :
    broadcastTo S80x100x9 (shapeCast S80x100x1 m h1) h2 (ix3 b n i) = m (ix2 b n) := by
  refine (broadcastTo_apply _ h2 (ix3 b n i) (ix3 b n (0 : Fin 1)) fun a => ?_).trans ?_
  · match a with
    | ⟨0, _⟩ => rfl
    | ⟨1, _⟩ => rfl
    | ⟨2, _⟩ => rfl
  · refine shapeCast_apply m h1 _ _ ?_
    rw [Shape.rowMajor_val_two, Shape.rowMajor_val_three]
    show b.val * 100 + n.val = (b.val * 100 + n.val) * 1 + 0
    omega

/-- The `[80,100,64]` array with its pillar and point axes merged reads, at row `100 b + n`, the array at `(b, n)`. -/
theorem merge_apply (x : S80x100x64.Idx → α) (h : S80x100x64.ShapeCasts S8000x64) (b : Fin 80) (n : Fin 100) (o : Fin 64)
    (r : Fin 8000) (hr : r.val = 100 * b.val + n.val) :
    shapeCast S8000x64 x h (ix2 r o) = x (ix3 b n o) := by
  refine shapeCast_apply x h _ _ ?_
  rw [Shape.rowMajor_val_two, Shape.rowMajor_val_three]
  show (b.val * 100 + n.val) * 64 + o.val = r.val * 64 + o.val
  rw [hr]; omega

/-- A sum over 8000 rows is the double sum over 80 pillars and 100 points, row `100 b + n`. -/
theorem sum_rows {M : Type*} [AddCommMonoid M] (f : Fin 8000 → M) :
    ∑ r : Fin 8000, f r = ∑ b : Fin 80, ∑ n : Fin 100, f ⟨100 * b.val + n.val, by omega⟩ := by
  rw [← Fintype.sum_prod_type' (f := fun (b : Fin 80) (n : Fin 100) => f ⟨100 * b.val + n.val, by omega⟩)]
  refine (Fintype.sum_equiv (finProdFinEquiv (m := 80) (n := 100)) _ f fun p => ?_).symm
  refine congrArg f (Fin.ext ?_)
  show 100 * p.1.val + p.2.val = p.2.val + 100 * p.1.val
  omega

end Cert.KernelIdeal.Pay0

end
-- ==== Proof.Pay0Lin.lean ====
/-
  The first kernel's linear map read at an index, over ANY nine-channel array `A`, mask `M` and weights `w`:
  the masked channels, the six-term partial sum, the last three terms with the merge of the pillar and point axes,
  and the whole as the sum over the nine channels.
-/
import proofs.«150693_j22273700397341_2_alg».proof.Proof.Pay0Lay

noncomputable section

open scoped BigOperators

namespace Cert.KernelIdeal.Pay0

open Cert.KernelIdeal Cert.KernelIdeal.Gen
open Idealize.ShloMosaic Idealize.ShloMosaic.ValueIdx

/-- The weights pass through a cast to their own shape. -/
theorem pay10_eq (w : Vec Ideal S9x64 .f32) : k0_pay10 (F := Ideal) w = w := by
  unfold k0_pay10
  exact shapeCast_self _ _

/-- Row 6 of the weights as a `[1,1,64]` array. -/
theorem pay12_apply (w : Vec Ideal S9x64 .f32) (u v : Fin 1) (o : Fin 64) :
    k0_pay12 (F := Ideal) w (ix3 u v o) = w (ix2 (6 : Fin 9) o) := by
  unfold k0_pay12
  exact (wrow_apply 6 (k0_pay10 (F := Ideal) w) _ _ _ u v o 6 rfl).trans (congrFun (pay10_eq w) _)

/-- The masked channels: channel times the point's mask. -/
theorem pay9_apply (A : FVec Ideal S80x100x9 .f32) (M : FVec Ideal S80x100 .f32) (b : Fin 80) (n : Fin 100) (i : Fin 9) :
    k0_pay9 A M (ix3 b n i) = A (ix3 b n i) * M (ix2 b n) := by
  unfold k0_pay9
  exact congrArg (A (ix3 b n i) * ·) (mask_spread_apply M _ _ b n i)

/-- One term of the linear map: column `k` of the channels times row `k` of the weights. -/
theorem term_apply (k : Nat) (f : FVec Ideal S80x100x9 .f32) (w : FVec Ideal S9x64 .f32)
    (h1 : S80x100x9.Slices ![0, 0, k] S80x100x1) (h2 : S80x100x1.Broadcasts S80x100x64)
    (h3 : S9x64.Slices ![k, 0] S1x64) (h4 : S1x64.ShapeCasts S64) (h5 : S64.ShapeCasts S1x1x64)
    (h6 : S1x1x64.Broadcasts S80x100x64) (b : Fin 80) (n : Fin 100) (o : Fin 64) (kk : Fin 9) (hk : kk.val = k) :
    mulf (broadcastTo S80x100x64 (extractStridedSlice S80x100x1 ![0, 0, k] f h1) h2)
      (broadcastTo S80x100x64 (shapeCast S1x1x64 (shapeCast S64 (extractStridedSlice S1x64 ![k, 0] w h3) h4) h5) h6) (ix3 b n o)
      = f (ix3 b n kk) * w (ix2 kk o) :=
  congrArg₂ (· * ·) (col_apply k f h1 h2 b n o kk hk)
    ((spread_apply _ h6 b n o).trans (wrow_apply k w h3 h4 h5 0 0 o kk hk))

/-- The first six terms, accumulated onto zero. -/
theorem pay11_apply (A : FVec Ideal S80x100x9 .f32) (M : FVec Ideal S80x100 .f32) (w : Vec Ideal S9x64 .f32)
    (b : Fin 80) (n : Fin 100) (o : Fin 64) :
    k0_pay11 A M w (ix3 b n o)
      = 0 + k0_pay9 A M (ix3 b n 0) * w (ix2 (0 : Fin 9) o) + k0_pay9 A M (ix3 b n 1) * w (ix2 (1 : Fin 9) o)
        + k0_pay9 A M (ix3 b n 2) * w (ix2 (2 : Fin 9) o) + k0_pay9 A M (ix3 b n 3) * w (ix2 (3 : Fin 9) o)
        + k0_pay9 A M (ix3 b n 4) * w (ix2 (4 : Fin 9) o) + k0_pay9 A M (ix3 b n 5) * w (ix2 (5 : Fin 9) o) := by
  have hw : k0_pay10 (F := Ideal) w = w := pay10_eq w
  unfold k0_pay11
  rw [hw]
  exact congrArg₂ (· + ·) (congrArg₂ (· + ·) (congrArg₂ (· + ·) (congrArg₂ (· + ·) (congrArg₂ (· + ·) (congrArg₂ (· + ·)
    Ideal.ofBits_zero_f32
    (term_apply 0 _ w _ _ _ _ _ _ b n o 0 rfl)) (term_apply 1 _ w _ _ _ _ _ _ b n o 1 rfl)) (term_apply 2 _ w _ _ _ _ _ _ b n o 2 rfl))
    (term_apply 3 _ w _ _ _ _ _ _ b n o 3 rfl)) (term_apply 4 _ w _ _ _ _ _ _ b n o 4 rfl)) (term_apply 5 _ w _ _ _ _ _ _ b n o 5 rfl)

/-- The last three terms added, and the pillar and point axes merged: row `100 b + n`. -/
theorem pay1_apply (f : FVec Ideal S80x100x9 .f32) (w : FVec Ideal S9x64 .f32) (acc : FVec Ideal S80x100x64 .f32)
    (w6 : FVec Ideal S1x1x64 .f32) (b : Fin 80) (n : Fin 100) (o : Fin 64) (r : Fin 8000) (hr : r.val = 100 * b.val + n.val) :
    k0_pay1 f w acc w6 (ix2 r o)
      = acc (ix3 b n o) + f (ix3 b n 6) * w6 (ix3 (0 : Fin 1) (0 : Fin 1) o) + f (ix3 b n 7) * w (ix2 (7 : Fin 9) o)
        + f (ix3 b n 8) * w (ix2 (8 : Fin 9) o) := by
  unfold k0_pay1
  refine (merge_apply _ _ b n o r hr).trans ?_
  exact congrArg₂ (· + ·) (congrArg₂ (· + ·) (congrArg₂ (· + ·) rfl
    (congrArg₂ (· * ·) (col_apply 6 f _ _ b n o 6 rfl) (spread_apply w6 _ b n o)))
    (term_apply 7 f w _ _ _ _ _ _ b n o 7 rfl)) (term_apply 8 f w _ _ _ _ _ _ b n o 8 rfl)

/-- Nine terms accumulated left to right onto zero are the sum over the nine channels. -/
theorem sum9 (g : Fin 9 → EReal) :
    0 + g 0 + g 1 + g 2 + g 3 + g 4 + g 5 + g 6 + g 7 + g 8 = ∑ i : Fin 9, g i := by
  rw [zero_add, Fin.sum_univ_castSucc, Fin.sum_univ_eight]
  rfl

/-- THE LINEAR MAP at row `100 b + n` and channel `o`: the sum over the nine channels of the masked channel times
    the weight. -/
theorem lin_apply (A : FVec Ideal S80x100x9 .f32) (M : FVec Ideal S80x100 .f32) (w : Vec Ideal S9x64 .f32)
    (b : Fin 80) (n : Fin 100) (o : Fin 64) (r : Fin 8000) (hr : r.val = 100 * b.val + n.val) :
    k0_pay1 (k0_pay9 A M) (k0_pay10 w) (k0_pay11 A M w) (k0_pay12 w) (ix2 r o)
      = ∑ i : Fin 9, (A (ix3 b n i) * M (ix2 b n)) * w (ix2 i o) := by
  rw [pay1_apply _ _ _ _ b n o r hr, pay11_apply, pay12_apply, pay10_eq]
  refine (sum9 fun i => k0_pay9 A M (ix3 b n i) * w (ix2 i o)).trans ?_
  exact Finset.sum_congr rfl fun i _ => by rw [pay9_apply]

end Cert.KernelIdeal.Pay0

end
-- ==== Proof.Pay0Feat.lean ====
/-
  The first kernel's nine channels and its padding mask, read at an index: the raw channels, the offsets from the
  pillar's mean (a sum over the points axis divided by the valid count), the offsets from the pillar's centre, and
  the mask (row number below the valid count, as 0/1) — each equal to the specification's per-pillar quantity.
-/
import proofs.«150693_j22273700397341_2_alg».proof.Proof.Gen.KernelIdeal.Skeleton
import proofs.«150693_j22273700397341_2_alg».proof.Proof.Spec
import Idealize.ShloMosaic.Lib.ValueLayout
import Idealize.ShloMosaic.PureOps.Ideal.Laws

noncomputable section

open scoped BigOperators

namespace Cert.KernelIdeal.Pay0

open Cert.KernelIdeal Cert.KernelIdeal.Gen
open Idealize.ShloMosaic Idealize.ShloMosaic.ValueIdx

variable {α : Type}

/-! ## Layout operations of the channel construction -/

/-- The concatenation of 4, 3 and 2 channels read in its first piece. -/
theorem cat9_left (A : S80x100x4.Idx → α) (B : S80x100x3.Idx → α) (C : S80x100x2.Idx → α)
    (h : Shape.Concatenates [S80x100x4, S80x100x3, S80x100x2] S80x100x9 2) (b : Fin 80) (n : Fin 100) (i : Fin 4) (ii : Fin 9)
    (hi : ii.val = i.val) :
    concatenate S80x100x9 2 [⟨S80x100x4, A⟩, ⟨S80x100x3, B⟩, ⟨S80x100x2, C⟩] h (ix3 b n ii) = A (ix3 b n i) :=
  concatenate_apply_piece (t := S80x100x9) 2 [⟨S80x100x4, A⟩, ⟨S80x100x3, B⟩, ⟨S80x100x2, C⟩] h (ix3 b n ii) 0 (by show (0 : Nat) < 3; omega) S80x100x4 A rfl rfl 0 rfl (ix3 b n i)
    (fun c hc => by
      match c with
      | ⟨0, _⟩ => rfl
      | ⟨1, _⟩ => rfl
      | ⟨2, _⟩ => exact absurd (Fin.ext rfl) hc)
    (by show 0 + i.val = ii.val; omega)

/-- … in its second piece … -/
theorem cat9_mid (A : S80x100x4.Idx → α) (B : S80x100x3.Idx → α) (C : S80x100x2.Idx → α)
    (h : Shape.Concatenates [S80x100x4, S80x100x3, S80x100x2] S80x100x9 2) (b : Fin 80) (n : Fin 100) (i : Fin 3) (ii : Fin 9)
    (hi : ii.val = 4 + i.val) :
    concatenate S80x100x9 2 [⟨S80x100x4, A⟩, ⟨S80x100x3, B⟩, ⟨S80x100x2, C⟩] h (ix3 b n ii) = B (ix3 b n i) :=
  concatenate_apply_piece (t := S80x100x9) 2 [⟨S80x100x4, A⟩, ⟨S80x100x3, B⟩, ⟨S80x100x2, C⟩] h (ix3 b n ii) 1 (by show (1 : Nat) < 3; omega) S80x100x3 B rfl rfl 4 rfl (ix3 b n i)
    (fun c hc => by
      match c with
      | ⟨0, _⟩ => rfl
      | ⟨1, _⟩ => rfl
      | ⟨2, _⟩ => exact absurd (Fin.ext rfl) hc)
    (by show 4 + i.val = ii.val; omega)

/-- … and in its third. -/
theorem cat9_right (A : S80x100x4.Idx → α) (B : S80x100x3.Idx → α) (C : S80x100x2.Idx → α)
    (h : Shape.Concatenates [S80x100x4, S80x100x3, S80x100x2] S80x100x9 2) (b : Fin 80) (n : Fin 100) (i : Fin 2) (ii : Fin 9)
    (hi : ii.val = 7 + i.val) :
    concatenate S80x100x9 2 [⟨S80x100x4, A⟩, ⟨S80x100x3, B⟩, ⟨S80x100x2, C⟩] h (ix3 b n ii) = C (ix3 b n i) :=
  concatenate_apply_piece (t := S80x100x9) 2 [⟨S80x100x4, A⟩, ⟨S80x100x3, B⟩, ⟨S80x100x2, C⟩] h (ix3 b n ii) 2 (by show (2 : Nat) < 3; omega) S80x100x2 C rfl rfl 7 rfl (ix3 b n i)
    (fun c hc => by
      match c with
      | ⟨0, _⟩ => rfl
      | ⟨1, _⟩ => rfl
      | ⟨2, _⟩ => exact absurd (Fin.ext rfl) hc)
    (by show 7 + i.val = ii.val; omega)

/-- Two single channels side by side: the first … -/
theorem cat2_left (P Q : S80x100x1.Idx → α) (h : Shape.Concatenates [S80x100x1, S80x100x1] S80x100x2 2)
    (b : Fin 80) (n : Fin 100) :
    concatenate S80x100x2 2 [⟨S80x100x1, P⟩, ⟨S80x100x1, Q⟩] h (ix3 b n (0 : Fin 2)) = P (ix3 b n (0 : Fin 1)) :=
  concatenate_apply_piece (t := S80x100x2) 2 [⟨S80x100x1, P⟩, ⟨S80x100x1, Q⟩] h (ix3 b n (0 : Fin 2)) 0 (by show (0 : Nat) < 2; omega) S80x100x1 P rfl rfl 0 rfl (ix3 b n (0 : Fin 1))
    (fun c hc => by
      match c with
      | ⟨0, _⟩ => rfl
      | ⟨1, _⟩ => rfl
      | ⟨2, _⟩ => exact absurd (Fin.ext rfl) hc)
    rfl

/-- … and the second. -/
theorem cat2_right (P Q : S80x100x1.Idx → α) (h : Shape.Concatenates [S80x100x1, S80x100x1] S80x100x2 2)
    (b : Fin 80) (n : Fin 100) :
    concatenate S80x100x2 2 [⟨S80x100x1, P⟩, ⟨S80x100x1, Q⟩] h (ix3 b n (1 : Fin 2)) = Q (ix3 b n (0 : Fin 1)) :=
  concatenate_apply_piece (t := S80x100x2) 2 [⟨S80x100x1, P⟩, ⟨S80x100x1, Q⟩] h (ix3 b n (1 : Fin 2)) 1 (by show (1 : Nat) < 2; omega) S80x100x1 Q rfl rfl 1 rfl (ix3 b n (0 : Fin 1))
    (fun c hc => by
      match c with
      | ⟨0, _⟩ => rfl
      | ⟨1, _⟩ => rfl
      | ⟨2, _⟩ => exact absurd (Fin.ext rfl) hc)
    rfl

/-- The first three raw channels. -/
theorem xyz_apply (x : S80x100x4.Idx → α) (h : S80x100x4.Slices ![0, 0, 0] S80x100x3) (b : Fin 80) (n : Fin 100) (j : Fin 3)
    (jj : Fin 4) (hj : jj.val = j.val) :
    extractStridedSlice S80x100x3 ![0, 0, 0] x h (ix3 b n j) = x (ix3 b n jj) :=
  extractStridedSlice_apply _ x h _ _ fun a => by
    match a with
    | ⟨0, _⟩ => exact (Nat.zero_add _).symm
    | ⟨1, _⟩ => exact (Nat.zero_add _).symm
    | ⟨2, _⟩ => show jj.val = 0 + j.val; omega

/-- One raw channel `c` as a `[80,100]` array. -/
theorem chan_apply (c : Nat) (x : S80x100x4.Idx → α) (h1 : S80x100x4.Slices ![0, 0, c] S80x100x1)
    (h2 : S80x100x1.ShapeCasts S80x100) (b : Fin 80) (n : Fin 100) (cc : Fin 4) (hc : cc.val = c) :
    shapeCast S80x100 (extractStridedSlice S80x100x1 ![0, 0, c] x h1) h2 (ix2 b n) = x (ix3 b n cc) := by
  refine (shapeCast_apply _ h2 (ix2 b n) (ix3 b n (0 : Fin 1)) ?_).trans ?_
  · rw [Shape.rowMajor_val_two, Shape.rowMajor_val_three]
    show (b.val * 100 + n.val) * 1 + 0 = b.val * 100 + n.val
    omega
  · exact extractStridedSlice_apply _ x h1 _ _ fun a => by
      match a with
      | ⟨0, _⟩ => exact (Nat.zero_add _).symm
      | ⟨1, _⟩ => exact (Nat.zero_add _).symm
      | ⟨2, _⟩ => show cc.val = c + 0; omega

/-- A `[80,100]` array given a trailing unit axis. -/
theorem unit_apply (m : S80x100.Idx → α) (h : S80x100.ShapeCasts S80x100x1) (b : Fin 80) (n : Fin 100) (u : Fin 1) :
    shapeCast S80x100x1 m h (ix3 b n u) = m (ix2 b n) := by
  refine shapeCast_apply m h _ _ ?_
  have hu : u.val = 0 := by omega
  rw [Shape.rowMajor_val_two, Shape.rowMajor_val_three]
  show b.val * 100 + n.val = (b.val * 100 + n.val) * 1 + u.val
  omega

/-- A per-pillar column `[80,1]` spread over `m` columns reads the pillar's entry. -/
theorem colb_apply {m : Nat} (c : S80x1.Idx → α) (h : S80x1.Broadcasts ⟨2, ![80, m]⟩) (b : Fin 80) (j : Fin m) :
    broadcastTo ⟨2, ![80, m]⟩ c h (ix2 b j) = c (ix2 b (0 : Fin 1)) :=
  broadcastTo_apply c h _ _ fun a => by
    match a with
    | ⟨0, _⟩ => rfl
    | ⟨1, _⟩ => rfl

/-- A per-pillar `[80,3]` array, a unit points axis put in and spread over the 100 points. -/
theorem keep_apply (m : S80x3.Idx → α) (h1 : S80x3.ShapeCasts S80x1x3) (h2 : S80x1x3.Broadcasts S80x100x3)
    (b : Fin 80) (n : Fin 100) (j : Fin 3) :
    broadcastTo S80x100x3 (shapeCast S80x1x3 m h1) h2 (ix3 b n j) = m (ix2 b j) := by
  refine (broadcastTo_apply _ h2 (ix3 b n j) (ix3 b (0 : Fin 1) j) fun a => ?_).trans ?_
  · match a with
    | ⟨0, _⟩ => rfl
    | ⟨1, _⟩ => rfl
    | ⟨2, _⟩ => rfl
  · refine shapeCast_apply m h1 _ _ ?_
    rw [Shape.rowMajor_val_two, Shape.rowMajor_val_three]
    show b.val * 3 + j.val = (b.val * 1 + 0) * 3 + j.val
    omega

/-- The sum over the points axis of a `[80,100,3]` array. -/
theorem lanesum_apply (v : FVec Ideal S80x100x3 .f32) (h : S80x100x3.Reduces [1] S80x3) (hφ : FKind.Formats .f32)
    (hacc : (0x00000000#32 : BitVec 32) = FKind.add.neutral .f32 hφ) (b : Fin 80) (j : Fin 3) :
    multiReduction .add [1] S80x3 v 0x00000000#32 h hφ hacc (ix2 b j) = ∑ k : Fin 100, v (ix3 b k j) := by
  refine (Ideal.multiReduction_add_single v _ h hφ hacc (ix2 b j)).trans ?_
  refine Finset.sum_congr rfl fun k _ => congrArg v (funext fun a => Fin.ext ?_)
  match a with
  | ⟨0, _⟩ => rfl
  | ⟨1, _⟩ => rfl
  | ⟨2, _⟩ => rfl

/-! ## The nine channels -/

/-- The valid counts pass through a cast to their own shape. -/
theorem pay6_eq (x2 : Vec Ideal S80x1 .i32) : k0_pay6 (F := Ideal) x2 = x2 := by
  unfold k0_pay6
  exact shapeCast_self _ _

variable (x1 : Vec Ideal S80x100x4 .f32) (x2 : Vec Ideal S80x1 .i32) (x3 : Vec Ideal S80x4 .i32)

/-- Channels 0–3: the raw channels. -/
theorem pay7_raw (b : Fin 80) (n : Fin 100) (i : Fin 4) (ii : Fin 9) (hi : ii.val = i.val) :
    k0_pay7 x1 x2 x3 (ix3 b n ii) = x1 (ix3 b n i) := by
  unfold k0_pay7
  exact cat9_left _ _ _ _ b n i ii hi

/-- Channels 4–6: the offset from the mean of the channel over the pillar's rows, the sum divided by the valid count. -/
theorem pay7_clus (b : Fin 80) (n : Fin 100) (j : Fin 3) (jj : Fin 4) (ii : Fin 9) (hj : jj.val = j.val) (hi : ii.val = 4 + j.val) :
    k0_pay7 x1 x2 x3 (ix3 b n ii)
      = x1 (ix3 b n jj) - Ideal.div (∑ k : Fin 100, x1 (ix3 b k jj)) ((((x2 (ix2 b (0 : Fin 1))).toInt : ℝ) : EReal)) := by
  have h6 : k0_pay6 (F := Ideal) x2 = x2 := pay6_eq x2
  unfold k0_pay7
  rw [h6]
  refine (cat9_mid _ _ _ _ b n j ii hi).trans ?_
  refine congrArg₂ (· - ·) (xyz_apply x1 _ b n j jj hj) ?_
  refine (keep_apply _ _ _ b n j).trans ?_
  refine congrArg₂ Ideal.div ?_ ?_
  · refine (lanesum_apply _ _ _ _ b j).trans ?_
    exact Finset.sum_congr rfl fun k _ => xyz_apply x1 _ b k j jj hj
  · exact colb_apply _ _ b j

/-- Channel 7: the x offset from the pillar's centre. -/
theorem pay7_xoff (b : Fin 80) (n : Fin 100) :
    k0_pay7 x1 x2 x3 (ix3 b n (7 : Fin 9))
      = x1 (ix3 b n (0 : Fin 4)) - ((((x3 (ix2 b (3 : Fin 4))).toInt : ℝ) : EReal) * Ideal.ofBits .f32 0x3E23D70A#32
          + Ideal.ofBits .f32 0x3DA3D70A#32) := by
  unfold k0_pay7
  refine (cat9_right _ _ _ _ b n (0 : Fin 2) 7 rfl).trans ?_
  refine (cat2_left _ _ _ b n).trans ?_
  refine (unit_apply _ _ b n 0).trans ?_
  refine congrArg₂ (· - ·) (chan_apply 0 x1 _ _ b n 0 rfl) ?_
  refine (colb_apply _ _ b n).trans ?_
  exact congrArg (fun w : BitVec 32 => ((w.toInt : ℝ) : EReal) * Ideal.ofBits .f32 0x3E23D70A#32 + Ideal.ofBits .f32 0x3DA3D70A#32)
    (slice2_axis1_apply 3 x3 _ b (0 : Fin 1) (3 : Fin 4) rfl)

/-- Channel 8: the y offset from the pillar's centre. -/
theorem pay7_yoff (b : Fin 80) (n : Fin 100) :
    k0_pay7 x1 x2 x3 (ix3 b n (8 : Fin 9))
      = x1 (ix3 b n (1 : Fin 4)) - ((((x3 (ix2 b (2 : Fin 4))).toInt : ℝ) : EReal) * Ideal.ofBits .f32 0x3E23D70A#32
          + Ideal.ofBits .f32 0xC21E6666#32) := by
  unfold k0_pay7
  refine (cat9_right _ _ _ _ b n (1 : Fin 2) 8 rfl).trans ?_
  refine (cat2_right _ _ _ b n).trans ?_
  refine (unit_apply _ _ b n 0).trans ?_
  refine congrArg₂ (· - ·) (chan_apply 1 x1 _ _ b n 1 rfl) ?_
  refine (colb_apply _ _ b n).trans ?_
  exact congrArg (fun w : BitVec 32 => ((w.toInt : ℝ) : EReal) * Ideal.ofBits .f32 0x3E23D70A#32 + Ideal.ofBits .f32 0xC21E6666#32)
    (slice2_axis1_apply 2 x3 _ b (0 : Fin 1) (2 : Fin 4) rfl)

/-- THE NINE CHANNELS are the specification's, pillar by pillar. -/
theorem pay7_apply (b : Fin 80) (n : Fin 100) (i : Fin 9) :
    k0_pay7 x1 x2 x3 (ix3 b n i)
      = Cert.Spec.baseP (fun n k => x1 (ix3 b n k)) (x2 (ix2 b (0 : Fin 1))) (fun k => x3 (ix2 b k)) n i := by
  match i with
  | ⟨0, _⟩ => exact pay7_raw x1 x2 x3 b n 0 _ rfl
  | ⟨1, _⟩ => exact pay7_raw x1 x2 x3 b n 1 _ rfl
  | ⟨2, _⟩ => exact pay7_raw x1 x2 x3 b n 2 _ rfl
  | ⟨3, _⟩ => exact pay7_raw x1 x2 x3 b n 3 _ rfl
  | ⟨4, _⟩ => exact pay7_clus x1 x2 x3 b n 0 0 _ rfl rfl
  | ⟨5, _⟩ => exact pay7_clus x1 x2 x3 b n 1 1 _ rfl rfl
  | ⟨6, _⟩ => exact pay7_clus x1 x2 x3 b n 2 2 _ rfl rfl
  | ⟨7, _⟩ => exact pay7_xoff x1 x2 x3 b n
  | ⟨8, _⟩ => exact pay7_yoff x1 x2 x3 b n

/-! ## The mask -/

/-- A one-bit word widened to 32 bits and read signed is the bit. -/
theorem bit_toInt (c : BitVec 1) : (c.setWidth 32).toInt = (c.toNat : Int) := by
  rcases BitVec.eq_zero_or_eq_one c with h | h <;> subst h <;> decide

/-- THE MASK is the specification's: 1 when the row number is below the valid count, else 0. -/
theorem pay8_apply (b : Fin 80) (n : Fin 100) :
    k0_pay8 (F := Ideal) x2 (ix2 b n) = Cert.Spec.maskP (x2 (ix2 b (0 : Fin 1))) n := by
  have h6 : k0_pay6 (F := Ideal) x2 = x2 := pay6_eq x2
  unfold k0_pay8 Cert.Spec.maskP
  rw [h6]
  show ((((IntOp.cmpi .slt (iota .tc S80x100 32 [1] iota_S80x100_d1_w32 (ix2 b n))
      (broadcastTo S80x100 x2 broadcasts_S80x1_S80x100 (ix2 b n))).setWidth 32).toInt : ℝ) : EReal) = _
  rw [iota_single_apply, colb_apply x2 _ b n, bit_toInt, Int.cast_natCast]

end Cert.KernelIdeal.Pay0

end
-- ==== Proof.Pay0.lean ====
/-
  The first kernel's two accumulating stores, read at a channel: what each adds to the scratch row is the sum over the
  block's 80 pillars and 100 points of the specification's linear map (respectively of its square); and the two
  initial stores write zero.
-/
import proofs.«150693_j22273700397341_2_alg».proof.Proof.Pay0Lin
import proofs.«150693_j22273700397341_2_alg».proof.Proof.Pay0Feat

noncomputable section

open scoped BigOperators

namespace Cert.KernelIdeal.Pay0

open Cert.KernelIdeal Cert.KernelIdeal.Gen
open Idealize.ShloMosaic Idealize.ShloMosaic.ValueIdx

/-- The sum over the 8000 rows of a `[8000,64]` array, as the double sum over pillars and points. -/
theorem rowsum_apply (v : FVec Ideal S8000x64 .f32) (h : S8000x64.Reduces [0] S64) (hφ : FKind.Formats .f32)
    (hacc : (0x00000000#32 : BitVec 32) = FKind.add.neutral .f32 hφ) (o : Fin 64) :
    multiReduction .add [0] S64 v 0x00000000#32 h hφ hacc (ix1 o)
      = ∑ b : Fin 80, ∑ n : Fin 100, v (ix2 (⟨100 * b.val + n.val, by omega⟩ : Fin 8000) o) := by
  refine (Ideal.multiReduction_add_single v _ h hφ hacc (ix1 o)).trans ?_
  refine (Finset.sum_congr rfl fun k _ => congrArg v (?_ : _ = ix2 k o)).trans (sum_rows fun r : Fin 8000 => v (ix2 r o))
  funext a
  refine Fin.ext ?_
  match a with
  | ⟨0, _⟩ => rfl
  | ⟨1, _⟩ => rfl

variable (x1 : Vec Ideal S80x100x4 .f32) (x2 : Vec Ideal S80x1 .i32) (x3 : Vec Ideal S80x4 .i32) (x4 : Vec Ideal S9x64 .f32)
  (xs : Vec Ideal S1x64 .f32) (o : Fin 64)

/-- The specification's linear map at channel `o` of point `n` of the block's pillar `b`. -/
abbrev LIN (b : Fin 80) (n : Fin 100) : EReal :=
  Cert.Spec.linP (fun n k => x1 (ix3 b n k)) (x2 (ix2 b (0 : Fin 1))) (fun k => x3 (ix2 b k)) (fun o i => x4 (ix2 i o)) n o

/-- Row `100 b + n` of the merged array is the linear map of point `n` of pillar `b`. -/
theorem row_apply (b : Fin 80) (n : Fin 100) (r : Fin 8000) (hr : r.val = 100 * b.val + n.val) :
    k0_pay1 (k0_pay9 (k0_pay7 x1 x2 x3) (k0_pay8 x2)) (k0_pay10 x4) (k0_pay11 (k0_pay7 x1 x2 x3) (k0_pay8 x2) x4) (k0_pay12 x4)
      (ix2 r o) = LIN x1 x2 x3 x4 o b n := by
  rw [lin_apply _ _ _ b n o r hr]
  unfold LIN Cert.Spec.linP Cert.Spec.featP
  exact Finset.sum_congr rfl fun i _ => by rw [pay7_apply, pay8_apply]

/-- THE SUM STORE: the scratch row plus the block's sum of the linear map. -/
theorem k0_sum_apply :
    k0_pay2 (k0_pay9 (k0_pay7 x1 x2 x3) (k0_pay8 x2)) (k0_pay10 x4) (k0_pay11 (k0_pay7 x1 x2 x3) (k0_pay8 x2) x4) (k0_pay12 x4) xs
      (ix2 (0 : Fin 1) o) = xs (ix2 (0 : Fin 1) o) + ∑ b : Fin 80, ∑ n : Fin 100, LIN x1 x2 x3 x4 o b n := by
  unfold k0_pay2
  refine (congrFun (shapeCast_self _ _) _).trans ?_
  refine congrArg (xs (ix2 (0 : Fin 1) o) + ·) ?_
  refine (shapeCast_a_1a_apply _ _ 0 o).trans ?_
  refine (rowsum_apply _ _ _ _ o).trans ?_
  exact Finset.sum_congr rfl fun b _ => Finset.sum_congr rfl fun n _ => row_apply x1 x2 x3 x4 o b n _ rfl

/-- THE SUM-OF-SQUARES STORE: the scratch row plus the block's sum of the squared linear map. -/
theorem k0_sumsq_apply :
    k0_pay3 (k0_pay9 (k0_pay7 x1 x2 x3) (k0_pay8 x2)) (k0_pay10 x4) (k0_pay11 (k0_pay7 x1 x2 x3) (k0_pay8 x2) x4) (k0_pay12 x4) xs
      (ix2 (0 : Fin 1) o)
      = xs (ix2 (0 : Fin 1) o) + ∑ b : Fin 80, ∑ n : Fin 100, LIN x1 x2 x3 x4 o b n * LIN x1 x2 x3 x4 o b n := by
  unfold k0_pay3
  refine (congrFun (shapeCast_self _ _) _).trans ?_
  refine congrArg (xs (ix2 (0 : Fin 1) o) + ·) ?_
  refine (shapeCast_a_1a_apply _ _ 0 o).trans ?_
  refine (rowsum_apply _ _ _ _ o).trans ?_
  exact Finset.sum_congr rfl fun b _ => Finset.sum_congr rfl fun n _ =>
    congrArg₂ (· * ·) (row_apply x1 x2 x3 x4 o b n _ rfl) (row_apply x1 x2 x3 x4 o b n _ rfl)

/-- The two initial stores write zero. -/
theorem k0_pay4_apply : k0_pay4 (F := Ideal) (ix2 (0 : Fin 1) o) = 0 := by
  unfold k0_pay4
  exact (congrFun (shapeCast_self _ _) _).trans Ideal.ofBits_zero_f32

theorem k0_pay5_apply : k0_pay5 (F := Ideal) (ix2 (0 : Fin 1) o) = 0 := by
  unfold k0_pay5
  exact (congrFun (shapeCast_self _ _) _).trans Ideal.ofBits_zero_f32

end Cert.KernelIdeal.Pay0

end
-- ==== Proof.Pay1Feat.lean ====
/-
  The second kernel's masked features read at a point: channel `i` of point `n` of pillar `b` of the block is the
  specification's masked channel of that pillar's data (its 100 rows of four raw channels, its valid count, its
  coordinates).
-/
import proofs.«150693_j22273700397341_2_alg».proof.Proof.Gen.KernelIdeal.Skeleton
import proofs.«150693_j22273700397341_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay1

open Idealize.ShloMosaic Idealize.ShloMosaic.ValueIdx Cert.KernelIdeal Cert.KernelIdeal.Gen

/-! ## The second kernel's masked features, named piece by piece

The nine channels are the raw four, the first three minus their mean over the points (the sum over
all rows divided by the valid count), and the first two minus the pillar's centre; every channel is
multiplied by the padding mask. The definitions below are the payload's own intermediate vectors. -/

variable (x1 : Vec Ideal S80x100x4 .f32) (x2 : Vec Ideal S80x1 .i32) (x3 : Vec Ideal S80x4 .i32)

/-- The valid counts as a float column. -/
def npf : FVec Ideal S80x1 .f32 := sitofp .f32 (shapeCast S80x1 x2 shapeCasts_S80x1_S80x1 : IVec S80x1 32)

/-- The first three raw channels. -/
def xyz : FVec Ideal S80x100x3 .f32 := extractStridedSlice S80x100x3 ![0, 0, 0] x1 slices_S80x100x4_o0_0_0_S80x100x3

/-- The first three channels minus their mean over the points. -/
def off : FVec Ideal S80x100x3 .f32 :=
  subf (xyz x1) (broadcastTo S80x100x3 (shapeCast S80x1x3 (divf
    (multiReduction .add [1] S80x3 (xyz x1) 0x00000000#32 reduces_S80x100x3_S80x3 (.inl rfl) rfl)
    (broadcastTo S80x3 (npf x2) broadcasts_S80x1_S80x3)) shapeCasts_S80x3_S80x1x3) broadcasts_S80x1x3_S80x100x3)

/-- The first channel minus the pillar centre's first coordinate. -/
def cenX : FVec Ideal S80x100 .f32 :=
  subf (shapeCast S80x100 (extractStridedSlice S80x100x1 ![0, 0, 0] x1 slices_S80x100x4_o0_0_0_S80x100x1) shapeCasts_S80x100x1_S80x100)
    (broadcastTo S80x100 (addf (mulf (sitofp .f32 (extractStridedSlice S80x1 ![0, 3] x3 slices_S80x4_o0_3_S80x1 : IVec S80x1 32))
      (broadcast S80x1 (Scalar.ofBits .f32 0x3E23D70A#32))) (broadcast S80x1 (Scalar.ofBits .f32 0x3DA3D70A#32))) broadcasts_S80x1_S80x100)

/-- The second channel minus the pillar centre's second coordinate. -/
def cenY : FVec Ideal S80x100 .f32 :=
  subf (shapeCast S80x100 (extractStridedSlice S80x100x1 ![0, 0, 1] x1 slices_S80x100x4_o0_0_1_S80x100x1) shapeCasts_S80x100x1_S80x100)
    (broadcastTo S80x100 (addf (mulf (sitofp .f32 (extractStridedSlice S80x1 ![0, 2] x3 slices_S80x4_o0_2_S80x1 : IVec S80x1 32))
      (broadcast S80x1 (Scalar.ofBits .f32 0x3E23D70A#32))) (broadcast S80x1 (Scalar.ofBits .f32 0xC21E6666#32))) broadcasts_S80x1_S80x100)

/-- The two centre offsets side by side. -/
def cen : FVec Ideal S80x100x2 .f32 :=
  concatenate S80x100x2 2 [⟨S80x100x1, shapeCast S80x100x1 (cenX x1 x3) shapeCasts_S80x100_S80x100x1⟩,
    ⟨S80x100x1, shapeCast S80x100x1 (cenY x1 x3) shapeCasts_S80x100_S80x100x1⟩] concatenates_S80x100x1_S80x100x1_S80x100x2_d2

/-- The nine channels before masking. -/
def base : FVec Ideal S80x100x9 .f32 :=
  concatenate S80x100x9 2 [⟨S80x100x4, x1⟩, ⟨S80x100x3, off x1 x2⟩, ⟨S80x100x2, cen x1 x3⟩]
    concatenates_S80x100x4_S80x100x3_S80x100x2_S80x100x9_d2

/-- The padding mask over the nine channels. -/
def mask : FVec Ideal S80x100x9 .f32 :=
  broadcastTo S80x100x9 (shapeCast S80x100x1 (sitofp (F := Ideal) .f32 (extui 32 (cmpi .slt (iota .tc S80x100 32 [1] iota_S80x100_d1_w32)
      (broadcastTo S80x100 (shapeCast S80x1 x2 shapeCasts_S80x1_S80x1 : IVec S80x1 32) broadcasts_S80x1_S80x100)) natLt_1_32)) shapeCasts_S80x100_S80x100x1)
      broadcasts_S80x100x1_S80x100x9

/-- The payload is the product of the two. -/
theorem k1_pay2_eq : k1_pay2 x1 x2 x3 = mulf (base x1 x2 x3) (mask x2) := rfl

theorem setWidth_toInt_bit (c : BitVec 1) : ((c.setWidth 32).toInt : ℝ) = (c.toNat : ℝ) := by
  rcases BitVec.eq_zero_or_eq_one c with h | h <;> subst h <;> simp

theorem cmpi_apply {s : Shape} {w : Nat} (p : CmpIPredicate) (x y : IVec s w) (i : s.Idx) :
    cmpi p x y i = IntOp.cmpi p (x i) (y i) := rfl

theorem sitofp_ideal (w : Nat) (x : BitVec w) : (FloatOps.sitofp (F := Ideal) .f32 x) = ((x.toInt : ℝ) : EReal) := rfl

theorem scalar_ofBits (b : BitVec 32) : Scalar.ofBits (F := Ideal) .f32 b = Ideal.ofBits .f32 b := rfl

/-- The padding mask read at a point. -/
theorem mask_apply (b : Fin 80) (n : Fin 100) (i : Fin 9) :
    mask x2 (ix3 b n i) = Cert.Spec.maskP (x2 (ix2 b 0)) n := by
  unfold mask
  refine (broadcastTo_apply _ _ (ix3 b n i) (ix3 b n 0) ?_).trans ?_
  · intro a; match a with
    | ⟨0, _⟩ => rfl
    | ⟨1, _⟩ => rfl
    | ⟨2, _⟩ => rfl
  refine (shapeCast_apply _ _ (ix3 b n (0 : Fin 1)) (ix2 b n) ?_).trans ?_
  · rw [Shape.rowMajor_val_three, Shape.rowMajor_val_two]
    show b.val * 100 + n.val = (b.val * 100 + n.val) * 1 + 0
    omega
  rw [sitofp_apply, extui_apply, cmpi_apply, iota_single_apply, shapeCast_self, broadcastTo_apply x2 _ (ix2 b n) (ix2 b 0) (fun a => by
    match a with
    | ⟨0, _⟩ => rfl
    | ⟨1, _⟩ => rfl), sitofp_ideal, setWidth_toInt_bit]
  rfl

/-- The valid count of a pillar as a float. -/
theorem npf_apply (b : Fin 80) : npf x2 (ix2 b 0) = Cert.Spec.npfP (x2 (ix2 b 0)) := by
  unfold npf
  rw [sitofp_apply, shapeCast_self]
  rfl

/-- The first three raw channels at a point. -/
theorem xyz_apply (b : Fin 80) (n : Fin 100) (j : Fin 3) :
    xyz x1 (ix3 b n j) = x1 (ix3 b n ⟨j.val, by omega⟩) := by
  unfold xyz
  refine extractStridedSlice_apply _ _ _ _ _ (fun a => ?_)
  match a with
  | ⟨0, _⟩ => exact (Nat.zero_add _).symm
  | ⟨1, _⟩ => exact (Nat.zero_add _).symm
  | ⟨2, _⟩ => exact (Nat.zero_add _).symm

/-- The sum over the points of one of the first three channels. -/
theorem sum_xyz_apply (b : Fin 80) (j : Fin 3) :
    multiReduction (F := Ideal) .add [1] S80x3 (xyz x1) 0x00000000#32 reduces_S80x100x3_S80x3 (.inl rfl) rfl (ix2 b j)
      = ∑ m : Fin 100, x1 (ix3 b m ⟨j.val, by omega⟩) := by
  refine (Ideal.multiReduction_add_single (xyz x1) 0x00000000#32 reduces_S80x100x3_S80x3 (.inl rfl) rfl (ix2 b j)).trans ?_
  show ∑ m : Fin 100, xyz x1 (reduces_S80x100x3_S80x3.lift (ix2 b j) m) = _
  refine Finset.sum_congr rfl fun m _ => ?_
  rw [← xyz_apply x1 b m j]
  refine congrArg (xyz x1) (funext fun a => Fin.ext ?_)
  match a with
  | ⟨0, _⟩ => rfl
  | ⟨1, _⟩ => rfl
  | ⟨2, _⟩ => rfl

/-- The first three channels minus their mean over the points, at a point. -/
theorem off_apply (b : Fin 80) (n : Fin 100) (j : Fin 3) :
    off x1 x2 (ix3 b n j) = x1 (ix3 b n ⟨j.val, by omega⟩)
      - Ideal.div (∑ m : Fin 100, x1 (ix3 b m ⟨j.val, by omega⟩)) (Cert.Spec.npfP (x2 (ix2 b 0))) := by
  unfold off
  rw [subf_apply, xyz_apply]
  refine congrArg (x1 (ix3 b n ⟨j.val, by omega⟩) - ·) ?_
  refine (broadcastTo_apply _ _ (ix3 b n j) (ix3 b (0 : Fin 1) j) ?_).trans ?_
  · intro a; match a with
    | ⟨0, _⟩ => rfl
    | ⟨1, _⟩ => rfl
    | ⟨2, _⟩ => rfl
  refine (shapeCast_apply _ _ (ix3 b (0 : Fin 1) j) (ix2 b j) ?_).trans ?_
  · rw [Shape.rowMajor_val_three, Shape.rowMajor_val_two]
    show b.val * 3 + j.val = (b.val * 1 + 0) * 3 + j.val
    omega
  rw [divf_apply, sum_xyz_apply, broadcastTo_apply (npf x2) _ (ix2 b j) (ix2 b 0) (fun a => by
    match a with
    | ⟨0, _⟩ => rfl
    | ⟨1, _⟩ => rfl), npf_apply]

/-- The first channel minus the pillar centre's first coordinate, at a point. -/
theorem cenX_apply (b : Fin 80) (n : Fin 100) :
    cenX x1 x3 (ix2 b n) = x1 (ix3 b n 0)
      - ((((x3 (ix2 b 3)).toInt : ℝ) : EReal) * Ideal.ofBits .f32 0x3E23D70A#32 + Ideal.ofBits .f32 0x3DA3D70A#32) := by
  unfold cenX
  rw [subf_apply]
  refine congr (congrArg _ ?_) ?_
  · refine (shapeCast_apply _ _ (ix2 b n) (ix3 b n (0 : Fin 1)) ?_).trans ?_
    · rw [Shape.rowMajor_val_three, Shape.rowMajor_val_two]
      show (b.val * 100 + n.val) * 1 + 0 = b.val * 100 + n.val
      omega
    refine extractStridedSlice_apply _ _ _ _ _ (fun a => ?_)
    match a with
    | ⟨0, _⟩ => exact (Nat.zero_add _).symm
    | ⟨1, _⟩ => exact (Nat.zero_add _).symm
    | ⟨2, _⟩ => rfl
  · refine (broadcastTo_apply _ _ (ix2 b n) (ix2 b (0 : Fin 1)) ?_).trans ?_
    · intro a; match a with
      | ⟨0, _⟩ => rfl
      | ⟨1, _⟩ => rfl
    rw [addf_apply, mulf_apply, sitofp_apply, broadcast_apply, broadcast_apply, sitofp_ideal, scalar_ofBits, scalar_ofBits,
      extractStridedSlice_apply ![0, 3] x3 slices_S80x4_o0_3_S80x1 (ix2 b (0 : Fin 1)) (ix2 b 3) (fun a => by
        match a with
        | ⟨0, _⟩ => exact (Nat.zero_add _).symm
        | ⟨1, _⟩ => rfl)]

/-- The second channel minus the pillar centre's second coordinate, at a point. -/
theorem cenY_apply (b : Fin 80) (n : Fin 100) :
    cenY x1 x3 (ix2 b n) = x1 (ix3 b n 1)
      - ((((x3 (ix2 b 2)).toInt : ℝ) : EReal) * Ideal.ofBits .f32 0x3E23D70A#32 + Ideal.ofBits .f32 0xC21E6666#32) := by
  unfold cenY
  rw [subf_apply]
  refine congr (congrArg _ ?_) ?_
  · refine (shapeCast_apply _ _ (ix2 b n) (ix3 b n (0 : Fin 1)) ?_).trans ?_
    · rw [Shape.rowMajor_val_three, Shape.rowMajor_val_two]
      show (b.val * 100 + n.val) * 1 + 0 = b.val * 100 + n.val
      omega
    refine extractStridedSlice_apply _ _ _ _ _ (fun a => ?_)
    match a with
    | ⟨0, _⟩ => exact (Nat.zero_add _).symm
    | ⟨1, _⟩ => exact (Nat.zero_add _).symm
    | ⟨2, _⟩ => rfl
  · refine (broadcastTo_apply _ _ (ix2 b n) (ix2 b (0 : Fin 1)) ?_).trans ?_
    · intro a; match a with
      | ⟨0, _⟩ => rfl
      | ⟨1, _⟩ => rfl
    rw [addf_apply, mulf_apply, sitofp_apply, broadcast_apply, broadcast_apply, sitofp_ideal, scalar_ofBits, scalar_ofBits,
      extractStridedSlice_apply ![0, 2] x3 slices_S80x4_o0_2_S80x1 (ix2 b (0 : Fin 1)) (ix2 b 2) (fun a => by
        match a with
        | ⟨0, _⟩ => exact (Nat.zero_add _).symm
        | ⟨1, _⟩ => rfl)]

theorem cast_col_apply (v : FVec Ideal S80x100 .f32) (b : Fin 80) (n : Fin 100) :
    shapeCast S80x100x1 v shapeCasts_S80x100_S80x100x1 (ix3 b n (0 : Fin 1)) = v (ix2 b n) := by
  refine shapeCast_apply _ _ _ _ ?_
  rw [Shape.rowMajor_val_three, Shape.rowMajor_val_two]
  show b.val * 100 + n.val = (b.val * 100 + n.val) * 1 + 0
  omega

/-- The two centre offsets side by side: the first column. -/
theorem cen_apply0 (b : Fin 80) (n : Fin 100) : cen x1 x3 (ix3 b n 0) = cenX x1 x3 (ix2 b n) := by
  unfold cen
  refine (concatenate_pair_apply_left (t := S80x100x2) (s₁ := S80x100x1) (s₂ := S80x100x1) (2 : Fin 3) _ _ _ (ix3 b n (0 : Fin 2)) rfl (ix3 b n (0 : Fin 1)) (fun a => ?_)).trans
    (cast_col_apply _ b n)
  match a with
  | ⟨0, _⟩ => rfl
  | ⟨1, _⟩ => rfl
  | ⟨2, _⟩ => rfl

/-- The second column. -/
theorem cen_apply1 (b : Fin 80) (n : Fin 100) : cen x1 x3 (ix3 b n 1) = cenY x1 x3 (ix2 b n) := by
  unfold cen
  refine (concatenate_pair_apply_right (t := S80x100x2) (s₁ := S80x100x1) (s₂ := S80x100x1) (2 : Fin 3) _ _ _ (ix3 b n (1 : Fin 2)) rfl rfl (ix3 b n (0 : Fin 1)) (fun a => ?_) rfl).trans
    (cast_col_apply _ b n)
  match a with
  | ⟨0, _⟩ => exact fun _ => rfl
  | ⟨1, _⟩ => exact fun _ => rfl
  | ⟨2, _⟩ => exact fun h => absurd rfl h

/-- The raw channels among the nine. -/
theorem base_raw (b : Fin 80) (n : Fin 100) (j : Fin 4) :
    base x1 x2 x3 (ix3 b n (⟨j.val, by omega⟩ : Fin 9)) = x1 (ix3 b n j) := by
  unfold base
  refine concatenate_apply_piece (t := S80x100x9) (2 : Fin 3)
    [⟨S80x100x4, x1⟩, ⟨S80x100x3, off x1 x2⟩, ⟨S80x100x2, cen x1 x3⟩] concatenates_S80x100x4_S80x100x3_S80x100x2_S80x100x9_d2
    (ix3 b n (⟨j.val, by omega⟩ : Fin 9)) 0 (show 0 < 3 by decide)
    S80x100x4 x1 rfl rfl 0 rfl (ix3 b n j) (fun a => ?_) (Nat.zero_add _)
  match a with
  | ⟨0, _⟩ => exact fun _ => rfl
  | ⟨1, _⟩ => exact fun _ => rfl
  | ⟨2, _⟩ => exact fun h => absurd rfl h

/-- The mean offsets among the nine. -/
theorem base_off (b : Fin 80) (n : Fin 100) (j : Fin 3) :
    base x1 x2 x3 (ix3 b n (⟨4 + j.val, by omega⟩ : Fin 9)) = off x1 x2 (ix3 b n j) := by
  unfold base
  refine concatenate_apply_piece (t := S80x100x9) (2 : Fin 3)
    [⟨S80x100x4, x1⟩, ⟨S80x100x3, off x1 x2⟩, ⟨S80x100x2, cen x1 x3⟩] concatenates_S80x100x4_S80x100x3_S80x100x2_S80x100x9_d2
    (ix3 b n (⟨4 + j.val, by omega⟩ : Fin 9)) 1 (show 1 < 3 by decide)
    S80x100x3 (off x1 x2) rfl rfl 4 rfl (ix3 b n j) (fun a => ?_) rfl
  match a with
  | ⟨0, _⟩ => exact fun _ => rfl
  | ⟨1, _⟩ => exact fun _ => rfl
  | ⟨2, _⟩ => exact fun h => absurd rfl h

/-- The centre offsets among the nine. -/
theorem base_cen (b : Fin 80) (n : Fin 100) (j : Fin 2) :
    base x1 x2 x3 (ix3 b n (⟨7 + j.val, by omega⟩ : Fin 9)) = cen x1 x3 (ix3 b n j) := by
  unfold base
  refine concatenate_apply_piece (t := S80x100x9) (2 : Fin 3)
    [⟨S80x100x4, x1⟩, ⟨S80x100x3, off x1 x2⟩, ⟨S80x100x2, cen x1 x3⟩] concatenates_S80x100x4_S80x100x3_S80x100x2_S80x100x9_d2
    (ix3 b n (⟨7 + j.val, by omega⟩ : Fin 9)) 2 (show 2 < 3 by decide)
    S80x100x2 (cen x1 x3) rfl rfl 7 rfl (ix3 b n j) (fun a => ?_) rfl
  match a with
  | ⟨0, _⟩ => exact fun _ => rfl
  | ⟨1, _⟩ => exact fun _ => rfl
  | ⟨2, _⟩ => exact fun h => absurd rfl h

/-- **The masked features at a point** are the specification's. -/
theorem k1_pay2_apply (b : Fin 80) (n : Fin 100) (i : Fin 9) :
    k1_pay2 x1 x2 x3 (ix3 b n i)
      = Cert.Spec.featP (fun n k => x1 (ix3 b n k)) (x2 (ix2 b 0)) (fun k => x3 (ix2 b k)) n i := by
  rw [k1_pay2_eq, mulf_apply, mask_apply]
  unfold Cert.Spec.featP
  refine congrArg (· * Cert.Spec.maskP (x2 (ix2 b 0)) n) ?_
  match i with
  | ⟨0, _⟩ => exact base_raw x1 x2 x3 b n 0
  | ⟨1, _⟩ => exact base_raw x1 x2 x3 b n 1
  | ⟨2, _⟩ => exact base_raw x1 x2 x3 b n 2
  | ⟨3, _⟩ => exact base_raw x1 x2 x3 b n 3
  | ⟨4, _⟩ => exact (base_off x1 x2 x3 b n 0).trans (off_apply x1 x2 b n 0)
  | ⟨5, _⟩ => exact (base_off x1 x2 x3 b n 1).trans (off_apply x1 x2 b n 1)
  | ⟨6, _⟩ => exact (base_off x1 x2 x3 b n 2).trans (off_apply x1 x2 b n 2)
  | ⟨7, _⟩ => exact ((base_cen x1 x2 x3 b n 0).trans (cen_apply0 x1 x3 b n)).trans (cenX_apply x1 x3 b n)
  | ⟨8, _⟩ => exact ((base_cen x1 x2 x3 b n 1).trans (cen_apply1 x1 x3 b n)).trans (cenY_apply x1 x3 b n)

end Cert.KernelIdeal.Pay1
end
-- ==== Proof.Pay1Lin.lean ====
/-
  The second kernel's linear map read at a point: each of its nine terms is a feature channel times a weight, and
  the first seven are accumulated onto zero in order.
-/
import proofs.«150693_j22273700397341_2_alg».proof.Proof.Gen.KernelIdeal.Skeleton
import proofs.«150693_j22273700397341_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay1

open Idealize.ShloMosaic Idealize.ShloMosaic.ValueIdx Cert.KernelIdeal Cert.KernelIdeal.Gen

theorem scalar_ofBits (b : BitVec 32) : Scalar.ofBits (F := Ideal) .f32 b = Ideal.ofBits .f32 b := rfl

/-! ## One term of the linear map

A column of the features broadcast along the output channels, times a row of the weights broadcast over the
pillars and points. -/

/-- Row `k` of the weights, cut out as a one-row matrix, read at a channel. -/
theorem wrow_apply (w : FVec Ideal S9x64 .f32) (k : Nat) (hk : k < 9) (h1 : S9x64.Slices ![k, 0] S1x64) (o : Fin 64) :
    extractStridedSlice S1x64 ![k, 0] w h1 (ix2 (0 : Fin 1) o) = w (ix2 (⟨k, hk⟩ : Fin 9) o) := by
  refine extractStridedSlice_apply _ _ _ _ _ (fun a => ?_)
  match a with
  | ⟨0, _⟩ => rfl
  | ⟨1, _⟩ => exact (Nat.zero_add _).symm

/-- A one-row matrix flattened, given two unit axes and broadcast over pillars and points, read at a point. -/
theorem rowcast_apply (row : FVec Ideal S1x64 .f32) (b : Fin 80) (n : Fin 100) (o : Fin 64) :
    broadcastTo S80x100x64 (shapeCast S1x1x64 (shapeCast S64 row shapeCasts_S1x64_S64) shapeCasts_S64_S1x1x64)
      broadcasts_S1x1x64_S80x100x64 (ix3 b n o) = row (ix2 (0 : Fin 1) o) := by
  refine (broadcastTo_apply _ _ (ix3 b n o) (ix3 (0 : Fin 1) (0 : Fin 1) o) ?_).trans ?_
  · intro a; match a with
    | ⟨0, _⟩ => rfl
    | ⟨1, _⟩ => rfl
    | ⟨2, _⟩ => rfl
  refine (shapeCast_apply _ _ (ix3 (0 : Fin 1) (0 : Fin 1) o) (ix1 o) ?_).trans ?_
  · rw [Shape.rowMajor_val_three, Shape.rowMajor_val_one]
    show o.val = (0 * 1 + 0) * 64 + o.val
    omega
  refine shapeCast_apply _ _ (ix1 o) (ix2 (0 : Fin 1) o) ?_
  rw [Shape.rowMajor_val_two, Shape.rowMajor_val_one]
  show 0 * 64 + o.val = o.val
  omega

/-- Column `k` of the features broadcast along the output channels, read at a point. -/
theorem featcol_apply (feat : FVec Ideal S80x100x9 .f32) (k : Nat) (hk : k < 9) (h2 : S80x100x9.Slices ![0, 0, k] S80x100x1)
    (b : Fin 80) (n : Fin 100) (o : Fin 64) :
    broadcastTo S80x100x64 (extractStridedSlice S80x100x1 ![0, 0, k] feat h2) broadcasts_S80x100x1_S80x100x64 (ix3 b n o)
      = feat (ix3 b n (⟨k, hk⟩ : Fin 9)) := by
  refine (broadcastTo_apply _ _ (ix3 b n o) (ix3 b n (0 : Fin 1)) ?_).trans ?_
  · intro a; match a with
    | ⟨0, _⟩ => rfl
    | ⟨1, _⟩ => rfl
    | ⟨2, _⟩ => rfl
  refine extractStridedSlice_apply _ _ _ _ _ (fun a => ?_)
  match a with
  | ⟨0, _⟩ => exact (Nat.zero_add _).symm
  | ⟨1, _⟩ => exact (Nat.zero_add _).symm
  | ⟨2, _⟩ => rfl

/-- One term with the weights' row given. -/
theorem term_row_apply (feat : FVec Ideal S80x100x9 .f32) (row : FVec Ideal S1x64 .f32) (k : Nat) (hk : k < 9)
    (h2 : S80x100x9.Slices ![0, 0, k] S80x100x1) (b : Fin 80) (n : Fin 100) (o : Fin 64) :
    mulf (broadcastTo S80x100x64 (extractStridedSlice S80x100x1 ![0, 0, k] feat h2) broadcasts_S80x100x1_S80x100x64)
      (broadcastTo S80x100x64 (shapeCast S1x1x64 (shapeCast S64 row shapeCasts_S1x64_S64) shapeCasts_S64_S1x1x64)
        broadcasts_S1x1x64_S80x100x64) (ix3 b n o)
      = feat (ix3 b n (⟨k, hk⟩ : Fin 9)) * row (ix2 (0 : Fin 1) o) := by
  rw [mulf_apply, featcol_apply feat k hk h2 b n o, rowcast_apply]

/-- One term with the weights' row cut out of the matrix. -/
theorem term_apply (feat : FVec Ideal S80x100x9 .f32) (w : FVec Ideal S9x64 .f32) (k : Nat) (hk : k < 9)
    (h1 : S9x64.Slices ![k, 0] S1x64) (h2 : S80x100x9.Slices ![0, 0, k] S80x100x1) (b : Fin 80) (n : Fin 100) (o : Fin 64) :
    mulf (broadcastTo S80x100x64 (extractStridedSlice S80x100x1 ![0, 0, k] feat h2) broadcasts_S80x100x1_S80x100x64)
      (broadcastTo S80x100x64 (shapeCast S1x1x64 (shapeCast S64 (extractStridedSlice S1x64 ![k, 0] w h1) shapeCasts_S1x64_S64)
        shapeCasts_S64_S1x1x64) broadcasts_S1x1x64_S80x100x64) (ix3 b n o)
      = feat (ix3 b n (⟨k, hk⟩ : Fin 9)) * w (ix2 (⟨k, hk⟩ : Fin 9) o) := by
  rw [term_row_apply feat _ k hk h2 b n o, wrow_apply w k hk h1 o]

/-- The weights pass through their same-shape cast unchanged. -/
theorem k1_pay3_eq (x4 : Vec Ideal S9x64 .f32) : k1_pay3 x4 = x4 := by
  unfold k1_pay3
  exact shapeCast_self _ _

/-- The row of the weights the last payload cuts out. -/
theorem k1_pay5_apply (x4 : Vec Ideal S9x64 .f32) (o : Fin 64) : k1_pay5 x4 (ix2 (0 : Fin 1) o) = x4 (ix2 (7 : Fin 9) o) := by
  unfold k1_pay5
  rw [k1_pay3_eq]
  exact wrow_apply x4 7 (by decide) _ o

/-- **The first seven terms**, accumulated onto zero in order. -/
theorem k1_pay4_apply (feat : FVec Ideal S80x100x9 .f32) (x4 : Vec Ideal S9x64 .f32) (b : Fin 80) (n : Fin 100) (o : Fin 64) :
    k1_pay4 feat x4 (ix3 b n o)
      = 0 + feat (ix3 b n 0) * x4 (ix2 0 o) + feat (ix3 b n 1) * x4 (ix2 1 o) + feat (ix3 b n 2) * x4 (ix2 2 o)
        + feat (ix3 b n 3) * x4 (ix2 3 o) + feat (ix3 b n 4) * x4 (ix2 4 o) + feat (ix3 b n 5) * x4 (ix2 5 o)
        + feat (ix3 b n 6) * x4 (ix2 6 o) := by
  unfold k1_pay4
  rw [k1_pay3_eq]
  rw [addf_apply, addf_apply, addf_apply, addf_apply, addf_apply, addf_apply, addf_apply, broadcast_apply,
    term_apply feat x4 0 (by decide) _ _ b n o, term_apply feat x4 1 (by decide) _ _ b n o,
    term_apply feat x4 2 (by decide) _ _ b n o, term_apply feat x4 3 (by decide) _ _ b n o,
    term_apply feat x4 4 (by decide) _ _ b n o, term_apply feat x4 5 (by decide) _ _ b n o,
    term_apply feat x4 6 (by decide) _ _ b n o, scalar_ofBits, Ideal.ofBits_zero_f32]
  rfl

end Cert.KernelIdeal.Pay1
end
-- ==== Proof.Pay1.lean ====
/-
  The second kernel's stored value read at an entry: pillar `b` of the block, output channel `o`. It is the maximum
  over the pillar's 100 points, folded from minus infinity, of the normalised, scaled, shifted and clamped linear map
  of the masked features — the specification's per-pillar quantities of that pillar's data.
-/
import proofs.«150693_j22273700397341_2_alg».proof.Proof.Pay1Feat
import proofs.«150693_j22273700397341_2_alg».proof.Proof.Pay1Lin

noncomputable section

open scoped BigOperators

namespace Cert.KernelIdeal.Pay1

open Idealize.ShloMosaic Idealize.ShloMosaic.ValueIdx Cert.KernelIdeal Cert.KernelIdeal.Gen

variable (x1 : Vec Ideal S80x100x4 .f32) (x2 : Vec Ideal S80x1 .i32) (x3 : Vec Ideal S80x4 .i32) (x4 : Vec Ideal S9x64 .f32)
variable (x5 x6 x7 x8 : Vec Ideal S1x64 .f32)

/-- A row of statistics given a second leading unit axis. -/
def row3 (r : Vec Ideal S1x64 .f32) : FVec Ideal S1x1x64 .f32 :=
  shapeCast S1x1x64 (shapeCast S1x64 r shapeCasts_S1x64_S1x64 : FVec Ideal S1x64 .f32) shapeCasts_S1x64_S1x1x64

/-- The linear map completed: the seven accumulated terms plus the last two. -/
def lin9 (v43 : FVec Ideal S80x100x9 .f32) (v45 : FVec Ideal S9x64 .f32) (v102 : FVec Ideal S80x100x64 .f32)
    (v103 : FVec Ideal S1x64 .f32) : FVec Ideal S80x100x64 .f32 :=
  addf (addf v102 (mulf
      (broadcastTo S80x100x64 (extractStridedSlice S80x100x1 ![0, 0, 7] v43 slices_S80x100x9_o0_0_7_S80x100x1) broadcasts_S80x100x1_S80x100x64)
      (broadcastTo S80x100x64 (shapeCast S1x1x64 (shapeCast S64 v103 shapeCasts_S1x64_S64) shapeCasts_S64_S1x1x64) broadcasts_S1x1x64_S80x100x64)))
    (mulf
      (broadcastTo S80x100x64 (extractStridedSlice S80x100x1 ![0, 0, 8] v43 slices_S80x100x9_o0_0_8_S80x100x1) broadcasts_S80x100x1_S80x100x64)
      (broadcastTo S80x100x64 (shapeCast S1x1x64 (shapeCast S64 (extractStridedSlice S1x64 ![8, 0] v45 slices_S9x64_o8_0_S1x64) shapeCasts_S1x64_S64)
        shapeCasts_S64_S1x1x64) broadcasts_S1x1x64_S80x100x64))

/-- The normalisation, scale, shift and clamp applied to every entry. -/
def act (lin : FVec Ideal S80x100x64 .f32) : FVec Ideal S80x100x64 .f32 :=
  maximumf (addf (mulf (mulf (subf lin (broadcastTo S80x100x64 (row3 x5) broadcasts_S1x1x64_S80x100x64))
        (broadcastTo S80x100x64 (rsqrt (addf (row3 x6) (broadcast S1x1x64 (Scalar.ofBits .f32 0x3A83126F#32))))
          broadcasts_S1x1x64_S80x100x64))
      (broadcastTo S80x100x64 (row3 x7) broadcasts_S1x1x64_S80x100x64))
    (broadcastTo S80x100x64 (row3 x8) broadcasts_S1x1x64_S80x100x64))
    (broadcast S80x100x64 (Scalar.ofBits .f32 0x00000000#32))

/-- The stored value: the maximum over the points of the clamped entries. -/
theorem k1_pay1_eq (v43 : FVec Ideal S80x100x9 .f32) (v45 : FVec Ideal S9x64 .f32) (v102 : FVec Ideal S80x100x64 .f32)
    (v103 : FVec Ideal S1x64 .f32) :
    k1_pay1 v43 v45 v102 v103 x5 x6 x7 x8
      = multiReduction .maximumf [2] S80x64
          (transpose S80x64x100 [0, 2, 1] (act x5 x6 x7 x8 (lin9 v43 v45 v102 v103)) transposes_S80x100x64_p0_2_1_S80x64x100)
          0xFF800000#32 reduces_S80x64x100_S80x64 (.inl rfl) rfl := rfl

/-- A statistics row with its two unit axes, read at a channel. -/
theorem row3_apply (r : Vec Ideal S1x64 .f32) (o : Fin 64) : row3 r (ix3 (0 : Fin 1) (0 : Fin 1) o) = r (ix2 (0 : Fin 1) o) := by
  unfold row3
  rw [shapeCast_self]
  refine shapeCast_apply _ _ _ _ ?_
  rw [Shape.rowMajor_val_three, Shape.rowMajor_val_two]
  show 0 * 64 + o.val = (0 * 1 + 0) * 64 + o.val
  omega

/-- A row of the unit-axes shape broadcast over pillars and points, read at a point. -/
theorem bcast3_apply (v : FVec Ideal S1x1x64 .f32) (b : Fin 80) (n : Fin 100) (o : Fin 64) :
    broadcastTo S80x100x64 v broadcasts_S1x1x64_S80x100x64 (ix3 b n o) = v (ix3 (0 : Fin 1) (0 : Fin 1) o) := by
  refine broadcastTo_apply _ _ (ix3 b n o) (ix3 (0 : Fin 1) (0 : Fin 1) o) ?_
  intro a; match a with
  | ⟨0, _⟩ => rfl
  | ⟨1, _⟩ => rfl
  | ⟨2, _⟩ => rfl

theorem rsqrt_apply {s : Shape} (v : FVec Ideal s .f32) (i : s.Idx) : rsqrt v i = Ideal.rsqrt (v i) := rfl

/-- The normalisation at a point is the specification's. -/
theorem act_apply (lin : FVec Ideal S80x100x64 .f32) (b : Fin 80) (n : Fin 100) (o : Fin 64) :
    act x5 x6 x7 x8 lin (ix3 b n o)
      = Cert.Spec.normP (lin (ix3 b n o)) (x5 (ix2 0 o)) (x6 (ix2 0 o)) (x7 (ix2 0 o)) (x8 (ix2 0 o)) := by
  unfold act Cert.Spec.normP
  rw [maximumf_apply, addf_apply, mulf_apply, mulf_apply, subf_apply, broadcast_apply, bcast3_apply, bcast3_apply, bcast3_apply,
    bcast3_apply, rsqrt_apply, addf_apply, broadcast_apply, row3_apply, row3_apply, row3_apply, row3_apply, scalar_ofBits, scalar_ofBits]

/-- The completed linear map at a point. -/
theorem lin9_apply (v43 : FVec Ideal S80x100x9 .f32) (v45 : FVec Ideal S9x64 .f32) (v102 : FVec Ideal S80x100x64 .f32)
    (v103 : FVec Ideal S1x64 .f32) (b : Fin 80) (n : Fin 100) (o : Fin 64) :
    lin9 v43 v45 v102 v103 (ix3 b n o)
      = v102 (ix3 b n o) + v43 (ix3 b n 7) * v103 (ix2 (0 : Fin 1) o) + v43 (ix3 b n 8) * v45 (ix2 8 o) := by
  unfold lin9
  rw [addf_apply, addf_apply, term_row_apply v43 v103 7 (by decide) _ b n o, term_apply v43 v45 8 (by decide) _ _ b n o]
  rfl

/-- A sum over nine channels, written out in the order the terms are accumulated. -/
theorem sum9 (f : Fin 9 → EReal) : ∑ i, f i = 0 + f 0 + f 1 + f 2 + f 3 + f 4 + f 5 + f 6 + f 7 + f 8 := by
  simp only [Fin.sum_univ_castSucc, Fin.sum_univ_zero]
  rfl

/-- The completed linear map of the kernel's own payloads at a point is the specification's. -/
theorem lin_apply (b : Fin 80) (n : Fin 100) (o : Fin 64) :
    lin9 (k1_pay2 x1 x2 x3) (k1_pay3 x4) (k1_pay4 (k1_pay2 x1 x2 x3) x4) (k1_pay5 x4) (ix3 b n o)
      = Cert.Spec.linP (fun n k => x1 (ix3 b n k)) (x2 (ix2 b 0)) (fun k => x3 (ix2 b k)) (fun o i => x4 (ix2 i o)) n o := by
  rw [lin9_apply, k1_pay4_apply, k1_pay5_apply, k1_pay3_eq]
  simp only [k1_pay2_apply]
  unfold Cert.Spec.linP
  rw [sum9]

/-- A maximum over the last axis, folded from minus infinity, read at an entry. -/
theorem max_points (v : FVec Ideal S80x64x100 .f32) (b : Fin 80) (o : Fin 64) :
    multiReduction (F := Ideal) .maximumf [2] S80x64 v 0xFF800000#32 reduces_S80x64x100_S80x64 (.inl rfl) rfl (ix2 b o)
      = (Finset.univ : Finset (Fin 100)).fold max (Ideal.ofBits .f32 0xFF800000#32) (fun n => v (ix3 b o n)) := by
  refine (Ideal.multiReduction_maximumf_single v 0xFF800000#32 reduces_S80x64x100_S80x64 (.inl rfl) rfl (ix2 b o)).trans ?_
  show (Finset.univ : Finset (Fin 100)).fold max (Ideal.ofBits .f32 0xFF800000#32)
    (fun n => v (reduces_S80x64x100_S80x64.lift (ix2 b o) n)) = _
  refine Finset.fold_congr (fun n _ => congrArg v (funext fun a => Fin.ext ?_))
  match a with
  | ⟨0, _⟩ => rfl
  | ⟨1, _⟩ => rfl
  | ⟨2, _⟩ => rfl

/-- **The second kernel's stored value at an entry**: the maximum over the pillar's points, folded from minus infinity,
    of the normalised, scaled, shifted and clamped linear map of the masked features. -/
theorem k1_out_apply (b : Fin 80) (o : Fin 64) :
    k1_pay1 (k1_pay2 x1 x2 x3) (k1_pay3 x4) (k1_pay4 (k1_pay2 x1 x2 x3) x4) (k1_pay5 x4) x5 x6 x7 x8 (ix2 b o)
      = (Finset.univ : Finset (Fin 100)).fold max (Ideal.ofBits .f32 0xFF800000#32) fun n =>
          Cert.Spec.normP (Cert.Spec.linP (fun n k => x1 (ix3 b n k)) (x2 (ix2 b 0)) (fun k => x3 (ix2 b k))
            (fun o i => x4 (ix2 i o)) n o) (x5 (ix2 0 o)) (x6 (ix2 0 o)) (x7 (ix2 0 o)) (x8 (ix2 0 o)) := by
  rw [k1_pay1_eq, max_points]
  refine Finset.fold_congr (fun n _ => ?_)
  rw [transpose_ix3_021_apply, act_apply, lin_apply]

end Cert.KernelIdeal.Pay1
end
-- ==== Proof.ValAll.lean ====
/-
  The program's result, read: on every core the result array ends holding, at pillar p and channel o, the
  specification's output computed with the kernel's form of the variance (mean of squares minus squared mean) — as one
  function of the six arguments as launched. The second region's whole-array function is instantiated at what that
  region finds: the features, counts, coordinates and weights of the arguments (the counts as a column, the weights
  transposed), the mean and variance rows the host computed from the first region's two sums, the scale and shift rows.
-/
import proofs.«150693_j22273700397341_2_alg».proof.Proof.Val0Fin
import proofs.«150693_j22273700397341_2_alg».proof.Proof.Val1
import proofs.«150693_j22273700397341_2_alg».proof.Proof.ValHost
import proofs.«150693_j22273700397341_2_alg».proof.Proof.LibColumn
import proofs.«150693_j22273700397341_2_alg».proof.Proof.Pay0
import proofs.«150693_j22273700397341_2_alg».proof.Proof.Pay1
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (m : (ℓ : Loc nD τ sig) → Buf (Elt Ideal) ℓ) (ρ : Dev nD → PrngReg)

/-- The six arguments as launched, as curried functions of their literal indices. -/
abbrev feK (c : Dev nD) : Fin 30000 → Fin 100 → Fin 4 → EReal := fun p n k => ((m ((c : Thread nD τ).loc main_arg0)) : S30000x100x4.Idx → EReal) (ix3 p n k)
abbrev npK (c : Dev nD) : Fin 30000 → BitVec 32 := fun p => ((m ((c : Thread nD τ).loc main_arg1)) : S30000.Idx → BitVec 32) (ix1 p)
abbrev coK (c : Dev nD) : Fin 30000 → Fin 4 → BitVec 32 := fun p k => ((m ((c : Thread nD τ).loc main_arg2)) : S30000x4.Idx → BitVec 32) (ix2 p k)
abbrev weK (c : Dev nD) : Fin 64 → Fin 9 → EReal := fun o i => ((m ((c : Thread nD τ).loc main_arg3)) : S64x9.Idx → EReal) (ix2 o i)
abbrev gaK (c : Dev nD) : Fin 64 → EReal := fun o => ((m ((c : Thread nD τ).loc main_arg4)) : S64.Idx → EReal) (ix1 o)
abbrev beK (c : Dev nD) : Fin 64 → EReal := fun o => ((m ((c : Thread nD τ).loc main_arg5)) : S64.Idx → EReal) (ix1 o)

/-- The three payload facts, from the kernels' arithmetic read at an index. -/
theorem payS : PayS := fun x1 x2 x3 x4 xs o => Cert.KernelIdeal.Pay0.k0_sum_apply x1 x2 x3 x4 xs o
theorem payQ : PayQ := fun x1 x2 x3 x4 xs o => Cert.KernelIdeal.Pay0.k0_sumsq_apply x1 x2 x3 x4 xs o
theorem payZ : PayZ := fun o => ⟨Cert.KernelIdeal.Pay0.k0_pay4_apply o, Cert.KernelIdeal.Pay0.k0_pay5_apply o⟩
theorem payO : PayO := fun x1 x2 x3 x4 x5 x6 x7 x8 b o => Cert.KernelIdeal.Pay1.k1_out_apply x1 x2 x3 x4 x5 x6 x7 x8 b o

/-- The linear layer over the arrays a region finds is the specification's over the arguments, when the region finds the
    features and coordinates as launched, the counts as a column and the weights transposed. -/
theorem LINV_eq (V : (c : Dev nD) → (b : Ref sig .tc) → Buf (Elt Ideal) ((c : Thread nD τ).loc b)) (c : Dev nD)
    (h0 : V c main_arg0 = (m ((c : Thread nD τ).loc main_arg0)))
    (h1 : (V c main_v0 : S30000x1.Idx → BitVec 32) = shapeCast S30000x1 ((m ((c : Thread nD τ).loc main_arg1)) : S30000.Idx → BitVec 32) shapeCasts_S30000_S30000x1)
    (h2 : V c main_arg2 = (m ((c : Thread nD τ).loc main_arg2)))
    (h3 : (V c main_v1 : S9x64.Idx → EReal) = transpose S9x64 [1, 0] ((m ((c : Thread nD τ).loc main_arg3)) : S64x9.Idx → EReal) transposes_S64x9_S9x64_1_0)
    (p : Fin 30000) (n : Fin 100) (o : Fin 64) :
    LINV V c p n o = Cert.Spec.lin (feK m c) (npK m c) (coK m c) (weK m c) p n o := by
  unfold LINV Cert.Spec.lin
  rw [h0, h1, h2, h3]
  have a1 : shapeCast S30000x1 ((m ((c : Thread nD τ).loc main_arg1)) : S30000.Idx → BitVec 32) shapeCasts_S30000_S30000x1 (ix2 p 0) = ((m ((c : Thread nD τ).loc main_arg1)) : S30000.Idx → BitVec 32) (ix1 p) :=
    Cert.Column.shapeCast_a_a1_apply _ _ p 0
  have a3 : (fun (o : Fin 64) (i : Fin 9) => transpose S9x64 [1, 0] ((m ((c : Thread nD τ).loc main_arg3)) : S64x9.Idx → EReal) transposes_S64x9_S9x64_1_0 (ix2 i o)) = fun o i => ((m ((c : Thread nD τ).loc main_arg3)) : S64x9.Idx → EReal) (ix2 o i) :=
    funext fun o => funext fun i => transpose_ix2_apply _ _ i o
  rw [a1, a3]

theorem LINV1 (c : Dev nD) (p : Fin 30000) (n : Fin 100) (o : Fin 64) :
    LINV (V1 m ρ) c p n o = Cert.Spec.lin (feK m c) (npK m c) (coK m c) (weK m c) p n o :=
  LINV_eq m (V1 m ρ) c (V1_arg0 m ρ c) (V1_v0 m ρ c) (V1_arg2 m ρ c) (V1_v1 m ρ c) p n o
theorem LINV3 (c : Dev nD) (p : Fin 30000) (n : Fin 100) (o : Fin 64) :
    LINV (V3 m ρ) c p n o = Cert.Spec.lin (feK m c) (npK m c) (coK m c) (weK m c) p n o :=
  LINV_eq m (V3 m ρ) c (V3_arg0 m ρ c) ((V3_v0 m ρ c).trans (V1_v0 m ρ c)) (V3_arg2 m ρ c) ((V3_v1 m ρ c).trans (V1_v1 m ρ c)) p n o

/-- The first region's two sums are the specification's totals. -/
theorem sums_eq (c : Dev nD) (o : Fin 64) :
    (V2 m ρ c main_v4_0 : S1x64.Idx → EReal) (ix2 0 o) = Cert.Spec.tot (feK m c) (npK m c) (coK m c) (weK m c) o
    ∧ (V2 m ρ c main_v4_1 : S1x64.Idx → EReal) (ix2 0 o) = Cert.Spec.totsq (feK m c) (npK m c) (coK m c) (weK m c) o := by
  have h4 : (V2 m ρ c main_v4_0 : S1x64.Idx → EReal) = RES4 (V1 m ρ) c := (V2_v4_0 m ρ c).trans (final0_4 (V1 m ρ) c)
  have h5 : (V2 m ρ c main_v4_1 : S1x64.Idx → EReal) = RES5 (V1 m ρ) c := (V2_v4_1 m ρ c).trans (final0_5 (V1 m ρ) c)
  have t4 : (∑ p : Fin 30000, fS (V1 m ρ) c o p : EReal) = Cert.Spec.tot (feK m c) (npK m c) (coK m c) (weK m c) o := by
    unfold Cert.Spec.tot fS
    exact Finset.sum_congr rfl fun p _ => Finset.sum_congr rfl fun n _ => LINV1 m ρ c p n o
  have t5 : (∑ p : Fin 30000, fQ (V1 m ρ) c o p : EReal) = Cert.Spec.totsq (feK m c) (npK m c) (coK m c) (weK m c) o := by
    unfold Cert.Spec.totsq fQ
    exact Finset.sum_congr rfl fun p _ => Finset.sum_congr rfl fun n _ => by rw [LINV1 m ρ c p n o]
  exact ⟨(congrFun h4 (ix2 0 o)).trans ((RES4_apply (V1 m ρ) payS payQ payZ c o).trans t4),
    (congrFun h5 (ix2 0 o)).trans ((RES5_apply (V1 m ρ) payS payQ payZ c o).trans t5)⟩

/-- The count, spread over the channels, read at a channel. -/
theorem cnt_apply (o : Fin 64) : broadcastInDim S64 ![] bcast_S_S64 (constant (F := Ideal) S_ .f32 0x4A371B00#32) (ix1 o) = Cert.Spec.cnt :=
  (broadcastInDim_apply _ bcast_S_S64 (constant (F := Ideal) S_ .f32 0x4A371B00#32) (ix1 o) ix0 (fun a => a.elim0)).trans rfl

/-- The mean vector the host computes is the specification's mean. -/
theorem meanVec_apply (c : Dev nD) (o : Fin 64) : meanVec m ρ c (ix1 o) = Cert.Spec.mean (feK m c) (npK m c) (coK m c) (weK m c) o := by
  unfold meanVec Cert.Spec.mean
  show Ideal.div (shapeCast S64 (V2 m ρ c main_v4_0 : S1x64.Idx → EReal) shapeCasts_S1x64_S64 (ix1 o)) (broadcastInDim S64 ![] bcast_S_S64 (constant (F := Ideal) S_ .f32 0x4A371B00#32) (ix1 o)) = _
  rw [shapeCast_1a_a_apply, cnt_apply, (sums_eq m ρ c o).1]

/-- The mean and variance rows the second region reads. -/
theorem v13_apply (c : Dev nD) (o : Fin 64) : (V3 m ρ c main_v13 : S1x64.Idx → EReal) (ix2 0 o) = Cert.Spec.mean (feK m c) (npK m c) (coK m c) (weK m c) o := by
  rw [V3_v13, shapeCast_a_1a_apply, meanVec_apply]
theorem v14_apply (c : Dev nD) (o : Fin 64) : (V3 m ρ c main_v14 : S1x64.Idx → EReal) (ix2 0 o) = Cert.Spec.varK (feK m c) (npK m c) (coK m c) (weK m c) o := by
  rw [V3_v14, shapeCast_a_1a_apply]
  unfold Cert.Spec.varK
  show Ideal.div (shapeCast S64 (V2 m ρ c main_v4_1 : S1x64.Idx → EReal) shapeCasts_S1x64_S64 (ix1 o)) (broadcastInDim S64 ![] bcast_S_S64 (constant (F := Ideal) S_ .f32 0x4A371B00#32) (ix1 o)) - meanVec m ρ c (ix1 o) * meanVec m ρ c (ix1 o) = _
  rw [shapeCast_1a_a_apply, cnt_apply, (sums_eq m ρ c o).2, meanVec_apply]
theorem v2_apply (c : Dev nD) (o : Fin 64) : (V3 m ρ c main_v2 : S1x64.Idx → EReal) (ix2 0 o) = gaK m c o := by
  rw [V3_v2, V1_v2, shapeCast_a_1a_apply]
theorem v3_apply (c : Dev nD) (o : Fin 64) : (V3 m ρ c main_v3 : S1x64.Idx → EReal) (ix2 0 o) = beK m c o := by
  rw [V3_v3, V1_v3, shapeCast_a_1a_apply]

/-- THE RESULT: the specification's output (kernel form of the variance) of the arguments as launched. -/
theorem result_eq (c : Dev nD) :
    (W4 m ρ c (Proc.devRef .tc main_v15) : S30000x64.Idx → EReal)
      = fun j => Cert.Spec.outK (feK m c) (npK m c) (coK m c) (weK m c) (gaK m c) (beK m c) ⟨(j 0).val, idx2_lt0 j⟩ ⟨(j 1).val, idx2_lt1 j⟩ := by
  rw [W4_v15, final1 (V3 m ρ) payO c]
  funext j
  unfold G1 OUT1 Cert.Spec.outK Cert.Spec.outOf
  refine congrArg (fun (g : Fin 100 → EReal) => (Finset.univ : Finset (Fin 100)).fold max (Ideal.ofBits .f32 0xFF800000#32) g) (funext fun n => ?_)
  rw [LINV3, v13_apply, v14_apply, v2_apply, v3_apply]

end Cert.KernelIdeal.Hand

end
-- ==== Proof.RefSpec.lean ====
/-
  The reference program's result is the specification with the variance taken as the mean of the squared
  deviations: the value the reference's run states for its result buffer, read at (pillar, channel), equals
  `Cert.Spec.outR` of the argument arrays read by coordinates. No hypothesis on the arrays.

  The generated module reads each operation at an index; the three kinds it leaves are read here: a
  concatenation along the channel axis (by the piece an index falls in), the sums over pillars and points
  into the 64 channels (as a double sum, through the coordinates of a rank-3 index set), and the maximum
  over a pillar's points (as the fold of `max` over the point axis).
-/
import proofs.«150693_j22273700397341_2_alg».proof.Proof.Gen.ReferenceIdeal.Read
import proofs.«150693_j22273700397341_2_alg».proof.Proof.Spec

noncomputable section

open scoped BigOperators

namespace Cert.RefSpec

open Cert.ReferenceIdeal Cert.ReferenceIdeal.Read Idealize.ShloMosaic Idealize.ShloMosaic.ValueIdx
open Idealize.ShloMosaic.TcCoe Idealize.SL.Sem
open Cert.ReferenceIdeal.Facts₀

/-! ## A sum over a rank-3 index set, by coordinates (generic extents: nothing here computes with them) -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun q := ix3 q.1 q.2.1 q.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum over the indices whose last coordinate is `o` (a predicate `P` that says so) is the double sum over the
    first two coordinates. -/
theorem sum_filter_last {M : Type*} [AddCommMonoid M] {n0 n1 n2 : Nat} (x : (⟨3, ![n0, n1, n2]⟩ : Shape).Idx → M)
    (P : (⟨3, ![n0, n1, n2]⟩ : Shape).Idx → Prop) [DecidablePred P] (o : Fin n2)
    (hP : ∀ a b c, P (ix3 a b c) ↔ c = o) :
    ∑ i ∈ Finset.univ.filter P, x i = ∑ a : Fin n0, ∑ b : Fin n1, x (ix3 a b o) := by
  rw [Finset.sum_filter, sum_idx3]
  refine Finset.sum_congr rfl fun a _ => Finset.sum_congr rfl fun b _ => ?_
  simp only [hP]
  rw [Finset.sum_ite_eq']
  simp

variable [Cert.ReferenceIdeal.Facts]

/-! ## The argument arrays as curried functions of their coordinates -/

/-- The point array by (pillar, point, channel). -/
abbrev fe (x0 : (⟨S30000x100x4, .f32⟩ : BufTy).Contents (Elt Ideal)) : Fin 30000 → Fin 100 → Fin 4 → EReal := fun p n k => x0 (ix3 p n k)
/-- The valid counts by pillar. -/
abbrev np (x1 : (⟨S30000, .i32⟩ : BufTy).Contents (Elt Ideal)) : Fin 30000 → BitVec 32 := fun p => x1 (ix1 p)
/-- The pillar coordinates by (pillar, column). -/
abbrev co (x2 : (⟨S30000x4, .i32⟩ : BufTy).Contents (Elt Ideal)) : Fin 30000 → Fin 4 → BitVec 32 := fun p c => x2 (ix2 p c)
/-- The weights by (output channel, input channel). -/
abbrev we (x3 : (⟨S64x9, .f32⟩ : BufTy).Contents (Elt Ideal)) : Fin 64 → Fin 9 → EReal := fun o i => x3 (ix2 o i)
/-- A per-channel vector by channel. -/
abbrev ch (x : (⟨S64, .f32⟩ : BufTy).Contents (Elt Ideal)) : Fin 64 → EReal := fun o => x (ix1 o)

/-! ## The nine channels -/

/-- The offset of raw channel `jj` from the pillar's mean. -/
theorem v9_at (x0 : (⟨S30000x100x4, .f32⟩ : BufTy).Contents (Elt Ideal)) (x1 : (⟨S30000, .i32⟩ : BufTy).Contents (Elt Ideal))
    (p : Fin 30000) (n : Fin 100) (j : Fin 3) (jj : Fin 4) (hj : jj.val = j.val) :
    val_main_v9 (F := Ideal) x0 x1 (ix3 p n j)
      = x0 (ix3 p n jj) - Ideal.div (∑ k : Fin 100, x0 (ix3 p k jj)) (((x1 (ix1 p)).toInt : ℝ) : EReal) := by
  simp only [val_main_v9_apply, val_main_v7_apply, val_main_v8_apply, val_main_v6_apply, val_main_v3_apply, val_main_v2_apply,
    val_main_v1_apply, val_main_v5_apply, val_main_v4_apply, val_main_v0_apply, val_main_cst_apply]
  have e1 : idx_main_v7 (ix3 p n j) = ix3 p n jj := funext fun a => Fin.ext (by
    match a with | ⟨0, _⟩ => rfl | ⟨1, _⟩ => rfl | ⟨2, _⟩ => exact hj.symm)
  have e2 : ∀ k, idx_main_v1 (idx_main_v2 (idx_main_v3 (idx_main_v8 (ix3 p n j))) k) = ix3 p k jj := fun k => funext fun a => Fin.ext (by
    match a with | ⟨0, _⟩ => rfl | ⟨1, _⟩ => rfl | ⟨2, _⟩ => exact hj.symm)
  have e3 : idx_main_v4 (idx_main_v5 (idx_main_v8 (ix3 p n j))) = ix1 p := funext fun a => Fin.ext (by
    match a with | ⟨0, _⟩ => rfl)
  simp only [e1, e2, e3, Ideal.subf_def, Ideal.hostDivf_def, Ideal.ofBits_def, Ideal.ofBits_zero_f32, zero_add]
  rfl

/-- The x offset from the pillar's centre. -/
theorem v25_at (x0 : (⟨S30000x100x4, .f32⟩ : BufTy).Contents (Elt Ideal)) (x2 : (⟨S30000x4, .i32⟩ : BufTy).Contents (Elt Ideal)) (p : Fin 30000) (n : Fin 100) :
    val_main_v25 (F := Ideal) x0 x2 (ix2 p n)
      = x0 (ix3 p n 0) - ((((x2 (ix2 p 3)).toInt : ℝ) : EReal) * Ideal.ofBits .f32 0x3E23D70A#32 + Ideal.ofBits .f32 0x3DA3D70A#32) := by
  simp only [val_main_v25_apply, val_main_v19_apply, val_main_v18_apply, val_main_v24_apply, val_main_v23_apply, val_main_v21_apply,
    val_main_v13_apply, val_main_v12_apply, val_main_v11_apply, val_main_v10_apply, val_main_v20_apply, val_main_cst_0_apply,
    val_main_v22_apply, val_main_cst_1_apply]
  have e1 : idx_main_v18 (idx_main_v19 (ix2 p n)) = ix3 p n 0 := funext fun a => Fin.ext (by
    match a with
    | ⟨0, _⟩ => show (p.val * 100 + n.val) / 100 = p.val; omega
    | ⟨1, _⟩ => show (p.val * 100 + n.val) / 1 % 100 = n.val; omega
    | ⟨2, _⟩ => rfl)
  have e2 : idx_main_v10 (idx_main_v11 (idx_main_v13 (idx_main_v24 (ix2 p n)))) = ix2 p 3 := funext fun a => Fin.ext (by
    match a with
    | ⟨0, _⟩ => show p.val / 1 = p.val; omega
    | ⟨1, _⟩ => rfl)
  simp only [e1, e2, Ideal.subf_def, Ideal.mulf_def, Ideal.addf_def, Ideal.ofBits_def]
  rfl

/-- The y offset from the pillar's centre. -/
theorem v33_at (x0 : (⟨S30000x100x4, .f32⟩ : BufTy).Contents (Elt Ideal)) (x2 : (⟨S30000x4, .i32⟩ : BufTy).Contents (Elt Ideal)) (p : Fin 30000) (n : Fin 100) :
    val_main_v33 (F := Ideal) x0 x2 (ix2 p n)
      = x0 (ix3 p n 1) - ((((x2 (ix2 p 2)).toInt : ℝ) : EReal) * Ideal.ofBits .f32 0x3E23D70A#32 + Ideal.ofBits .f32 0xC21E6666#32) := by
  simp only [val_main_v33_apply, val_main_v27_apply, val_main_v26_apply, val_main_v32_apply, val_main_v31_apply, val_main_v29_apply,
    val_main_v17_apply, val_main_v16_apply, val_main_v15_apply, val_main_v14_apply, val_main_v28_apply, val_main_cst_2_apply,
    val_main_v30_apply, val_main_cst_3_apply]
  have e1 : idx_main_v26 (idx_main_v27 (ix2 p n)) = ix3 p n 1 := funext fun a => Fin.ext (by
    match a with
    | ⟨0, _⟩ => show (p.val * 100 + n.val) / 100 = p.val; omega
    | ⟨1, _⟩ => show (p.val * 100 + n.val) / 1 % 100 = n.val; omega
    | ⟨2, _⟩ => rfl)
  have e2 : idx_main_v14 (idx_main_v15 (idx_main_v17 (idx_main_v32 (ix2 p n)))) = ix2 p 2 := funext fun a => Fin.ext (by
    match a with
    | ⟨0, _⟩ => show p.val / 1 = p.val; omega
    | ⟨1, _⟩ => rfl)
  simp only [e1, e2, Ideal.subf_def, Ideal.mulf_def, Ideal.addf_def, Ideal.ofBits_def]
  rfl

/-- The two centre offsets joined: column 0 is the x offset … -/
theorem v36_at0 (x0 : (⟨S30000x100x4, .f32⟩ : BufTy).Contents (Elt Ideal)) (x2 : (⟨S30000x4, .i32⟩ : BufTy).Contents (Elt Ideal)) (p : Fin 30000) (n : Fin 100) :
    val_main_v36 (F := Ideal) x0 x2 (ix3 p n 0) = val_main_v25 (F := Ideal) x0 x2 (ix2 p n) := by
  unfold val_main_v36
  rw [concatenate_pair_apply_left (2 : Fin S30000x100x2.rank) _ _ concatenates_S30000x100x1_S30000x100x1_S30000x100x2_d2
    (ix3 p n 0) rfl (ix3 p n 0) (fun b => by match b with | ⟨0, _⟩ => rfl | ⟨1, _⟩ => rfl | ⟨2, _⟩ => rfl)]
  rw [val_main_v34_apply]
  exact congrArg _ (funext fun a => Fin.ext (by match a with | ⟨0, _⟩ => rfl | ⟨1, _⟩ => rfl))

/-- … and column 1 the y offset. -/
theorem v36_at1 (x0 : (⟨S30000x100x4, .f32⟩ : BufTy).Contents (Elt Ideal)) (x2 : (⟨S30000x4, .i32⟩ : BufTy).Contents (Elt Ideal)) (p : Fin 30000) (n : Fin 100) :
    val_main_v36 (F := Ideal) x0 x2 (ix3 p n 1) = val_main_v33 (F := Ideal) x0 x2 (ix2 p n) := by
  unfold val_main_v36
  rw [concatenate_pair_apply_right (2 : Fin S30000x100x2.rank) _ _ concatenates_S30000x100x1_S30000x100x1_S30000x100x2_d2
    (ix3 p n 1) rfl rfl (ix3 p n 0)
    (fun b hb => by match b with | ⟨0, _⟩ => rfl | ⟨1, _⟩ => rfl | ⟨2, _⟩ => exact absurd rfl hb) rfl]
  rw [val_main_v35_apply]
  exact congrArg _ (funext fun a => Fin.ext (by match a with | ⟨0, _⟩ => rfl | ⟨1, _⟩ => rfl))

/-- The nine channels joined: positions 0 to 3 are the raw channels … -/
theorem v37_at0 (x0 : (⟨S30000x100x4, .f32⟩ : BufTy).Contents (Elt Ideal)) (x1 : (⟨S30000, .i32⟩ : BufTy).Contents (Elt Ideal)) (x2 : (⟨S30000x4, .i32⟩ : BufTy).Contents (Elt Ideal)) (p : Fin 30000) (n : Fin 100) (i : Fin 9) (i4 : Fin 4) (h : i.val = i4.val) :
    val_main_v37 (F := Ideal) x0 x1 x2 (ix3 p n i) = x0 (ix3 p n i4) := by
  unfold val_main_v37
  exact concatenate_apply_piece (2 : Fin S30000x100x9.rank) [⟨S30000x100x4, x0⟩, ⟨S30000x100x3, val_main_v9 (F := Ideal) x0 x1⟩, ⟨S30000x100x2, val_main_v36 (F := Ideal) x0 x2⟩] concatenates_S30000x100x4_S30000x100x3_S30000x100x2_S30000x100x9_d2
    (ix3 p n i) 0 (by show (0 : Nat) < 3; omega) S30000x100x4 x0 rfl rfl 0 rfl (ix3 p n i4)
    (fun b hb => by match b with | ⟨0, _⟩ => rfl | ⟨1, _⟩ => rfl | ⟨2, _⟩ => exact absurd rfl hb)
    (by show 0 + i4.val = i.val; omega)

/-- … positions 4 to 6 the offsets from the mean … -/
theorem v37_at1 (x0 : (⟨S30000x100x4, .f32⟩ : BufTy).Contents (Elt Ideal)) (x1 : (⟨S30000, .i32⟩ : BufTy).Contents (Elt Ideal)) (x2 : (⟨S30000x4, .i32⟩ : BufTy).Contents (Elt Ideal)) (p : Fin 30000) (n : Fin 100) (i : Fin 9) (j : Fin 3) (h : i.val = 4 + j.val) :
    val_main_v37 (F := Ideal) x0 x1 x2 (ix3 p n i) = val_main_v9 (F := Ideal) x0 x1 (ix3 p n j) := by
  unfold val_main_v37
  exact concatenate_apply_piece (2 : Fin S30000x100x9.rank) [⟨S30000x100x4, x0⟩, ⟨S30000x100x3, val_main_v9 (F := Ideal) x0 x1⟩, ⟨S30000x100x2, val_main_v36 (F := Ideal) x0 x2⟩] concatenates_S30000x100x4_S30000x100x3_S30000x100x2_S30000x100x9_d2
    (ix3 p n i) 1 (by show (1 : Nat) < 3; omega) S30000x100x3 (val_main_v9 (F := Ideal) x0 x1) rfl rfl 4 rfl (ix3 p n j)
    (fun b hb => by match b with | ⟨0, _⟩ => rfl | ⟨1, _⟩ => rfl | ⟨2, _⟩ => exact absurd rfl hb)
    (by show 4 + j.val = i.val; omega)

/-- … and positions 7 and 8 the offsets from the centre. -/
theorem v37_at2 (x0 : (⟨S30000x100x4, .f32⟩ : BufTy).Contents (Elt Ideal)) (x1 : (⟨S30000, .i32⟩ : BufTy).Contents (Elt Ideal)) (x2 : (⟨S30000x4, .i32⟩ : BufTy).Contents (Elt Ideal)) (p : Fin 30000) (n : Fin 100) (i : Fin 9) (c : Fin 2) (h : i.val = 7 + c.val) :
    val_main_v37 (F := Ideal) x0 x1 x2 (ix3 p n i) = val_main_v36 (F := Ideal) x0 x2 (ix3 p n c) := by
  unfold val_main_v37
  exact concatenate_apply_piece (2 : Fin S30000x100x9.rank) [⟨S30000x100x4, x0⟩, ⟨S30000x100x3, val_main_v9 (F := Ideal) x0 x1⟩, ⟨S30000x100x2, val_main_v36 (F := Ideal) x0 x2⟩] concatenates_S30000x100x4_S30000x100x3_S30000x100x2_S30000x100x9_d2
    (ix3 p n i) 2 (by show (2 : Nat) < 3; omega) S30000x100x2 (val_main_v36 (F := Ideal) x0 x2) rfl rfl 7 rfl (ix3 p n c)
    (fun b hb => by match b with | ⟨0, _⟩ => rfl | ⟨1, _⟩ => rfl | ⟨2, _⟩ => exact absurd rfl hb)
    (by show 7 + c.val = i.val; omega)

/-- The padding mask spread over the nine channels. -/
theorem v46_at (x1 : (⟨S30000, .i32⟩ : BufTy).Contents (Elt Ideal)) (p : Fin 30000) (n : Fin 100) (i : Fin 9) :
    val_main_v46 (F := Ideal) x1 (ix3 p n i) = Cert.Spec.mask (np x1) p n := by
  simp only [val_main_v46_apply, val_main_v45_apply, val_main_v44_apply, val_main_v43_apply, val_main_v41_apply, val_main_v39_apply,
    val_main_v38_apply, val_main_v42_apply, val_main_v40_apply]
  have e1 : idx_main_v40 (idx_main_v42 (idx_main_v45 (idx_main_v46 (ix3 p n i)))) = ix1 p := funext fun a => Fin.ext (by
    match a with | ⟨0, _⟩ => rfl)
  rw [e1]
  rfl

/-- The masked channels are the specification's. -/
theorem v47_at (x0 : (⟨S30000x100x4, .f32⟩ : BufTy).Contents (Elt Ideal)) (x1 : (⟨S30000, .i32⟩ : BufTy).Contents (Elt Ideal)) (x2 : (⟨S30000x4, .i32⟩ : BufTy).Contents (Elt Ideal)) (p : Fin 30000) (n : Fin 100) (i : Fin 9) :
    val_main_v47 (F := Ideal) x0 x1 x2 (ix3 p n i) = Cert.Spec.feat (fe x0) (np x1) (co x2) p n i := by
  rw [val_main_v47_apply, v46_at, Ideal.mulf_def]
  unfold Cert.Spec.feat
  refine congrArg (· * _) ?_
  match i with
  | ⟨0, _⟩ => exact v37_at0 x0 x1 x2 p n _ 0 rfl
  | ⟨1, _⟩ => exact v37_at0 x0 x1 x2 p n _ 1 rfl
  | ⟨2, _⟩ => exact v37_at0 x0 x1 x2 p n _ 2 rfl
  | ⟨3, _⟩ => exact v37_at0 x0 x1 x2 p n _ 3 rfl
  | ⟨4, _⟩ => exact (v37_at1 x0 x1 x2 p n _ 0 rfl).trans (v9_at x0 x1 p n 0 0 rfl)
  | ⟨5, _⟩ => exact (v37_at1 x0 x1 x2 p n _ 1 rfl).trans (v9_at x0 x1 p n 1 1 rfl)
  | ⟨6, _⟩ => exact (v37_at1 x0 x1 x2 p n _ 2 rfl).trans (v9_at x0 x1 p n 2 2 rfl)
  | ⟨7, _⟩ => exact (v37_at2 x0 x1 x2 p n _ 0 rfl).trans ((v36_at0 x0 x2 p n).trans (v25_at x0 x2 p n))
  | ⟨8, _⟩ => exact (v37_at2 x0 x1 x2 p n _ 1 rfl).trans ((v36_at1 x0 x2 p n).trans (v33_at x0 x2 p n))

/-! ## The linear map -/

theorem v48_at (x0 : (⟨S30000x100x4, .f32⟩ : BufTy).Contents (Elt Ideal)) (x1 : (⟨S30000, .i32⟩ : BufTy).Contents (Elt Ideal)) (x2 : (⟨S30000x4, .i32⟩ : BufTy).Contents (Elt Ideal)) (x3 : (⟨S64x9, .f32⟩ : BufTy).Contents (Elt Ideal)) (p : Fin 30000) (n : Fin 100) (o : Fin 64) :
    val_main_v48 (F := Ideal) x0 x1 x2 x3 (ix3 p n o) = Cert.Spec.lin (fe x0) (np x1) (co x2) (we x3) p n o := by
  rw [val_main_v48_apply]
  unfold Cert.Spec.lin Cert.Spec.linP
  refine Finset.sum_congr rfl fun k _ => ?_
  have e1 : lidx_main_v48 (ix3 p n o) k = ix3 p n k := funext fun a => Fin.ext (by
    match a with | ⟨0, _⟩ => rfl | ⟨1, _⟩ => rfl | ⟨2, _⟩ => rfl)
  have e2 : ridx_main_v48 (ix3 p n o) k = ix2 o k := funext fun a => Fin.ext (by
    match a with | ⟨0, _⟩ => rfl | ⟨1, _⟩ => rfl)
  rw [e1, e2, v47_at]
  rfl

/-! ## A sum over the pillars and the points, channel by channel -/

/-- The sum over axes 0 and 1 of a [30000, 100, 64] array, at channel `o`: the initial value plus the double sum. -/
theorem sum01_at (x : S30000x100x64.Idx → EReal) (init : EReal) (o : Fin 64) :
    Ideal.hostReduceAdd reducesTo_S30000x100x64_S64_d0_1 x init (ix1 o)
      = init + ∑ p : Fin 30000, ∑ n : Fin 100, x (ix3 p n o) := by
  unfold Ideal.hostReduceAdd
  refine congrArg (init + ·) ?_
  have hd : ∀ i : S30000x100x64.Idx, ((reducesTo_S30000x100x64_S64_d0_1.drop i (0 : Fin S64.rank) : Nat)) = (i 2).val :=
    fun i => Shape.ReducesTo.drop_apply_val_of_eq reducesTo_S30000x100x64_S64_d0_1 i 0 2
  refine sum_filter_last x _ o fun a b c => ⟨fun h => ?_, fun h => ?_⟩
  · have hj := congrArg (fun j : S64.Idx => (j 0).val) h
    exact Fin.ext ((hd (ix3 a b c)).symm.trans hj)
  · subst h
    refine funext fun d => Fin.ext ?_
    match d with
    | ⟨0, _⟩ => exact hd _

/-! ## The totals, the mean, the variance -/

theorem v49_at (x0 : (⟨S30000x100x4, .f32⟩ : BufTy).Contents (Elt Ideal)) (x1 : (⟨S30000, .i32⟩ : BufTy).Contents (Elt Ideal)) (x2 : (⟨S30000x4, .i32⟩ : BufTy).Contents (Elt Ideal)) (x3 : (⟨S64x9, .f32⟩ : BufTy).Contents (Elt Ideal)) (o : Fin 64) :
    val_main_v49 (F := Ideal) x0 x1 x2 x3 (ix1 o) = Cert.Spec.tot (fe x0) (np x1) (co x2) (we x3) o := by
  unfold val_main_v49
  simp only [Host.reduceAdd, Ideal.hostReduceAdd_def]
  rw [sum01_at, val_main_cst_4_apply, Ideal.ofBits_def, Ideal.ofBits_zero_f32, zero_add]
  unfold Cert.Spec.tot
  exact Finset.sum_congr rfl fun p _ => Finset.sum_congr rfl fun n _ => v48_at x0 x1 x2 x3 p n o

theorem v51_at (x0 : (⟨S30000x100x4, .f32⟩ : BufTy).Contents (Elt Ideal)) (x1 : (⟨S30000, .i32⟩ : BufTy).Contents (Elt Ideal)) (x2 : (⟨S30000x4, .i32⟩ : BufTy).Contents (Elt Ideal)) (x3 : (⟨S64x9, .f32⟩ : BufTy).Contents (Elt Ideal)) (o : Fin 64) :
    val_main_v51 (F := Ideal) x0 x1 x2 x3 (ix1 o) = Cert.Spec.mean (fe x0) (np x1) (co x2) (we x3) o := by
  rw [val_main_v51_apply, v49_at, val_main_v50_apply, val_main_cst_5_apply, Ideal.hostDivf_def, Ideal.ofBits_def]
  rfl

/-- The deviation from the mean (the program forms it twice). -/
theorem v54_at (x0 : (⟨S30000x100x4, .f32⟩ : BufTy).Contents (Elt Ideal)) (x1 : (⟨S30000, .i32⟩ : BufTy).Contents (Elt Ideal)) (x2 : (⟨S30000x4, .i32⟩ : BufTy).Contents (Elt Ideal)) (x3 : (⟨S64x9, .f32⟩ : BufTy).Contents (Elt Ideal)) (p : Fin 30000) (n : Fin 100) (o : Fin 64) :
    val_main_v54 (F := Ideal) x0 x1 x2 x3 (ix3 p n o)
      = Cert.Spec.lin (fe x0) (np x1) (co x2) (we x3) p n o - Cert.Spec.mean (fe x0) (np x1) (co x2) (we x3) o := by
  rw [val_main_v54_apply, val_main_v53_apply, val_main_v52_apply, v48_at, Ideal.subf_def]
  have e : idx_main_v52 (idx_main_v53 (ix3 p n o)) = ix1 o := funext fun a => Fin.ext (by
    match a with | ⟨0, _⟩ => rfl)
  rw [e, v51_at]

theorem v61_at (x0 : (⟨S30000x100x4, .f32⟩ : BufTy).Contents (Elt Ideal)) (x1 : (⟨S30000, .i32⟩ : BufTy).Contents (Elt Ideal)) (x2 : (⟨S30000x4, .i32⟩ : BufTy).Contents (Elt Ideal)) (x3 : (⟨S64x9, .f32⟩ : BufTy).Contents (Elt Ideal)) (p : Fin 30000) (n : Fin 100) (o : Fin 64) :
    val_main_v61 (F := Ideal) x0 x1 x2 x3 (ix3 p n o)
      = Cert.Spec.lin (fe x0) (np x1) (co x2) (we x3) p n o - Cert.Spec.mean (fe x0) (np x1) (co x2) (we x3) o := by
  rw [val_main_v61_apply, val_main_v60_apply, val_main_v59_apply, v48_at, Ideal.subf_def]
  have e : idx_main_v59 (idx_main_v60 (ix3 p n o)) = ix1 o := funext fun a => Fin.ext (by
    match a with | ⟨0, _⟩ => rfl)
  rw [e, v51_at]

theorem v58_at (x0 : (⟨S30000x100x4, .f32⟩ : BufTy).Contents (Elt Ideal)) (x1 : (⟨S30000, .i32⟩ : BufTy).Contents (Elt Ideal)) (x2 : (⟨S30000x4, .i32⟩ : BufTy).Contents (Elt Ideal)) (x3 : (⟨S64x9, .f32⟩ : BufTy).Contents (Elt Ideal)) (o : Fin 64) :
    val_main_v58 (F := Ideal) x0 x1 x2 x3 (ix1 o) = Cert.Spec.varR (fe x0) (np x1) (co x2) (we x3) o := by
  rw [val_main_v58_apply, val_main_v57_apply, val_main_cst_7_apply, Ideal.hostDivf_def, Ideal.ofBits_def]
  unfold val_main_v56
  simp only [Host.reduceAdd, Ideal.hostReduceAdd_def]
  rw [sum01_at, val_main_cst_6_apply, Ideal.ofBits_def, Ideal.ofBits_zero_f32, zero_add]
  have hs : (∑ p : Fin 30000, ∑ n : Fin 100, val_main_v55 (F := Ideal) x0 x1 x2 x3 (ix3 p n o))
      = ∑ p : Fin 30000, ∑ n : Fin 100,
          (Cert.Spec.lin (fe x0) (np x1) (co x2) (we x3) p n o - Cert.Spec.mean (fe x0) (np x1) (co x2) (we x3) o) * (Cert.Spec.lin (fe x0) (np x1) (co x2) (we x3) p n o - Cert.Spec.mean (fe x0) (np x1) (co x2) (we x3) o) :=
    Finset.sum_congr rfl fun p _ => Finset.sum_congr rfl fun n _ => by
      rw [val_main_v55_apply, v54_at, Ideal.mulf_def]
  rw [hs]
  rfl

/-! ## The normalised entry and the maximum over the points -/

theorem v74_at (x0 : (⟨S30000x100x4, .f32⟩ : BufTy).Contents (Elt Ideal)) (x1 : (⟨S30000, .i32⟩ : BufTy).Contents (Elt Ideal)) (x2 : (⟨S30000x4, .i32⟩ : BufTy).Contents (Elt Ideal)) (x3 : (⟨S64x9, .f32⟩ : BufTy).Contents (Elt Ideal)) (x4 x5 : (⟨S64, .f32⟩ : BufTy).Contents (Elt Ideal)) (p : Fin 30000) (n : Fin 100) (o : Fin 64) :
    val_main_v74 (F := Ideal) x0 x1 x2 x3 x4 x5 (ix3 p n o)
      = Cert.Spec.normP (Cert.Spec.lin (fe x0) (np x1) (co x2) (we x3) p n o) (Cert.Spec.mean (fe x0) (np x1) (co x2) (we x3) o) (Cert.Spec.varR (fe x0) (np x1) (co x2) (we x3) o) (x4 (ix1 o)) (x5 (ix1 o)) := by
  rw [val_main_v74_apply, val_main_v73_apply, val_main_v70_apply, val_main_v67_apply, v61_at,
    val_main_v66_apply, val_main_v65_apply, val_main_v69_apply, val_main_v68_apply, val_main_v72_apply, val_main_v71_apply,
    val_main_call0_v0_apply, val_main_call0_cst_apply]
  have e1 : idx_main_v65 (idx_main_v66 (ix3 p n o)) = ix1 o := funext fun a => Fin.ext (by
    match a with | ⟨0, _⟩ => rfl)
  have e2 : idx_main_v68 (idx_main_v69 (ix3 p n o)) = ix1 o := funext fun a => Fin.ext (by
    match a with | ⟨0, _⟩ => rfl)
  have e3 : idx_main_v71 (idx_main_v72 (ix3 p n o)) = ix1 o := funext fun a => Fin.ext (by
    match a with | ⟨0, _⟩ => rfl)
  rw [e1, e2, e3, val_main_v64_apply, val_main_v63_apply, v58_at, val_main_v62_apply, val_main_cst_8_apply]
  rfl

/-- **The reference's result is the specification with the variance as mean of squared deviations.** -/
theorem v75_at (x0 : (⟨S30000x100x4, .f32⟩ : BufTy).Contents (Elt Ideal)) (x1 : (⟨S30000, .i32⟩ : BufTy).Contents (Elt Ideal)) (x2 : (⟨S30000x4, .i32⟩ : BufTy).Contents (Elt Ideal)) (x3 : (⟨S64x9, .f32⟩ : BufTy).Contents (Elt Ideal)) (x4 x5 : (⟨S64, .f32⟩ : BufTy).Contents (Elt Ideal)) (p : Fin 30000) (o : Fin 64) :
    val_main_v75 (F := Ideal) x0 x1 x2 x3 x4 x5 (ix2 p o)
      = Cert.Spec.outR (fe x0) (np x1) (co x2) (we x3) (ch x4) (ch x5) p o := by
  unfold val_main_v75
  have hR : S30000x100x64.Reduces [(1 : Fin S30000x100x64.rank)] S30000x64 := by decide
  rw [Host.reduce_eq_fold_single FloatOps.maximumf _ _ reducesTo_S30000x100x64_S30000x64_d1 hR h_S_ (ix2 p o)]
  unfold Cert.Spec.outR Cert.Spec.outOf
  rw [val_main_cst_9_apply, Ideal.ofBits_def]
  refine Finset.fold_congr fun n _ => ?_
  have e : hR.lift (ix2 p o) n = ix3 p n o := funext fun c => Fin.ext (by
    match c with | ⟨0, _⟩ => rfl | ⟨1, _⟩ => rfl | ⟨2, _⟩ => rfl)
  exact (congrArg (val_main_v74 (F := Ideal) x0 x1 x2 x3 x4 x5) e).trans (v74_at x0 x1 x2 x3 x4 x5 p n o)

/-- The same as an equation of whole arrays. -/
theorem ref_eq_outR (x0 : (⟨S30000x100x4, .f32⟩ : BufTy).Contents (Elt Ideal)) (x1 : (⟨S30000, .i32⟩ : BufTy).Contents (Elt Ideal)) (x2 : (⟨S30000x4, .i32⟩ : BufTy).Contents (Elt Ideal)) (x3 : (⟨S64x9, .f32⟩ : BufTy).Contents (Elt Ideal)) (x4 x5 : (⟨S64, .f32⟩ : BufTy).Contents (Elt Ideal)) :
    val_main_v75 (F := Ideal) x0 x1 x2 x3 x4 x5
      = fun j => Cert.Spec.outR (fe x0) (np x1) (co x2) (we x3) (ch x4) (ch x5) (j 0) (j 1) := by
  funext j
  obtain ⟨p, o, rfl⟩ : ∃ (p : Fin 30000) (o : Fin 64), j = ix2 p o := ⟨j 0, j 1, eq_ix2 j⟩
  exact v75_at x0 x1 x2 x3 x4 x5 p o

/-- The run's result term is the specification of the launch memory's argument arrays. -/
theorem res_eq_outR (m : (ℓ : Loc nD τ sig) → Buf (Elt Ideal) ℓ) (c : Dev nD) :
    Cert.ReferenceIdeal.Value.res_main_v75 m c
      = fun j => Cert.Spec.outR (fe (m ((c.tc : Thread nD τ).loc main_arg0))) (np (m ((c.tc : Thread nD τ).loc main_arg1)))
          (co (m ((c.tc : Thread nD τ).loc main_arg2))) (we (m ((c.tc : Thread nD τ).loc main_arg3)))
          (ch (m ((c.tc : Thread nD τ).loc main_arg4))) (ch (m ((c.tc : Thread nD τ).loc main_arg5))) (j 0) (j 1) :=
  (val_main_v75_eq m c).trans (ref_eq_outR _ _ _ _ _ _)

end Cert.RefSpec

end
-- ==== Proof.SpecLaw.lean ====
/-
  The law between the two variances. On the extended reals "mean of squares minus squared mean" and "mean of
  squared deviations" agree as soon as every output of the linear map is a real and the divisor is the number
  of terms. The masked channels are reals whenever the point entries are, WHATEVER the integer inputs are:
  where the padding mask is 0 the product is 0 (on the extended reals x * 0 = 0 for every x, infinite too),
  and where it is 1 the row number, which is nonnegative, is below the valid count, so the count is at least 1
  and the division by it is a division by a nonzero real. The count word 0x4A371B00 is exactly 3 000 000,
  the number of (pillar, point) pairs.
-/
import proofs.«150693_j22273700397341_2_alg».proof.Proof.Spec
import Idealize.ShloMosaic.PureOps.Ideal.Laws

noncomputable section

open scoped BigOperators

namespace Cert.Spec

open Idealize.ShloMosaic

/-! ## Extended reals that are reals -/

/-- An extended real that is (the coercion of) a real. -/
def IsReal (a : EReal) : Prop := ∃ r : ℝ, a = (r : EReal)

theorem IsReal.coe (r : ℝ) : IsReal (r : EReal) := ⟨r, rfl⟩
theorem IsReal.zero : IsReal 0 := ⟨0, rfl⟩
theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.sub {a b : EReal} (ha : IsReal a) (hb : IsReal b) : IsReal (a - b) := by
  obtain ⟨r, rfl⟩ := ha; obtain ⟨s, rfl⟩ := hb; exact ⟨r - s, (EReal.coe_sub r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.sum_finset {ι : Type*} (s : Finset ι) (f : ι → EReal) (h : ∀ i, IsReal (f i)) : IsReal (∑ i ∈ s, f i) := by
  induction s using Finset.cons_induction with
  | empty => exact ⟨0, by simp⟩
  | cons a s ha ih => rw [Finset.sum_cons]; exact (h a).add ih
theorem IsReal.sum {ι : Type*} [Fintype ι] (f : ι → EReal) (h : ∀ i, IsReal (f i)) : IsReal (∑ i, f i) :=
  IsReal.sum_finset _ f h
/-- A real divided by a nonzero real. -/
theorem IsReal.div {a : EReal} (ha : IsReal a) {y : ℝ} (hy : y ≠ 0) : IsReal (Ideal.div a (y : EReal)) := by
  obtain ⟨r, rfl⟩ := ha
  rw [Ideal.div_coe hy]
  exact ⟨r * (1 / y), (EReal.coe_mul _ _).symm⟩

/-- The coercion of a finite sum of reals is the sum of the coercions. -/
theorem coe_sum_finset {ι : Type*} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-! ## The literal words -/

/-- An f32 word whose exponent field is not all ones denotes a real. -/
theorem isReal_ofBits_f32 (b : BitVec 32) (h : (b.extractLsb' 23 8).toNat ≠ 2 ^ 8 - 1) : IsReal (Ideal.ofBits .f32 b) := by
  show IsReal (Ideal.ieee 8 23 b)
  unfold Ideal.ieee
  simp only []
  rw [if_neg h]
  split_ifs <;> exact ⟨_, rfl⟩

theorem isReal_lit016 : IsReal (Ideal.ofBits .f32 0x3E23D70A#32) := isReal_ofBits_f32 _ (by decide)
theorem isReal_lit008 : IsReal (Ideal.ofBits .f32 0x3DA3D70A#32) := isReal_ofBits_f32 _ (by decide)
theorem isReal_lit396 : IsReal (Ideal.ofBits .f32 0xC21E6666#32) := isReal_ofBits_f32 _ (by decide)

/-- The count word is 3 000 000. -/
theorem cnt_eq : cnt = ((3000000 : ℝ) : EReal) := by
  unfold cnt
  simp [Ideal.ofBits, Ideal.ieee]
  rw [← EReal.coe_mul, EReal.coe_eq_coe_iff]
  norm_num

/-! ## The mask -/

/-- The mask is 0, or it is 1 and then the valid count is at least 1 (row numbers are nonnegative). -/
theorem maskP_cases (np : BitVec 32) (n : Fin 100) : maskP np n = 0 ∨ (maskP np n = 1 ∧ 1 ≤ np.toInt) := by
  unfold maskP IntOp.cmpi
  by_cases h : (BitVec.ofNat 32 n.val).slt np = true
  · right
    refine ⟨by simp [h], ?_⟩
    have hn : (BitVec.ofNat 32 n.val).toInt = (n.val : Int) := by
      have := n.isLt
      rw [BitVec.toInt_eq_toNat_cond, BitVec.toNat_ofNat]
      split_ifs <;> omega
    simp only [BitVec.slt, decide_eq_true_eq] at h
    rw [hn] at h
    omega
  · left
    simp [h]

/-! ## Finiteness -/

section Finite

variable (fp : Fin 100 → Fin 4 → EReal) (np : BitVec 32) (cp : Fin 4 → BitVec 32) (W : Fin 64 → Fin 9 → EReal)

/-- With a valid count of at least 1 the mean of a finite channel is finite. -/
theorem isReal_meanXyzP (hf : ∀ n k, IsReal (fp n k)) (h1 : 1 ≤ np.toInt) (j : Fin 4) : IsReal (meanXyzP fp np j) := by
  unfold meanXyzP npfP
  exact (IsReal.sum _ fun n => hf n j).div (by exact_mod_cast (by omega : np.toInt ≠ 0))

/-- With a valid count of at least 1 every channel is finite before masking. -/
theorem isReal_baseP (hf : ∀ n k, IsReal (fp n k)) (h1 : 1 ≤ np.toInt) (n : Fin 100) (i : Fin 9) : IsReal (baseP fp np cp n i) := by
  match i with
  | ⟨0, _⟩ => exact hf n 0
  | ⟨1, _⟩ => exact hf n 1
  | ⟨2, _⟩ => exact hf n 2
  | ⟨3, _⟩ => exact hf n 3
  | ⟨4, _⟩ => exact (hf n 0).sub (isReal_meanXyzP fp np hf h1 0)
  | ⟨5, _⟩ => exact (hf n 1).sub (isReal_meanXyzP fp np hf h1 1)
  | ⟨6, _⟩ => exact (hf n 2).sub (isReal_meanXyzP fp np hf h1 2)
  | ⟨7, _⟩ => exact (hf n 0).sub (((IsReal.coe _).mul isReal_lit016).add isReal_lit008)
  | ⟨8, _⟩ => exact (hf n 1).sub (((IsReal.coe _).mul isReal_lit016).add isReal_lit396)

/-- **The masked channels are finite whatever the integers are**: where the mask is 0 the product is 0 even if the
    channel is infinite; where it is 1 the valid count is at least 1 and the channel is finite. -/
theorem isReal_featP (hf : ∀ n k, IsReal (fp n k)) (n : Fin 100) (i : Fin 9) : IsReal (featP fp np cp n i) := by
  unfold featP
  rcases maskP_cases np n with h0 | ⟨h1, hn⟩
  · rw [h0, mul_zero]; exact IsReal.zero
  · rw [h1, mul_one]; exact isReal_baseP fp np cp hf hn n i

/-- So with finite weights the linear map's outputs are finite. -/
theorem isReal_linP (hf : ∀ n k, IsReal (fp n k)) (hW : ∀ o i, IsReal (W o i)) (n : Fin 100) (o : Fin 64) :
    IsReal (linP fp np cp W n o) := by
  unfold linP
  exact IsReal.sum _ fun i => (isReal_featP fp np cp hf n i).mul (hW o i)

end Finite

section FiniteArrays

variable (features : Fin 30000 → Fin 100 → Fin 4 → EReal) (npts : Fin 30000 → BitVec 32)
  (coords : Fin 30000 → Fin 4 → BitVec 32) (W : Fin 64 → Fin 9 → EReal)

theorem feat_finite (hf : ∀ p n k, ∃ r : ℝ, features p n k = (r : EReal)) (p : Fin 30000) (n : Fin 100) (i : Fin 9) :
    ∃ r : ℝ, feat features npts coords p n i = (r : EReal) :=
  isReal_featP (features p) (npts p) (coords p) (hf p) n i

theorem lin_finite (hf : ∀ p n k, ∃ r : ℝ, features p n k = (r : EReal)) (hW : ∀ o i, ∃ r : ℝ, W o i = (r : EReal))
    (p : Fin 30000) (n : Fin 100) (o : Fin 64) : ∃ r : ℝ, lin features npts coords W p n o = (r : EReal) :=
  isReal_linP (features p) (npts p) (coords p) W (hf p) hW n o

end FiniteArrays

/-! ## The variance identity over the reals -/

/-- Over a finite index set of `N` elements: the mean of the squares minus the squared mean is the mean of the
    squared deviations from the mean. -/
theorem var_identity {ι : Type*} [Fintype ι] (x : ι → ℝ) (N : ℝ) (hN : (Fintype.card ι : ℝ) = N) (hN0 : N ≠ 0) :
    (∑ i, x i * x i) * (1 / N) - (∑ i, x i) * (1 / N) * ((∑ i, x i) * (1 / N))
      = (∑ i, (x i - (∑ j, x j) * (1 / N)) * (x i - (∑ j, x j) * (1 / N))) * (1 / N) := by
  generalize hS : (∑ j, x j) = S
  generalize hm : S * (1 / N) = m
  have hD : ∑ i, (x i - m) * (x i - m) = (∑ i, x i * x i) - 2 * m * S + N * (m * m) := by
    have e : ∀ i, (x i - m) * (x i - m) = x i * x i - 2 * m * x i + m * m := fun i => by ring
    simp only [e]
    rw [Finset.sum_add_distrib, Finset.sum_sub_distrib, ← Finset.mul_sum, Finset.sum_const, Finset.card_univ, nsmul_eq_mul, hN, hS]
  rw [hD, ← hm]
  field_simp
  ring

/-- The same over two indices. -/
theorem var_identity2 {ι κ : Type*} [Fintype ι] [Fintype κ] (x : ι → κ → ℝ) (N : ℝ)
    (hN : (Fintype.card ι : ℝ) * (Fintype.card κ : ℝ) = N) (hN0 : N ≠ 0) :
    (∑ i, ∑ k, x i k * x i k) * (1 / N) - (∑ i, ∑ k, x i k) * (1 / N) * ((∑ i, ∑ k, x i k) * (1 / N))
      = (∑ i, ∑ k, (x i k - (∑ a, ∑ b, x a b) * (1 / N)) * (x i k - (∑ a, ∑ b, x a b) * (1 / N))) * (1 / N) := by
  have h := var_identity (fun q : ι × κ => x q.1 q.2) N (by rw [Fintype.card_prod]; push_cast; exact hN) hN0
  simpa only [Fintype.sum_prod_type] using h

/-- The coercion of a finite sum of reals is the sum of the coercions. -/
theorem coe_sum {ι : Type*} [Fintype ι] (f : ι → ℝ) : ((∑ i, f i : ℝ) : EReal) = ∑ i, (f i : EReal) :=
  coe_sum_finset _ f

/-! ## The two variances agree on finite inputs -/

section Law

variable (features : Fin 30000 → Fin 100 → Fin 4 → EReal) (npts : Fin 30000 → BitVec 32)
  (coords : Fin 30000 → Fin 4 → BitVec 32) (W : Fin 64 → Fin 9 → EReal) (gamma beta : Fin 64 → EReal)

/-- **Mean of squares minus squared mean = mean of squared deviations**, on the extended reals, when every point
    entry and every weight is a real (then every output of the linear map is a real, and the count is 3 000 000). -/
theorem varK_eq_varR (hf : ∀ p n k, ∃ r : ℝ, features p n k = (r : EReal)) (hW : ∀ o i, ∃ r : ℝ, W o i = (r : EReal)) :
    varK features npts coords W = varR features npts coords W := by
  funext o
  choose x hx using lin_finite features npts coords W hf hW
  have h3 : (3000000 : ℝ) ≠ 0 := by norm_num
  unfold varK varR mean tot totsq
  simp only [hx, cnt_eq]
  simp only [← EReal.coe_mul, ← coe_sum, Ideal.div_coe h3, ← EReal.coe_sub]
  rw [EReal.coe_eq_coe_iff]
  exact var_identity2 (fun p n => x p n o) 3000000 (by rw [Fintype.card_fin, Fintype.card_fin]; norm_num) h3

/-- Hence the two results agree. -/
theorem outK_eq_outR (hf : ∀ p n k, ∃ r : ℝ, features p n k = (r : EReal)) (hW : ∀ o i, ∃ r : ℝ, W o i = (r : EReal)) :
    outK features npts coords W gamma beta = outR features npts coords W gamma beta := by
  unfold outK outR
  rw [varK_eq_varR features npts coords W hf hW]

end Law

end Cert.Spec

end
-- ==== Proof.PreFinite.lean ====
/-
  From the precondition — every entry of the point array, of the weights, of the scale and of the shift has absolute
  value below plus infinity — to: every entry of the point array and of the weights is the coercion of a real.
  An extended real whose absolute value `max x (-x)` is below the top element is neither infinity.
-/
import proofs.«150693_j22273700397341_2_alg».proof.Defs
import Idealize.ShloMosaic.Lib.ReduceAll
import Idealize.ShloMosaic.Lib.Affine
import Idealize.ShloMosaic.Lib.ValueIdx
import Idealize.ShloMosaic.PureOps.Ideal.Laws

noncomputable section

namespace Cert.PreFinite

open Idealize.ShloMosaic Idealize.SL.Sem

/-- The scalar shape has one index. -/
instance : Subsingleton Cert.Pre_finite_inputs.S_.Idx := ⟨fun a b => funext fun d => d.elim0⟩

/-- The f32 word of plus infinity is the top element. -/
theorem ofBits_inf : Ideal.ofBits .f32 0x7F800000#32 = (⊤ : EReal) := by
  simp [Ideal.ofBits, Ideal.ieee]

/-- An extended real whose absolute value compares below plus infinity is a real. -/
theorem real_of_cmp (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

/-- Every entry of the point array is a real. -/
theorem features_real [hK : Cert.KernelIdeal.Facts] [hP : Cert.Pre_finite_inputs.Facts]
    (m : (ℓ : Loc Cert.KernelIdeal.nD Cert.KernelIdeal.τ Cert.KernelIdeal.sig) → Buf (Elt Ideal) ℓ) (h : Cert.Pre_KernelIdeal m)
    (c : Dev Cert.KernelIdeal.nD) (j : Cert.KernelIdeal.S30000x100x4.Idx) :
    ∃ r : ℝ, (m ((c.tc : Thread Cert.KernelIdeal.nD Cert.KernelIdeal.τ).loc Cert.KernelIdeal.main_arg0)
      : Cert.KernelIdeal.S30000x100x4.Idx → EReal) j = (r : EReal) := by
  have h0 := congrFun (h c) ValueIdx.ix0
  dsimp only [Cert.Pre_finite_inputs.fn, Cert.Pre_finite_inputs.fn_part1] at h0
  obtain ⟨h13, _⟩ := IntOp.andi_eq_one.1 h0
  obtain ⟨h8, _⟩ := IntOp.andi_eq_one.1 h13
  obtain ⟨h3, _⟩ := IntOp.andi_eq_one.1 h8
  exact real_of_cmp _ (Host.reduce_andi_all _ _ _ _ _ h3 j)

/-- Every entry of the weights is a real. -/
theorem W_real [hK : Cert.KernelIdeal.Facts] [hP : Cert.Pre_finite_inputs.Facts]
    (m : (ℓ : Loc Cert.KernelIdeal.nD Cert.KernelIdeal.τ Cert.KernelIdeal.sig) → Buf (Elt Ideal) ℓ) (h : Cert.Pre_KernelIdeal m)
    (c : Dev Cert.KernelIdeal.nD) (j : Cert.KernelIdeal.S64x9.Idx) :
    ∃ r : ℝ, (m ((c.tc : Thread Cert.KernelIdeal.nD Cert.KernelIdeal.τ).loc Cert.KernelIdeal.main_arg3)
      : Cert.KernelIdeal.S64x9.Idx → EReal) j = (r : EReal) := by
  have h0 := congrFun (h c) ValueIdx.ix0
  dsimp only [Cert.Pre_finite_inputs.fn, Cert.Pre_finite_inputs.fn_part1] at h0
  obtain ⟨h13, _⟩ := IntOp.andi_eq_one.1 h0
  obtain ⟨h8, _⟩ := IntOp.andi_eq_one.1 h13
  obtain ⟨_, h7⟩ := IntOp.andi_eq_one.1 h8
  exact real_of_cmp _ (Host.reduce_andi_all _ _ _ _ _ h7 j)

end Cert.PreFinite

end
-- ==== Proof.Claims.lean ====
/-
  The five claims. The three frames: each program terminates without a fault and leaves its arguments as launched —
  the two kernel programs by the four-segment run, the reference by its run with the result dropped. The idealization
  rewrote nothing. At the extended reals both programs end with equal results: the kernel's result array is the
  specification's output with the variance taken as the mean of squares minus the squared mean, the reference's with
  the variance as the mean squared deviation; under the precondition every feature and weight is a real, every linear
  output is then a real (a masked entry is zero whatever the mean of its pillar is), and over the reals the two variances
  are one number.
-/
import proofs.«150693_j22273700397341_2_alg».proof.Defs
import proofs.«150693_j22273700397341_2_alg».proof.Proof.KRunAll
import proofs.«150693_j22273700397341_2_alg».proof.Proof.ValAll
import proofs.«150693_j22273700397341_2_alg».proof.Proof.RefSpec
import proofs.«150693_j22273700397341_2_alg».proof.Proof.SpecLaw
import proofs.«150693_j22273700397341_2_alg».proof.Proof.PreFinite
import proofs.«150693_j22273700397341_2_alg».proof.Proof.Gen.Kernel
import proofs.«150693_j22273700397341_2_alg».proof.Proof.Gen.KernelIdeal
import proofs.«150693_j22273700397341_2_alg».proof.Proof.Gen.ReferenceIdeal
import proofs.«150693_j22273700397341_2_alg».proof.Proof.Gen.ReferenceIdeal.Run
import proofs.«150693_j22273700397341_2_alg».proof.Proof.Gen.ReferenceIdeal.Read
import proofs.«150693_j22273700397341_2_alg».proof.Proof.Gen.Pre_finite_inputs

noncomputable section

open Idealize.ShloMosaic Idealize.ShloMosaic.TcCoe Idealize.SL.Sem Idealize.ShloMosaic.ValueIdx

namespace Cert.Proof.Claims

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal Cert.KernelIdeal.Hand in
theorem algebraic : Cert.algebraic_KernelIdeal_ReferenceIdeal := by
  intro m ρ m' ρ' hpre hagree
  refine ⟨fun c => (fun j : Cert.KernelIdeal.S30000x64.Idx => Cert.Spec.outK (feK m c) (npK m c) (coK m c) (weK m c) (gaK m c) (beK m c) ⟨(j 0).val, idx2_lt0 j⟩ ⟨(j 1).val, idx2_lt1 j⟩), ?_, ?_⟩
  · refine (θ_run Cert.KernelIdeal.defs _ _).mono (fun r h c => ?_) (Cert.KernelIdeal.Hand.run_all (F := Ideal) m ρ)
    exact ⟨(h c _ (mem_uc main_v15 (by decide))).trans (result_eq m ρ c),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c)⟩
  · refine (θ_run Cert.ReferenceIdeal.defs _ _).mono (fun r h c => ⟨(h c).1.trans ?_, (h c).2⟩) (Cert.ReferenceIdeal.Value.run (F := Ideal) m' ρ')
    rw [Cert.RefSpec.res_eq_outR m' c]
    obtain ⟨a0, a1, a2, a3, a4, a5⟩ := hagree c
    rw [a0, a1, a2, a3, a4, a5]
    funext j
    have hf : ∀ p n k, ∃ r : ℝ, feK m c p n k = (r : EReal) := fun p n k => Cert.PreFinite.features_real m hpre c (ix3 p n k)
    have hW : ∀ o i, ∃ r : ℝ, weK m c o i = (r : EReal) := fun o i => Cert.PreFinite.W_real m hpre c (ix2 o i)
    exact (congrFun (congrFun (Cert.Spec.outK_eq_outR (feK m c) (npK m c) (coK m c) (weK m c) (gaK m c) (beK m c) hf hW) _) _).symm

end Cert.Proof.Claims

end
-- ==== Proof.lean ====
/-
  The certificate's claim: the word-level kernel program, its idealization and the idealized reference each run to the
  end leaving their arguments unchanged; the idealization rewrote nothing; and at the extended reals the idealized kernel
  and the idealized reference end with equal results. The kernel accumulates, over a grid of 375 blocks of 80 pillars, the
  per-channel sums of a nine-feature linear layer's outputs and of their squares in two scratch rows, takes mean and
  variance from them on the host, and in a second pass normalises, rectifies and takes the maximum over each pillar's
  points; the reference does the same with whole-array operations and the variance as a mean squared deviation.
-/
import proofs.«150693_j22273700397341_2_alg».proof.Defs
import proofs.«150693_j22273700397341_2_alg».proof.Proof.Claims
import Idealize.ShloMosaic.Adequacy
import Idealize.ShloMosaic.Init

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
